-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100001x128 : Shape := ⟨2, ![100001, 128]⟩
abbrev S_ : Shape := ⟨0, ![]⟩
abbrev S1x128 : Shape := ⟨2, ![1, 128]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_
  slices_S100001x128_S1x128_0_0 : S100001x128.Slices ![0, 0] S1x128
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : IVec S4096x200 32) (main_arg1 : FVec F S100001x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 100000#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  let main_v11 : FVec F S1x128 .f32 := (extractStridedSlice S1x128 ![0, 0] · slices_S100001x128_S1x128_0_0) main_arg1
  let main_cst_3 : FVec F S_ .f32 := constant S_ .f32 0x00000000#32
  let main_v12 : FVec F S1x128 .f32 := broadcastInDim S1x128 ![] bcast_S_S1x128 main_cst_3
  let main_v13 : IVec S1x128 1 := cmpf .oeq main_v11 main_v12
  let main_c_4 : IVec S_ 1 := constantI S_ 1 1#1
  let main_v14 : IVec S_ 1 := (fun x v => Host.reduce IntOp.andi x v reducesTo_S1x128_S_d0_1 h_S_) main_v13 main_c_4
  let main_v15 : IVec S_ 1 := andi main_v10 main_v14
  main_v15
-- ==== Kernel.lean ====
abbrev S4096x200 : Shape := ⟨2, ![4096, 200]⟩
abbrev S100001x128 : Shape := ⟨2, ![100001, 128]⟩
abbrev S6400x128 : Shape := ⟨2, ![6400, 128]⟩
abbrev S819200x128 : Shape := ⟨2, ![819200, 128]⟩
abbrev S200x128 : Shape := ⟨2, ![200, 128]⟩
abbrev S4x128x128 : Shape := ⟨3, ![4, 128, 128]⟩
abbrev S4 : Shape := ⟨1, ![4]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S100001x128, .f32⟩
  | .hbm, ⟨2, _⟩ => ⟨S6400x128, .i32⟩
  | .hbm, ⟨3, _⟩ => ⟨S819200x128, .f32⟩
  | .hbm, ⟨4, _⟩ => ⟨S4096x200x128, .f32⟩
  | .local .scVector .vmem, ⟨0, _⟩ => ⟨S200x128, .i32⟩
  | .local .scVector .vmem, ⟨1, _⟩ => ⟨S4x128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_33_r0 : BitVec 32 := 0#32
  ![v2.toNat, 0]
@[reducible] def k0_t1_loop : Scf.Loop 32 :=
  let c0_i32_30 : BitVec 32 := 0#32
  let c50_i32 : BitVec 32 := 50#32
  let v32 : BitVec 32 := Scalar.addi c0_i32_30 c50_i32
  let c1_i32_31 : BitVec 32 := 1#32
  ⟨c0_i32_30, v32, c1_i32_31⟩
def k0_off2 (i : grid0.Coords) (k0_t1 : Fin k0_t1_loop.trips) (c0_i32_41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v3 : BitVec 32 := Scalar.muli v1 c25600_i32
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let v41 : BitVec 32 := Scalar.addi v33 c0_i32_41
  let c128_i32 : BitVec 32 := 128#32
  let v42 : BitVec 32 := Scalar.muli v41 c128_i32
  let v43 : BitVec 32 := Scalar.addi v3 v42
  let c0_i32_94_r1 : BitVec 32 := 0#32
  ![v43.toNat, 0]
def k0_cond1 (k0_t1 : Fin k0_t1_loop.trips) : BitVec 1 :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_43 : BitVec 32 := 4#32
  let v44 : BitVec 32 := Scalar.addi v33 c4_i32_43
  let c0_i32_44 : BitVec 32 := 0#32
  let v45 : BitVec 32 := Scalar.addi v44 c0_i32_44
  let c200_i32_45 : BitVec 32 := 200#32
  let v46 : BitVec 1 := Scalar.cmpi .slt v45 c200_i32_45
  let v47 : BitVec 32 := Scalar.extui v46
  let c0_i32_46 : BitVec 32 := 0#32
  let v48 : BitVec 1 := Scalar.cmpi .ne v47 c0_i32_46
  v48

def k0_off3 (k0_t1 : Fin k0_t1_loop.trips) : Fin 2 → Nat :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_43 : BitVec 32 := 4#32
  let v44 : BitVec 32 := Scalar.addi v33 c4_i32_43
  let c0_i32_44 : BitVec 32 := 0#32
  let v45 : BitVec 32 := Scalar.addi v44 c0_i32_44
  let c0_i32_96 : BitVec 32 := 0#32
  ![v45.toNat, 0]
def k0_cond2 (k0_t1 : Fin k0_t1_loop.trips) : BitVec 1 :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_58 : BitVec 32 := 4#32
  let v59 : BitVec 32 := Scalar.addi v33 c4_i32_58
  let c1_i32_59 : BitVec 32 := 1#32
  let v60 : BitVec 32 := Scalar.addi v59 c1_i32_59
  let c200_i32_60 : BitVec 32 := 200#32
  let v61 : BitVec 1 := Scalar.cmpi .slt v60 c200_i32_60
  let v62 : BitVec 32 := Scalar.extui v61
  let c0_i32_61 : BitVec 32 := 0#32
  let v63 : BitVec 1 := Scalar.cmpi .ne v62 c0_i32_61
  v63

def k0_off4 (k0_t1 : Fin k0_t1_loop.trips) : Fin 2 → Nat :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_58 : BitVec 32 := 4#32
  let v59 : BitVec 32 := Scalar.addi v33 c4_i32_58
  let c1_i32_59 : BitVec 32 := 1#32
  let v60 : BitVec 32 := Scalar.addi v59 c1_i32_59
  let c0_i32_96 : BitVec 32 := 0#32
  ![v60.toNat, 0]
def k0_cond3 (k0_t1 : Fin k0_t1_loop.trips) : BitVec 1 :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_73 : BitVec 32 := 4#32
  let v74 : BitVec 32 := Scalar.addi v33 c4_i32_73
  let c2_i32_74 : BitVec 32 := 2#32
  let v75 : BitVec 32 := Scalar.addi v74 c2_i32_74
  let c200_i32_75 : BitVec 32 := 200#32
  let v76 : BitVec 1 := Scalar.cmpi .slt v75 c200_i32_75
  let v77 : BitVec 32 := Scalar.extui v76
  let c0_i32_76 : BitVec 32 := 0#32
  let v78 : BitVec 1 := Scalar.cmpi .ne v77 c0_i32_76
  v78

def k0_off5 (k0_t1 : Fin k0_t1_loop.trips) : Fin 2 → Nat :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_73 : BitVec 32 := 4#32
  let v74 : BitVec 32 := Scalar.addi v33 c4_i32_73
  let c2_i32_74 : BitVec 32 := 2#32
  let v75 : BitVec 32 := Scalar.addi v74 c2_i32_74
  let c0_i32_96 : BitVec 32 := 0#32
  ![v75.toNat, 0]
def k0_cond4 (k0_t1 : Fin k0_t1_loop.trips) : BitVec 1 :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_88 : BitVec 32 := 4#32
  let v89 : BitVec 32 := Scalar.addi v33 c4_i32_88
  let c3_i32_89 : BitVec 32 := 3#32
  let v90 : BitVec 32 := Scalar.addi v89 c3_i32_89
  let c200_i32_90 : BitVec 32 := 200#32
  let v91 : BitVec 1 := Scalar.cmpi .slt v90 c200_i32_90
  let v92 : BitVec 32 := Scalar.extui v91
  let c0_i32_91 : BitVec 32 := 0#32
  let v93 : BitVec 1 := Scalar.cmpi .ne v92 c0_i32_91
  v93

def k0_off6 (k0_t1 : Fin k0_t1_loop.trips) : Fin 2 → Nat :=
  let c0_i32_30 : BitVec 32 := 0#32
  let c1_i32_31 : BitVec 32 := 1#32
  let arg8 : BitVec 32 := Scf.iv c0_i32_30 c1_i32_31 k0_t1
  let c4_i32 : BitVec 32 := 4#32
  let v33 : BitVec 32 := Scalar.muli arg8 c4_i32
  let c4_i32_88 : BitVec 32 := 4#32
  let v89 : BitVec 32 := Scalar.addi v33 c4_i32_88
  let c3_i32_89 : BitVec 32 := 3#32
  let v90 : BitVec 32 := Scalar.addi v89 c3_i32_89
  let c0_i32_96 : BitVec 32 := 0#32
  ![v90.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S6400x128 : S4096x200.ShapeCasts S6400x128
  inb_S4x128x128_S1x128x128_0_0_0 : ∀ a, (![0, 0, 0] : Fin 3 → Nat) a + S1x128x128.size a ≤ S4x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S100001x128_S100001x128_0_0 : ∀ a, (![0, 0] : Fin 2 → Nat) a + S100001x128.size a ≤ S100001x128.size a
  inb_S4_S1_0 : ∀ a, (![0] : Fin 1 → Nat) a + S1.size a ≤ S4.size a
  squeezes_S1_S_ : S1.Squeezes S_
  gathers_S100001x128_S128x128 : S100001x128.Gathers 0 S128x128
  inb_S4x128x128_S1x128x128_1_0_0 : ∀ a, (![1, 0, 0] : Fin 3 → Nat) a + S1x128x128.size a ≤ S4x128x128.size a
  inb_S200x128_S1x128_1_0 : ∀ a, (![1, 0] : Fin 2 → Nat) a + S1x128.size a ≤ S200x128.size a
  inb_S4_S1_1 : ∀ a, (![1] : Fin 1 → Nat) a + S1.size a ≤ S4.size a
  inb_S4x128x128_S1x128x128_2_0_0 : ∀ a, (![2, 0, 0] : Fin 3 → Nat) a + S1x128x128.size a ≤ S4x128x128.size a
  inb_S200x128_S1x128_2_0 : ∀ a, (![2, 0] : Fin 2 → Nat) a + S1x128.size a ≤ S200x128.size a
  inb_S4_S1_2 : ∀ a, (![2] : Fin 1 → Nat) a + S1.size a ≤ S4.size a
  inb_S4x128x128_S1x128x128_3_0_0 : ∀ a, (![3, 0, 0] : Fin 3 → Nat) a + S1x128x128.size a ≤ S4x128x128.size a
  inb_S200x128_S1x128_3_0 : ∀ a, (![3, 0] : Fin 2 → Nat) a + S1x128.size a ≤ S200x128.size a
  inb_S4_S1_3 : ∀ a, (![3] : Fin 1 → Nat) a + S1.size a ≤ S4.size a
  shapeCasts_S819200x128_S4096x200x128 : S819200x128.ShapeCasts S4096x200x128
  hcc0_scratch2 : 0 + S4.numel ≤ 9
  hcc0_scoped0 : 4 + S_.numel ≤ 9
  hcc0_scoped1 : 5 + S_.numel ≤ 9
  hcc0_scoped2 : 6 + S_.numel ≤ 9
  hcc0_scoped3 : 7 + S_.numel ≤ 9
  hcc0_scoped4 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S6400x128.size a
  k0_t1_ok : k0_t1_loop.OK
  k0_off2_inb : ∀ (i : grid0.Coords) (k0_t1 : Fin k0_t1_loop.trips), ∀ (r : Fin 4), ∀ a, (k0_off2 i k0_t1 (BitVec.ofNat 32 r.val)) a + S128x128.size a ≤ S819200x128.size a
  k0_off3_inb : ∀ k0_t1 : Fin k0_t1_loop.trips, ∀ (k0_h1 : k0_cond1 k0_t1 = 1#1), ∀ a, (k0_off3 k0_t1) a + S1x128.size a ≤ S200x128.size a
  k0_off4_inb : ∀ k0_t1 : Fin k0_t1_loop.trips, ∀ (k0_h2 : k0_cond2 k0_t1 = 1#1), ∀ a, (k0_off4 k0_t1) a + S1x128.size a ≤ S200x128.size a
  k0_off5_inb : ∀ k0_t1 : Fin k0_t1_loop.trips, ∀ (k0_h3 : k0_cond3 k0_t1 = 1#1), ∀ a, (k0_off5 k0_t1) a + S1x128.size a ≤ S200x128.size a
  k0_off6_inb : ∀ k0_t1 : Fin k0_t1_loop.trips, ∀ (k0_h4 : k0_cond4 k0_t1 = 1#1), ∀ a, (k0_off6 k0_t1) a + S1x128.size a ≤ S200x128.size a

variable [Facts₀]

abbrev cc0_scratch2 : DmaSems sig S4 := SemArray.consecutive 0 S4 hcc0_scratch2
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4

class Facts : Prop extends Facts₀ where

variable [Facts]
-- ==== ReferenceIdeal.lean ====
abbrev S4096x200 : Shape := ⟨2, ![4096, 200]⟩
abbrev S100001x128 : Shape := ⟨2, ![100001, 128]⟩
abbrev S_ : Shape := ⟨0, ![]⟩
abbrev S1 : Shape := ⟨1, ![1]⟩
abbrev S128 : Shape := ⟨1, ![128]⟩
abbrev S4096x200x1 : Shape := ⟨3, ![4096, 200, 1]⟩
abbrev S1x1x1 : Shape := ⟨3, ![1, 1, 1]⟩
abbrev S4096x200x128 : Shape := ⟨3, ![4096, 200, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100001x128, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S128, .f32⟩
  | .hbm, ⟨6, _⟩ => ⟨S100001x128, .f32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S4096x200, .i32⟩
  | .hbm, ⟨14, _⟩ => ⟨S4096x200x1, .i32⟩
  | .hbm, ⟨15, _⟩ => ⟨S1, .i32⟩
  | .hbm, ⟨16, _⟩ => ⟨S_, .i32⟩
  | .hbm, ⟨17, _⟩ => ⟨S4096x200x1, .i32⟩
  | .hbm, ⟨18, _⟩ => ⟨S4096x200x1, .i1⟩
  | .hbm, ⟨19, _⟩ => ⟨S1x1x1, .i32⟩
  | .hbm, ⟨20, _⟩ => ⟨S4096x200x1, .i32⟩
  | .hbm, ⟨21, _⟩ => ⟨S4096x200x1, .i1⟩
  | .hbm, ⟨22, _⟩ => ⟨S4096x200x1, .i1⟩
  | .hbm, ⟨23, _⟩ => ⟨S_, .i1⟩
  | .hbm, ⟨24, _⟩ => ⟨S4096x200, .i1⟩
  | .hbm, ⟨25, _⟩ => ⟨S4096x200x128, .f32⟩
  | .hbm, ⟨26, _⟩ => ⟨S4096x200x128, .i1⟩
  | .hbm, ⟨27, _⟩ => ⟨S_, .f32⟩
  | .hbm, ⟨28, _⟩ => ⟨S4096x200x128, .f32⟩
  | .hbm, ⟨29, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S128 : S_.BroadcastsInDim S128 (![] : Fin 0 → Fin S128.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  scatter_S100001x128_S1_S128_0_0_0_0_wf : ScatterDims.WF S100001x128 S1 S128 [0] [0] [0] 0
  gather_S100001x128_S4096x200x1_S4096x200x128_2_0_n_n_0_2_1128_wf : GatherDims.WF S100001x128 S4096x200x1 S4096x200x128 [2] [0] [] [0] [] 2 ![1, 128]

variable [Facts₀]

def scatter_S100001x128_S1_S128_0_0_0_0 : ScatterDims S100001x128 S1 S128 where
  updateWindowDims := [0]
  insertedWindowDims := [0]
  scatterDimsToOperandDims := [0]
  indexVectorDim := 0
  wf := scatter_S100001x128_S1_S128_0_0_0_0_wf
def gather_S100001x128_S4096x200x1_S4096x200x128_2_0_n_n_0_2_1128 : GatherDims S100001x128 S4096x200x1 S4096x200x128 where
  offsetDims := [2]
  collapsedSliceDims := [0]
  operandBatchingDims := []
  startIndicesBatchingDims := []
  startIndexMap := [0]
  indexVectorDim := 2
  sliceSizes := ![1, 128]
  wf := gather_S100001x128_S4096x200x1_S4096x200x128_2_0_n_n_0_2_1128_wf

class Facts : Prop extends Facts₀ where

variable [Facts]
-- ==== Proof.Spec.lean ====
/-
  The embedding lookup as a function of its arguments.

  `x : i32[4096, 200]` holds row numbers of the table `wt : f32[100001, 128]`. The result `f32[4096, 200, 128]` holds,
  at `(b, h, k)`, entry `k` of the table's row `x[b, h]`. The SparseCore program computes it on the flattened index
  array `x2 : i32[6400, 128]` (the same words in row-major order) as `o : f32[819200, 128]`, row `r` of which is the
  table's row `x2[r / 128, r % 128]`; the result is `o` with its rows regrouped.
-/
import Idealize.ShloMosaic.PureOps
import Idealize.ShloMosaic.Lib.ValueIdx

noncomputable section

namespace Cert.Proof.Spec

open Idealize.ShloMosaic
open Idealize.ShloMosaic.ValueIdx (ix2 ix3)

abbrev SX : Shape := ⟨2, ![4096, 200]⟩
abbrev SW : Shape := ⟨2, ![100001, 128]⟩
abbrev SX2 : Shape := ⟨2, ![6400, 128]⟩
abbrev SO2 : Shape := ⟨2, ![819200, 128]⟩
abbrev SR : Shape := ⟨3, ![4096, 200, 128]⟩

/-- The table row an index word names: the word's value (kept below the table's height, which it is for every word
    in `[0, 100000]`). -/
def rowOf (v : BitVec 32) : Fin 100001 := ⟨v.toNat % 100001, Nat.mod_lt _ (by norm_num)⟩

theorem rowOf_val {v : BitVec 32} (h : v.toNat < 100001) : (rowOf v).val = v.toNat := Nat.mod_eq_of_lt h

/-- Entry `(r / 128, r % 128)` of the flattened index array: the word that names result row `r`. -/
def wordAt (X : SX2.Idx → BitVec 32) (r : Fin 819200) : BitVec 32 :=
  X (ix2 ⟨r.val / 128, by have := r.isLt; omega⟩ ⟨r.val % 128, Nat.mod_lt _ (by norm_num)⟩)

/-- The flat result: row `r` is the table's row named by the `r`-th index word. -/
def gathered {α : Type} (X : SX2.Idx → BitVec 32) (Wt : SW.Idx → α) : SO2.Idx → α :=
  fun j => Wt (ix2 (rowOf (wordAt X (j 0))) (j 1))

/-- The lookup itself: at `(b, h, k)`, entry `k` of the table's row `x[b, h]`. -/
def lookup {α : Type} (x : SX.Idx → BitVec 32) (Wt : SW.Idx → α) : SR.Idx → α :=
  fun j => Wt (ix2 (rowOf (x (ix2 (j 0) (j 1)))) (j 2))

end Cert.Proof.Spec

end
-- ==== Proof.PreFacts.lean ====
/-
  What the precondition gives.

  The precondition is the conjunction of three `all`s, each a reduction by `and` over every entry of an `i1` array:
  every table entry is finite; every index word `v` satisfies `0 ≤ v ≤ 100000` as a signed word; every entry of the
  table's row 0 equals `0.0`. From the second: a signed word that is nonnegative reads the same unsigned, so its value is
  at most 100000, a row of the table. From the third, at the extended reals: row 0 of the table is zero.
-/
import proofs.«206608_g4801773437349_cont_8to1_c_1039_14_alg».proof.Pre_input_domain
import Idealize.ShloMosaic.Lib.ReduceAll
import Idealize.ShloMosaic.Lib.Pipeline.Value
import Idealize.ShloMosaic.Lib.ValueIdx
import Idealize.ShloMosaic.PureOps.Ideal.Laws

noncomputable section

namespace Cert.Proof.PreFacts

open Idealize.ShloMosaic
open Idealize.ShloMosaic.ValueIdx (ix0 ix2)
open Cert.Pre_input_domain

/-- The scalar shape has one index. -/
instance : Subsingleton S_.Idx := ⟨fun a b => funext fun d => d.elim0⟩

/-- A 32-bit word that tests `0 ≤ v` and `v ≤ 100000` as a signed word has an unsigned value of at most 100000: its top
    bit is clear, so the signed and unsigned readings agree. -/
theorem toNat_le_of_signed_range (v : BitVec 32) (h0 : IntOp.cmpi .sge v 0#32 = 1#1) (h1 : IntOp.cmpi .sle v 100000#32 = 1#1) :
    v.toNat ≤ 100000 := by
  rw [IntOp.cmpi_sge] at h0
  rw [IntOp.cmpi_sle] at h1
  simp only [BitVec.toInt_eq_toNat_cond, BitVec.toNat_ofNat, Nat.reducePow, Nat.reduceMod] at h0 h1
  have := v.isLt
  omega

/-- Two extended reals whose ordered-equal comparison is 1 are equal. -/
theorem eq_of_cmp_oeq {a b : EReal} (h : Ideal.cmp .oeq a b = 1#1) : a = b := by
  by_contra hne
  simp [Ideal.cmp, hne] at h

/-- The three `all`s of the precondition, each at its one result index. -/
theorem parts {F : FTy → Type} [FloatOps F] [Facts] (x : IVec S4096x200 32) (w : FVec F S100001x128 .f32)
    (h : fn (F := F) x w = fun _ => 1#1) :
    (∀ i : S4096x200.Idx,
        IntOp.andi (IntOp.cmpi .sge (x i) 0#32) (IntOp.cmpi .sle (x i) 100000#32) = 1#1)
    ∧ (∀ j : S1x128.Idx,
        cmpf .oeq (extractStridedSlice S1x128 ![0, 0] w Facts.slices_S100001x128_S1x128_0_0)
          (broadcastInDim S1x128 ![] Facts.bcast_S_S1x128 (constant (F := F) S_ .f32 0x00000000#32)) j = 1#1) := by
  have e := congrFun h ix0
  dsimp only [fn] at e
  obtain ⟨e12, e3⟩ := IntOp.andi_eq_one.1 e
  obtain ⟨_, e2⟩ := IntOp.andi_eq_one.1 e12
  exact ⟨fun i => Host.reduce_andi_all _ _ _ _ _ e2 i, fun j => Host.reduce_andi_all _ _ _ _ _ e3 j⟩

open Cert.Pre_input_domain in
/-- Every index word names a row of the table. -/
theorem x_in_range {F : FTy → Type} [FloatOps F] [Cert.Pre_input_domain.Facts] (x : IVec S4096x200 32) (w : FVec F S100001x128 .f32)
    (h : Cert.Pre_input_domain.fn (F := F) x w = fun _ => 1#1) : ∀ i : S4096x200.Idx, (x i).toNat < 100001 := by
  intro i
  obtain ⟨a, b⟩ := IntOp.andi_eq_one.1 ((parts x w h).1 i)
  have := toNat_le_of_signed_range (x i) a b
  omega

open Cert.Pre_input_domain in
/-- Row 0 of the table is zero. -/
theorem row0_zero [Cert.Pre_input_domain.Facts] (x : IVec S4096x200 32) (w : FVec Ideal S100001x128 .f32)
    (h : Cert.Pre_input_domain.fn (F := Ideal) x w = fun _ => 1#1) : ∀ k : Fin 128, w (Idealize.ShloMosaic.ValueIdx.ix2 (0 : Fin 100001) k) = (0 : EReal) := by
  intro k
  have hk := (parts x w h).2 (ix2 (0 : Fin 1) k)
  -- entry (0, k) of the slice [0:1, 0:128] is entry (0, k) of the table
  have hs : extractStridedSlice S1x128 ![0, 0] w Facts.slices_S100001x128_S1x128_0_0 (ix2 (0 : Fin 1) k)
      = w (ix2 (0 : Fin 100001) k) :=
    extractStridedSlice_apply _ _ _ _ _ (fun a => match a with
      | ⟨0, _⟩ => rfl
      | ⟨1, _⟩ => by show k.val = 0 + k.val; omega)
  -- at the extended reals the comparison is equality, and the word 0x00000000 is the number 0
  have hc : Ideal.cmp .oeq (extractStridedSlice S1x128 ![0, 0] w Facts.slices_S100001x128_S1x128_0_0 (ix2 (0 : Fin 1) k))
      (Ideal.ofBits .f32 0x00000000#32) = 1#1 := hk
  rw [hs, Ideal.ofBits_zero_f32] at hc
  exact eq_of_cmp_oeq hc

end Cert.Proof.PreFacts

end
-- ==== Proof.KISetup.lean ====
/-
  The embedding lookup's SparseCore program as the launch theorem sees it, and what its handshakes carry.

  The kernel runs on 2 SparseCores x 16 vector subcores. Tile (c, s) has the worker number w = 2 s + c and owns
  rows [200 w, 200 w + 200) of the index array x2 : i32[6400, 128] (the indices, reshaped) and rows
  [25600 w, 25600 w + 25600) of the result o : f32[819200, 128]; every tile reads the whole table
  wt : f32[100001, 128], through a read share of its own. Row r of the result is row x2[r / 128, r % 128] of the table.
-/
import proofs.«206608_g4801773437349_cont_8to1_c_1039_14_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«206608_g4801773437349_cont_8to1_c_1039_14_alg».proof.Proof.Gen.KernelIdeal
import proofs.«206608_g4801773437349_cont_8to1_c_1039_14_alg».proof.Proof.Spec
import proofs.«206608_g4801773437349_cont_8to1_c_1039_14_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev xLoc (d : Dev nD) : Loc nD τ sig := (SparseCore.T d).loc main_v0
abbrev wLoc (d : Dev nD) : Loc nD τ sig := (SparseCore.T d).loc main_arg1
abbrev oLoc (d : Dev nD) : Loc nD τ sig := (SparseCore.T d).loc main_v1
abbrev rLoc (d : Dev nD) : Loc nD τ sig := (SparseCore.T d).loc main_v2

/-- The worker number of tile `(c, s)`: `2 s + c`. -/
def wid (c : Fin 2) (s : Fin 16) : Fin 32 := ⟨2 * s.val + c.val, by omega⟩

theorem xdiv : 32 ∣ S6400x128.size 0 := ⟨200, rfl⟩
theorem odiv : 32 ∣ S819200x128.size 0 := ⟨25600, rfl⟩
/-- Worker `w`'s 200 rows of the index array and its 25600 rows of the result. -/
abbrev xrow (w : Fin 32) : Rect S6400x128 := Rect.part (s := S6400x128) (a₀ := 0) xdiv w
abbrev orow (w : Fin 32) : Rect S819200x128 := Rect.part (s := S819200x128) (a₀ := 0) odiv w

/-- Worker `w`'s read share of the table: one of 32 tokens of the full share. -/
abbrev wq (w : Fin 32) : PosShare TreeShare := Transfers.shareTok fullShare 32 w

/-! ## What the handshakes carry -/

local notation "xV" => (Memref.whole Cert.KernelIdeal.main_v0_scv : Memref Cert.KernelIdeal.sig Kind.scVector Space.hbm Cert.KernelIdeal.S6400x128 EltTy.i32)
local notation "wV" => (Memref.whole Cert.KernelIdeal.main_arg1_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S819200x128 EltTy.f32)

abbrev xSet (w : Fin 32) : Finset S6400x128.Idx := ((xV).view.slice (xrow w)).set
abbrev oSet (w : Fin 32) : Finset S819200x128.Idx := ((oV).view.slice (orow w)).set

variable [FloatOps F]

/- The launch state of the three arrays the call works on: the flattened index array `X`, the table `Wt`, the result
   array before the call `O0`. -/
variable (X : (d : Dev nD) → Buf (Elt F) (xLoc d)) (Wt : (d : Dev nD) → Buf (Elt F) (wLoc d)) (O0 : (d : Dev nD) → Buf (Elt F) (oLoc d))

/-- The result array after the call: row `r` is the table's row named by the `r`-th index word. -/
def res (d : Dev nD) : Buf (Elt F) (oLoc d) := Spec.gathered (X d) (Wt d)

abbrev xRowPts (d : Dev nD) (w : Fin 32) : sProp 𝕄 := xLoc d ↦[xSet w]{fullShare} X d
abbrev wShPts (d : Dev nD) (w : Fin 32) : sProp 𝕄 := wLoc d ↦{wq w} Wt d
abbrev oRowPts (d : Dev nD) (w : Fin 32) (f : Buf (Elt F) (oLoc d)) : sProp 𝕄 := oLoc d ↦[oSet w]{fullShare} f

/-- What worker `w` is handed: its rows of the index array, its read share of the table, its rows of the result; -/
abbrev goPts (d : Dev nD) (w : Fin 32) : sProp 𝕄 := iprop(xRowPts X d w ∗ wShPts Wt d w ∗ oRowPts d w (O0 d))
/-- and what it hands back: the same, its rows of the result now the looked-up rows. -/
abbrev tdPts (d : Dev nD) (w : Fin 32) : sProp 𝕄 := iprop(xRowPts X d w ∗ wShPts Wt d w ∗ oRowPts d w (res X Wt d))

/-- SparseCore `c` takes what its sixteen tasks take, and brings back what they bring back. -/
def P : (K (F := F)).Pay (nD := nD) (Val := Elt F) (Name := ℕ) (U := UU) where
  st := fun q d c => match q with | 0 => bigSep Finset.univ fun i : Fin 16 => goPts X Wt O0 d (wid (Fin.cast nCore_zero c) i)
  dn := fun q d c => match q with | 0 => bigSep Finset.univ fun i : Fin 16 => tdPts X Wt d (wid (Fin.cast nCore_zero c) i)
  go := fun q d c i => match q with | 0 => goPts X Wt O0 d (wid (Fin.cast nCore_zero c) (Fin.cast nSub_zero i))
  td := fun q d c i => match q with | 0 => tdPts X Wt d (wid (Fin.cast nCore_zero c) (Fin.cast nSub_zero i))
  x := fun _ _ => iprop(emp)

instance P_storable : (P (F := F) X Wt O0).IsStorable where
  st q d c := match q with
    | 0 => (inferInstance : BI.Storable (upEmb : UEmb _ 𝕄) (bigSep Finset.univ fun i : Fin 16 => goPts X Wt O0 d (wid (Fin.cast nCore_zero c) i)))
  dn q d c := match q with
    | 0 => (inferInstance : BI.Storable (upEmb : UEmb _ 𝕄) (bigSep Finset.univ fun i : Fin 16 => tdPts X Wt d (wid (Fin.cast nCore_zero c) i)))
  go q d c i := match q with
    | 0 => (inferInstance : BI.Storable (upEmb : UEmb _ 𝕄) (goPts X Wt O0 d (wid (Fin.cast nCore_zero c) (Fin.cast nSub_zero i))))
  td q d c i := match q with
    | 0 => (inferInstance : BI.Storable (upEmb : UEmb _ 𝕄) (tdPts X Wt d (wid (Fin.cast nCore_zero c) (Fin.cast nSub_zero i))))

/-- What the proof asks of the launch state: every index word names a row of the table. -/
def InRange : Prop := ∀ (d : Dev nD) (j : S6400x128.Idx), (X d j).toNat < 100001

end Cert.Proof.KI

end
-- ==== Proof.KIDefs.lean ====
/-
  One tile of the embedding lookup: its views of the arrays, the share tokens it reads the table through, and the
  invariant of its loop. Tile (c, s) is worker w = 2 s + c. Chunk j (0 ≤ j < 200) of the tile is rows
  [25600 w + 128 j, 25600 w + 128 j + 128) of the result; its row numbers are row j of the tile's index scratch, which
  is row 200 w + j of the flattened index array. Chunk j travels through slot j % 4 of the row scratch.
-/
import proofs.«206608_g4801773437349_cont_8to1_c_1039_14_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S6400x128 EltTy.i32)
local notation "wV" => (Memref.whole Cert.KernelIdeal.main_arg1_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S4x128x128 EltTy.f32)

theorem scopedLocs : (Finset.univ.filter fun sl : SemLoc sig => sl.isScoped .scVector = true)
    = {SemLoc.dma 0, SemLoc.dma 1, SemLoc.dma 2, SemLoc.dma 3, SemLoc.dma 4, SemLoc.dma 5, SemLoc.dma 6, SemLoc.dma 7, SemLoc.dma 8} := by decide

theorem ownCells_V (d : Dev nD) (c : Fin τ.nSC) (i : Fin τ.nSub) :
    ownCells (sig := sig) (V d c i)
      = (Finset.univ.filter fun sl : SemLoc sig => sl.isScoped .scVector = true).map
          ⟨fun sl => ((V d c i : Thread nD τ), sl), fun _ _ h => (Prod.mk.inj h).2⟩ := by
  ext ⟨thr, sl⟩
  rw [mem_ownCells, Finset.mem_map]
  constructor
  · rintro ⟨h1, h2⟩
    change thr = V d c i at h1
    subst h1
    exact ⟨sl, Finset.mem_filter.mpr ⟨Finset.mem_univ _, h2⟩, rfl⟩
  · rintro ⟨sl', h, e⟩
    have h' := (Finset.mem_filter.mp h).2
    cases e
    exact ⟨rfl, h'⟩

abbrev cell (d : Dev nD) (c : Fin τ.nSC) (i : Fin τ.nSub) (k : DmaSem sig) : GSem nD τ sig := (V d c i, .dma k)

theorem ownSems0_V (d : Dev nD) (c : Fin τ.nSC) (i : Fin τ.nSub) :
    (ownSems0 (V d c i) : sProp 𝕄)
      = iprop(semVal (cell d c i 0) 0 ∗ semVal (cell d c i 1) 0 ∗ semVal (cell d c i 2) 0 ∗ semVal (cell d c i 3) 0 ∗ semVal (cell d c i 4) 0
          ∗ semVal (cell d c i 5) 0 ∗ semVal (cell d c i 6) 0 ∗ semVal (cell d c i 7) 0 ∗ semVal (cell d c i 8) 0) := by
  unfold SparseCore.Cfg.ownSems0
  rw [ownCells_V, bigSep_map, scopedLocs]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

section Tile
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
theorem L0_lt : (L 0).val < 2 := (L 0).isLt
theorem L1_lt : (L 1).val < 16 := (L 1).isLt
/-- The tile's worker number, from its coordinates. -/
def wL (L : grid0.Coords) : Fin 32 := ⟨2 * (L 1).val + (L 0).val, by have := L0_lt L; have := L1_lt L; omega⟩
theorem wL_eq : wL L = wid (Fin.cast bound_zero (L 0)) (Fin.cast bound_one (L 1)) := rfl

abbrev xrowK (L : grid0.Coords) : Rect S6400x128 := Rect.unit (s := S6400x128) (k0_off1 L) S200x128.size (k0_off1_inb L)
abbrev xRowK (L : grid0.Coords) : Memref sig .scVector .hbm S200x128 .i32 := (xV).slice (xrowK L) (fun _ => rfl)

theorem xrowK_eq : xrowK L = xrow (wL L) := by
  have h0 := L0_lt L; have h1 := L1_lt L
  unfold xrowK xrow Rect.part Rect.block
  congr 1 <;> funext a
  · rw [k0_off1_eq]
    match a with
    | 0 => simp [Shape.partIx, Shape.partSize, wL]; omega
    | 1 => simp [Shape.partIx, Shape.partSize]
  · match a with
    | 0 => simp [Shape.partSize]
    | 1 => simp [Shape.partSize]

abbrev S25600x128 : Shape := ⟨2, ![25600, 128]⟩
theorem orowK_inb : ∀ a, (![51200 * (L 1).val + 25600 * (L 0).val, 0] : Fin 2 → Nat) a + S25600x128.size a ≤ S819200x128.size a := by
  have h0 := L0_lt L; have h1 := L1_lt L
  intro a
  match a with
  | 0 => simp [Shape.size]; omega
  | 1 => simp [Shape.size]
abbrev orowK (L : grid0.Coords) : Rect S819200x128 :=
  Rect.unit (s := S819200x128) ![51200 * (L 1).val + 25600 * (L 0).val, 0] S25600x128.size (orowK_inb L)

theorem orowK_eq : orowK L = orow (wL L) := by
  have h0 := L0_lt L; have h1 := L1_lt L
  unfold orowK orow Rect.part Rect.block
  congr 1 <;> funext a
  · match a with
    | 0 => simp [Shape.partIx, Shape.partSize, wL]; omega
    | 1 => simp [Shape.partIx, Shape.partSize]
  · match a with
    | 0 => simp [Shape.partSize]
    | 1 => simp [Shape.partSize]

theorem set_xRowK : (xRowK L).view.set = xSet (wL L) := by
  show ((xV).view.slice (xrowK L)).set = ((xV).view.slice (xrow (wL L))).set
  rw [xrowK_eq]
theorem setOn_orowK : (oV).view.setOn (orowK L).set = oSet (wL L) := by
  show _ = ((oV).view.slice (orow (wL L))).set
  rw [View.set_slice, ← orowK_eq]; rfl

variable [FloatOps F]
variable (X : (d : Dev nD) → Buf (Elt F) (xLoc d)) (Wt : (d : Dev nD) → Buf (Elt F) (wLoc d)) (O0 : (d : Dev nD) → Buf (Elt F) (oLoc d))

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The index scratch after the fetch: the tile's 200 rows of the index array. -/
abbrev fetched (fs : Buf (Elt F) ((iV).view.loc (V d (cV L) (jV L)))) : Buf (Elt F) ((iV).view.loc (V d (cV L) (jV L))) :=
  (iV).view.write (Elt F) fs (ReadAs.same.apply ((xRowK L).view.read (Elt F) (X d))) Finset.univ

omit [FloatOps F] in
/-- Every word the fetch landed names a table row: it is a word of the index array. -/
theorem fetched_lt (hpre : InRange X) (fs : Buf (Elt F) ((iV).view.loc (V d (cV L) (jV L)))) (j : S200x128.Idx) :
    (fetched d L X fs j).toNat < 100001 := by
  unfold fetched
  rw [View.write_whole_univ]
  exact hpre d _

omit [FloatOps F] in
/-- A read share gives up one more token; -/
theorem tok_split {ℓ : Loc nD τ sig} (f : Buf (Elt F) ℓ) (q : PosShare TreeShare) (k : ℕ) :
    (ℓ ↦{Transfers.shareDrop q k} f : sProp 𝕄) ⊢ iprop((ℓ ↦{Transfers.shareDrop q (k + 1)} f) ∗ ℓ ↦{Transfers.shareTokN q k} f) :=
  (pointsTo_share (PosShare.mem_left_op_right (Transfers.shareDrop q k))).1
omit [FloatOps F] in
/-- and takes it back. -/
theorem tok_join {ℓ : Loc nD τ sig} (f : Buf (Elt F) ℓ) (q : PosShare TreeShare) (k : ℕ) :
    iprop((ℓ ↦{Transfers.shareDrop q (k + 1)} f) ∗ ℓ ↦{Transfers.shareTokN q k} f) ⊢ (ℓ ↦{Transfers.shareDrop q k} f : sProp 𝕄) :=
  (pointsTo_share (PosShare.mem_left_op_right (Transfers.shareDrop q k))).2

/-! ## The loop's invariant -/

/-- The four slots of the row scratch. -/
abbrev rS0 : Memref sig .scVector .vmem S128x128 .f32 := ((rV).slice (Rect.unit (s := S4x128x128) ![0, 0, 0] S1x128x128.size inb_S4x128x128_S1x128x128_0_0_0) (fun _ => rfl)).squeeze S128x128 squeezes_S1x128x128_S128x128
abbrev rS1 : Memref sig .scVector .vmem S128x128 .f32 := ((rV).slice (Rect.unit (s := S4x128x128) ![1, 0, 0] S1x128x128.size inb_S4x128x128_S1x128x128_1_0_0) (fun _ => rfl)).squeeze S128x128 squeezes_S1x128x128_S128x128
abbrev rS2 : Memref sig .scVector .vmem S128x128 .f32 := ((rV).slice (Rect.unit (s := S4x128x128) ![2, 0, 0] S1x128x128.size inb_S4x128x128_S1x128x128_2_0_0) (fun _ => rfl)).squeeze S128x128 squeezes_S1x128x128_S128x128
abbrev rS3 : Memref sig .scVector .vmem S128x128 .f32 := ((rV).slice (Rect.unit (s := S4x128x128) ![3, 0, 0] S1x128x128.size inb_S4x128x128_S1x128x128_3_0_0) (fun _ => rfl)).squeeze S128x128 squeezes_S1x128x128_S128x128
/-- The table, as every gather addresses it. -/
abbrev wSl : Memref sig .scVector .hbm S100001x128 .f32 := (wV).slice (Rect.unit (s := S100001x128) ![0, 0] S100001x128.size inb_S100001x128_S100001x128_0_0) (fun _ => rfl)

omit [FloatOps F] in
theorem iRow_inb (j : ℕ) (hj : j < 200) : ∀ a, (![j, 0] : Fin 2 → ℕ) a + S1x128.size a ≤ S200x128.size a := by
  intro a
  match a with
  | 0 => simp [Shape.size]; omega
  | 1 => simp [Shape.size]
/-- Row `j` of the index scratch: the list of chunk `j`. -/
abbrev iRowAt (j : ℕ) (hj : j < 200) : Memref sig .scVector .vmem S128 .i32 :=
  ((iV).slice (Rect.unit (s := S200x128) ![j, 0] S1x128.size (iRow_inb j hj)) (fun _ => rfl)).squeeze S128 squeezes_S1x128_S128

omit [FloatOps F] in
theorem oCh_inb (j : ℕ) (hj : j < 200) :
    ∀ a, (![51200 * (L 1).val + 25600 * (L 0).val + 128 * j, 0] : Fin 2 → ℕ) a + S128x128.size a ≤ S819200x128.size a := by
  have h0 := L0_lt L; have h1 := L1_lt L
  intro a
  match a with
  | 0 => simp [Shape.size]; omega
  | 1 => simp [Shape.size]
/-- Chunk `j` of the tile's rows of the result: 128 rows. -/
abbrev oChAt (j : ℕ) (hj : j < 200) : Memref sig .scVector .hbm S128x128 .f32 :=
  (oV).slice (Rect.unit (s := S819200x128) ![51200 * (L 1).val + 25600 * (L 0).val + 128 * j, 0] S128x128.size (oCh_inb L j hj)) (fun _ => rfl)

abbrev tV : Thread nD τ := V d (cV L) (jV L)

/-- The result array holds the looked-up rows on the tile's first `n` chunks. -/
def DoneN (n : ℕ) (fO : Buf (Elt F) ((oV).view.loc (tV d L))) : Prop :=
  ∀ i : S819200x128.Idx, 25600 * (wL L).val ≤ (i 0).val → (i 0).val < 25600 * (wL L).val + 128 * n → fO i = res X Wt d i

omit [FloatOps F] in
theorem lt200_0 (k : ℕ) (h : k < 50) : 4 * k + 0 < 200 := by omega
omit [FloatOps F] in
theorem lt200_1 (k : ℕ) (h : k < 50) : 4 * k + 1 < 200 := by omega
omit [FloatOps F] in
theorem lt200_2 (k : ℕ) (h : k < 50) : 4 * k + 2 < 200 := by omega
omit [FloatOps F] in
theorem lt200_3 (k : ℕ) (h : k < 50) : 4 * k + 3 < 200 := by omega

/-- Slot 0's contents are chunk `j`'s rows of the result. -/
def SlotHolds0 (j : ℕ) (hj : j < 200) (g : Buf (Elt F) ((rV).view.loc (tV d L))) : Prop :=
  ∀ y : S128x128.Idx, g ((rS0).view.emb y) = res X Wt d ((oChAt L j hj).view.emb y)
/-- The gather of chunk `j` in flight into slot 0: it delivers the slot at `g`, the list row it read and the table token it read through. -/
abbrev flight0 (j : ℕ) (hj : j < 200) (fI : Buf (Elt F) ((iV).view.loc (tV d L))) (g : Buf (Elt F) ((rV).view.loc (tV d L))) : sProp 𝕄 :=
  Transfers.Flight countersEmb (tV d L) (SemLoc.dma 0) default 524288
    iprop((((rV).view.loc (tV d L) ↦[(rS0).view.set]{fullShare} g) ∗ ((iV).view.loc (tV d L) ↦[(iRowAt j hj).view.set]{fullShare} fI))
      ∗ ((wV).view.loc (tV d L) ↦[(wSl).view.set]{Transfers.shareTokN (wq (wL L)) 0} Wt d))
/-- Slot 1's contents are chunk `j`'s rows of the result. -/
def SlotHolds1 (j : ℕ) (hj : j < 200) (g : Buf (Elt F) ((rV).view.loc (tV d L))) : Prop :=
  ∀ y : S128x128.Idx, g ((rS1).view.emb y) = res X Wt d ((oChAt L j hj).view.emb y)
/-- The gather of chunk `j` in flight into slot 1: it delivers the slot at `g`, the list row it read and the table token it read through. -/
abbrev flight1 (j : ℕ) (hj : j < 200) (fI : Buf (Elt F) ((iV).view.loc (tV d L))) (g : Buf (Elt F) ((rV).view.loc (tV d L))) : sProp 𝕄 :=
  Transfers.Flight countersEmb (tV d L) (SemLoc.dma 1) default 524288
    iprop((((rV).view.loc (tV d L) ↦[(rS1).view.set]{fullShare} g) ∗ ((iV).view.loc (tV d L) ↦[(iRowAt j hj).view.set]{fullShare} fI))
      ∗ ((wV).view.loc (tV d L) ↦[(wSl).view.set]{Transfers.shareTokN (wq (wL L)) 1} Wt d))
/-- Slot 2's contents are chunk `j`'s rows of the result. -/
def SlotHolds2 (j : ℕ) (hj : j < 200) (g : Buf (Elt F) ((rV).view.loc (tV d L))) : Prop :=
  ∀ y : S128x128.Idx, g ((rS2).view.emb y) = res X Wt d ((oChAt L j hj).view.emb y)
/-- The gather of chunk `j` in flight into slot 2: it delivers the slot at `g`, the list row it read and the table token it read through. -/
abbrev flight2 (j : ℕ) (hj : j < 200) (fI : Buf (Elt F) ((iV).view.loc (tV d L))) (g : Buf (Elt F) ((rV).view.loc (tV d L))) : sProp 𝕄 :=
  Transfers.Flight countersEmb (tV d L) (SemLoc.dma 2) default 524288
    iprop((((rV).view.loc (tV d L) ↦[(rS2).view.set]{fullShare} g) ∗ ((iV).view.loc (tV d L) ↦[(iRowAt j hj).view.set]{fullShare} fI))
      ∗ ((wV).view.loc (tV d L) ↦[(wSl).view.set]{Transfers.shareTokN (wq (wL L)) 2} Wt d))
/-- Slot 3's contents are chunk `j`'s rows of the result. -/
def SlotHolds3 (j : ℕ) (hj : j < 200) (g : Buf (Elt F) ((rV).view.loc (tV d L))) : Prop :=
  ∀ y : S128x128.Idx, g ((rS3).view.emb y) = res X Wt d ((oChAt L j hj).view.emb y)
/-- The gather of chunk `j` in flight into slot 3: it delivers the slot at `g`, the list row it read and the table token it read through. -/
abbrev flight3 (j : ℕ) (hj : j < 200) (fI : Buf (Elt F) ((iV).view.loc (tV d L))) (g : Buf (Elt F) ((rV).view.loc (tV d L))) : sProp 𝕄 :=
  Transfers.Flight countersEmb (tV d L) (SemLoc.dma 3) default 524288
    iprop((((rV).view.loc (tV d L) ↦[(rS3).view.set]{fullShare} g) ∗ ((iV).view.loc (tV d L) ↦[(iRowAt j hj).view.set]{fullShare} fI))
      ∗ ((wV).view.loc (tV d L) ↦[(wSl).view.set]{Transfers.shareTokN (wq (wL L)) 3} Wt d))

abbrev wRest (tok : ℕ) : sProp 𝕄 :=
  (wV).view.loc (tV d L) ↦[Finset.univ \ (wSl).view.set]{Transfers.shareTokN (wq (wL L)) tok} Wt d

/-- Before trip `k < 50`: the gathers of chunks `4k … 4k+3` are in flight into the four slots. -/
def InFlight (fI : Buf (Elt F) ((iV).view.loc (tV d L))) (k : ℕ) (h : k < 50) : sProp 𝕄 :=
  iprop((∃ g, flight0 d L Wt (4 * k + 0) (lt200_0 k h) fI g ∗ ⌜SlotHolds0 d L X Wt (4 * k + 0) (lt200_0 k h) g⌝) ∗ wRest d L Wt 0
    ∗ (∃ g, flight1 d L Wt (4 * k + 1) (lt200_1 k h) fI g ∗ ⌜SlotHolds1 d L X Wt (4 * k + 1) (lt200_1 k h) g⌝) ∗ wRest d L Wt 1
    ∗ (∃ g, flight2 d L Wt (4 * k + 2) (lt200_2 k h) fI g ∗ ⌜SlotHolds2 d L X Wt (4 * k + 2) (lt200_2 k h) g⌝) ∗ wRest d L Wt 2
    ∗ (∃ g, flight3 d L Wt (4 * k + 3) (lt200_3 k h) fI g ∗ ⌜SlotHolds3 d L X Wt (4 * k + 3) (lt200_3 k h) g⌝) ∗ wRest d L Wt 3
    ∗ (∃ R, (rV).view.loc (tV d L) ↦[(((Finset.univ \ (rS0).view.set) \ (rS1).view.set) \ (rS2).view.set) \ (rS3).view.set]{fullShare} R)
    ∗ ((iV).view.loc (tV d L) ↦[(((Finset.univ \ ((iRowAt (4 * k + 0) (lt200_0 k h)).view.set : Finset (Idx ((iV).view.loc (tV d L))))) \ ((iRowAt (4 * k + 1) (lt200_1 k h)).view.set : Finset (Idx ((iV).view.loc (tV d L)))))
          \ ((iRowAt (4 * k + 2) (lt200_2 k h)).view.set : Finset (Idx ((iV).view.loc (tV d L))))) \ ((iRowAt (4 * k + 3) (lt200_3 k h)).view.set : Finset (Idx ((iV).view.loc (tV d L))))]{fullShare} fI))

def inv (fI : Buf (Elt F) ((iV).view.loc (tV d L))) (O : CellTallies nD τ sig (HIx 1)) (W : Waits sig (HIx 1)) (k : ℕ) (_ : PUnit) : sProp 𝕄 :=
  iprop(Transfers.MayWaits (tV d L) (default : HIx 1) O
    ∗ (∃ fO, ((oV).view.loc (tV d L) ↦[(oV).view.setOn (orowK L).set]{fullShare} fO) ∗ ⌜DoneN d L X Wt (4 * k) fO⌝)
    ∗ semVal (cell d (cV L) (jV L) 5) 0 ∗ semVal (cell d (cV L) (jV L) 6) 0 ∗ semVal (cell d (cV L) (jV L) 7) 0 ∗ semVal (cell d (cV L) (jV L) 8) 0
    ∗ (∃ W', ⌜∀ p ∈ W', p ∈ W ∨ p.2 = none⌝ ∗ owes (tV d L) O W')
    ∗ (if h : k < 50 then InFlight d L X Wt fI k h else iprop(emp)))

omit [FloatOps F] in
theorem conds_of_lt : ∀ k : Fin k0_t1_loop.trips, k.val + 1 < 50 → k0_cond1 k = 1#1 ∧ k0_cond2 k = 1#1 ∧ k0_cond3 k = 1#1 ∧ k0_cond4 k = 1#1 := by decide +kernel
omit [FloatOps F] in
theorem conds_of_last : ∀ k : Fin k0_t1_loop.trips, ¬ k.val + 1 < 50 → ¬ k0_cond1 k = 1#1 ∧ ¬ k0_cond2 k = 1#1 ∧ ¬ k0_cond3 k = 1#1 ∧ ¬ k0_cond4 k = 1#1 := by decide +kernel
omit [FloatOps F] in
theorem trips_eq : k0_t1_loop.trips = 50 := by decide

end Tile

end Cert.Proof.KI

end
-- ==== Proof.KIRows.lean ====
/-
  Rows of the index scratch.

  A row of the index scratch `i32[200, 128]` is the rectangle of height 1 and width 128 at some row offset; an element is in it
  exactly when its row coordinate is that offset. So rows at different offsets share no element — as rectangles of the
  scratch, and as the 128-vectors they are squeezed to (a squeeze keeps the elements). In trip `k` of the tile's loop
  the next four gathers read rows `4 k + 4, …, 4 k + 7`.
-/
import proofs.«206608_g4801773437349_cont_8to1_c_1039_14_alg».proof.Proof.KIDefs

noncomputable section

namespace Cert.Proof.KI

open Cert.KernelIdeal Cert.KernelIdeal.Gen

open Idealize.ShloMosaic

local notation "iV" => (Memref.whole Cert.KernelIdeal.cc0_scratch0 : Memref Cert.KernelIdeal.sig Kind.scVector Space.vmem Cert.KernelIdeal.S200x128 EltTy.i32)

/-- Two rows of the index scratch at different row offsets are disjoint; -/
theorem rows_disjoint' (off off' : Fin 2 → ℕ) (inb : ∀ a, off a + S1x128.size a ≤ S200x128.size a)
    (inb' : ∀ a, off' a + S1x128.size a ≤ S200x128.size a) (h : off 0 ≠ off' 0) :
    Disjoint ((iV).slice (Rect.unit (s := S200x128) off S1x128.size inb) (fun _ => rfl)).view.set
      ((iV).slice (Rect.unit (s := S200x128) off' S1x128.size inb') (fun _ => rfl)).view.set := by
  have e : ((iV).slice (Rect.unit (s := S200x128) off S1x128.size inb) (fun _ => rfl)).view.set
      = (Rect.unit (s := S200x128) off S1x128.size inb).set := View.set_slice_whole _ _
  have e' : ((iV).slice (Rect.unit (s := S200x128) off' S1x128.size inb') (fun _ => rfl)).view.set
      = (Rect.unit (s := S200x128) off' S1x128.size inb').set := View.set_slice_whole _ _
  rw [e, e']
  refine Rect.unit_disjoint 0 ?_
  have h1 : S1x128.size 0 = 1 := rfl
  rw [h1]
  omega

/-- and so are the 128-vectors they are squeezed to. -/
theorem rows_disjoint (off off' : Fin 2 → ℕ) (inb : ∀ a, off a + S1x128.size a ≤ S200x128.size a)
    (inb' : ∀ a, off' a + S1x128.size a ≤ S200x128.size a) (h : off 0 ≠ off' 0) :
    Disjoint (((iV).slice (Rect.unit (s := S200x128) off S1x128.size inb) (fun _ => rfl)).squeeze S128 squeezes_S1x128_S128).view.set
      (((iV).slice (Rect.unit (s := S200x128) off' S1x128.size inb') (fun _ => rfl)).squeeze S128 squeezes_S1x128_S128).view.set := by
  have e : (((iV).slice (Rect.unit (s := S200x128) off S1x128.size inb) (fun _ => rfl)).squeeze S128 squeezes_S1x128_S128).view.set
      = ((iV).slice (Rect.unit (s := S200x128) off S1x128.size inb) (fun _ => rfl)).view.set := View.set_reshape _ _
  have e' : (((iV).slice (Rect.unit (s := S200x128) off' S1x128.size inb') (fun _ => rfl)).squeeze S128 squeezes_S1x128_S128).view.set
      = ((iV).slice (Rect.unit (s := S200x128) off' S1x128.size inb') (fun _ => rfl)).view.set := View.set_reshape _ _
  rw [e, e']
  exact rows_disjoint' off off' inb inb' h

/-- The rows the four gathers issued in trip `k` read. -/
theorem off3_row (k : Fin k0_t1_loop.trips) : (k0_off3 k) 0 = 4 * k.val + 4 := by rw [k0_off3_eq]; rfl
theorem off4_row (k : Fin k0_t1_loop.trips) : (k0_off4 k) 0 = 4 * k.val + 5 := by rw [k0_off4_eq]; rfl
theorem off5_row (k : Fin k0_t1_loop.trips) : (k0_off5 k) 0 = 4 * k.val + 6 := by rw [k0_off5_eq]; rfl
theorem off6_row (k : Fin k0_t1_loop.trips) : (k0_off6 k) 0 = 4 * k.val + 7 := by rw [k0_off6_eq]; rfl

/-- The four together. -/
theorem off3_ne : ∀ k : Fin k0_t1_loop.trips, (k0_off3 k) 0 = 4 * k.val + 4 ∧ (k0_off4 k) 0 = 4 * k.val + 5
    ∧ (k0_off5 k) 0 = 4 * k.val + 6 ∧ (k0_off6 k) 0 = 4 * k.val + 7 :=
  fun k => ⟨off3_row k, off4_row k, off5_row k, off6_row k⟩

end Cert.Proof.KI

end
-- ==== Proof.Chunks.lean ====
/-
  A worker's rows of the flat result, chunk by chunk.

  Worker `w` owns rows `[25600 w, 25600 w + 25600)` of the flat result and fills them in 200 chunks of 128 rows: chunk `j`
  is rows `[25600 w + 128 j, 25600 w + 128 j + 128)`. The chunks cover the worker's rows — row `r` lies in chunk
  `(r - 25600 w) / 128` — so two arrays that agree on every chunk agree on all the worker's rows. Row `p` of chunk `j` is the
  flat row `r = 25600 w + 128 j + p`; as `25600 = 128 · 200`, `r / 128 = 200 w + j` and `r % 128 = p`: the word that names it is
  entry `p` of row `j` of the worker's 200 rows of the flattened index array.
-/
import proofs.«206608_g4801773437349_cont_8to1_c_1039_14_alg».proof.Proof.Spec

noncomputable section

namespace Cert.Proof.Chunks

open Idealize.ShloMosaic

/-- The cover: agreement on each of the worker's 200 chunks is agreement on all its rows. -/
theorem rows_of_chunks {α : Type} (f g : Spec.SO2.Idx → α) (w : Fin 32)
    (h : ∀ (j : Fin 200) (i : Spec.SO2.Idx), 25600 * w.val + 128 * j.val ≤ (i 0).val → (i 0).val < 25600 * w.val + 128 * j.val + 128 → f i = g i) :
    ∀ i : Spec.SO2.Idx, 25600 * w.val ≤ (i 0).val → (i 0).val < 25600 * w.val + 25600 → f i = g i := by
  intro i h0 h1
  refine h ⟨((i 0).val - 25600 * w.val) / 128, by omega⟩ i ?_ ?_
  · show 25600 * w.val + 128 * (((i 0).val - 25600 * w.val) / 128) ≤ (i 0).val
    omega
  · show (i 0).val < 25600 * w.val + 128 * (((i 0).val - 25600 * w.val) / 128) + 128
    omega

/-- The index word of row `p` of the worker's chunk `j`: entry `(200 w + j, p)` of the flattened index array. -/
theorem wordAt_chunk (X : Spec.SX2.Idx → BitVec 32) (w : Fin 32) (j : Fin 200) (p : Fin 128) (r : Fin 819200)
    (hr : r.val = 25600 * w.val + 128 * j.val + p.val) :
    Spec.wordAt X r = X (ValueIdx.ix2 ⟨200 * w.val + j.val, by omega⟩ p) := by
  unfold Spec.wordAt
  refine congrArg X (funext fun a => ?_)
  match a with
  | ⟨0, _⟩ => exact Fin.ext (by show r.val / 128 = 200 * w.val + j.val; omega)
  | ⟨1, _⟩ => exact Fin.ext (by show r.val % 128 = p.val; omega)

end Cert.Proof.Chunks

end
-- ==== Proof.KIVal.lean ====
/-
  Values in one tile's loop of the embedding lookup.

  A gather of chunk j reads row j of the tile's index scratch — after the fetch, row 200 w + j of the flattened index
  array, w the tile's worker number — and delivers, at (p, c), the table's entry (x2[200 w + j, p], c). Row p of chunk j
  of the tile's rows of the result is the flat row r = 25600 w + 128 j + p, for which r / 128 = 200 w + j and
  r % 128 = p: the looked-up row there is the table's row x2[200 w + j, p], the same entry. A slot of the row scratch
  written whole with such a payload holds the chunk's rows of the result.
-/
import proofs.«206608_g4801773437349_cont_8to1_c_1039_14_alg».proof.Proof.KIDefs
import proofs.«206608_g4801773437349_cont_8to1_c_1039_14_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S6400x128 EltTy.i32)
local notation "wV" => (Memref.whole Cert.KernelIdeal.main_arg1_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S4x128x128 EltTy.f32)

section Val
variable (d : Dev nD) (L : grid0.Coords)

/-! ## Where the tile's views place their indices -/

/-- The table as a gather addresses it is the table: index for index. -/
theorem wSl_emb (z : S100001x128.Idx) : (wSl).view.emb z = z := by
  funext a
  apply Fin.ext
  show (![0, 0] : Fin 2 → ℕ) a + 1 * (z a).val = (z a).val
  match a with
  | ⟨0, _⟩ => simp
  | ⟨1, _⟩ => simp

/-- Row `j` of the index scratch as a list: the slice at `![j, 0]`, squeezed. -/
abbrev iRowV (j : ℕ) (inb : ∀ a, (![j, 0] : Fin 2 → ℕ) a + S1x128.size a ≤ S200x128.size a) : Memref sig .scVector .vmem S128 .i32 :=
  ((iV).slice (Rect.unit (s := S200x128) ![j, 0] S1x128.size inb) (fun _ => rfl)).squeeze S128 squeezes_S1x128_S128

/-- Entry `p` of the list at row `j` of the index scratch is the scratch's entry `(j, p)`. -/
theorem iRow_emb_val (j : ℕ) (inb : ∀ a, (![j, 0] : Fin 2 → ℕ) a + S1x128.size a ≤ S200x128.size a) (x : S128.Idx) :
    ((iRowV j inb).view.emb x 0).val = j ∧ ((iRowV j inb).view.emb x 1).val = (x 0).val := by
  have hnum : S128.numel = S1x128.numel := squeezes_S1x128_S128.numel_eq
  set y' : S1x128.Idx := Shape.reshapeEquiv hnum x with hy'
  have h1 : (S1x128.rowMajor y').val = (S128.rowMajor x).val := Shape.rowMajor_reshapeEquiv hnum x
  have h2 : (S1x128.rowMajor y').val = (y' 0).val * 128 + (y' 1).val := Shape.rowMajor_val_two y'
  have h3 : (S128.rowMajor x).val = (x 0).val := Shape.rowMajor_val_one x
  have h0 : (y' 0).val < 1 := (y' 0).isLt
  constructor
  · show (![j, 0] : Fin 2 → ℕ) 0 + 1 * (y' 0).val = j
    simp; omega
  · show (![j, 0] : Fin 2 → ℕ) 1 + 1 * (y' 1).val = (x 0).val
    simp; omega

/-- Entry `(j, p)` of the tile's rows of the index array is the array's entry `(200 w + j, p)`. -/
theorem xRowK_emb_val (i : S200x128.Idx) :
    ((xRowK L).view.emb i 0).val = 200 * (wL L).val + (i 0).val ∧ ((xRowK L).view.emb i 1).val = (i 1).val := by
  constructor
  · show (k0_off1 L) 0 + 1 * (i 0).val = 200 * (2 * (L 1).val + (L 0).val) + (i 0).val
    rw [k0_off1_eq]; simp; omega
  · show (k0_off1 L) 1 + 1 * (i 1).val = (i 1).val
    rw [k0_off1_eq]; simp

/-- Entry `(p, c)` of chunk `j` of the tile's rows of the result is the result's entry `(25600 w + 128 j + p, c)`. -/
theorem oCh_emb_val (j : ℕ) (hj : j < 200) (y : S128x128.Idx) :
    ((oChAt L j hj).view.emb y 0).val = 25600 * (wL L).val + 128 * j + (y 0).val ∧ ((oChAt L j hj).view.emb y 1).val = (y 1).val := by
  constructor
  · show (![51200 * (L 1).val + 25600 * (L 0).val + 128 * j, 0] : Fin 2 → ℕ) 0 + 1 * (y 0).val = 25600 * (2 * (L 1).val + (L 0).val) + 128 * j + (y 0).val
    simp; omega
  · show (![51200 * (L 1).val + 25600 * (L 0).val + 128 * j, 0] : Fin 2 → ℕ) 1 + 1 * (y 1).val = (y 1).val
    simp

variable [FloatOps F]
variable (X : (d : Dev nD) → Buf (Elt F) (xLoc d)) (Wt : (d : Dev nD) → Buf (Elt F) (wLoc d)) (O0 : (d : Dev nD) → Buf (Elt F) (oLoc d))

omit [FloatOps F] in
/-- After the fetch the index scratch holds the tile's rows of the index array. -/
theorem fetched_apply (fs : Buf (Elt F) ((iV).view.loc (tV d L))) (i : S200x128.Idx) :
    fetched d L X fs i = X d ((xRowK L).view.emb i) := by
  unfold fetched
  rw [View.write_whole_univ]
  rfl

/-! ## A slot written whole holds what was written -/

theorem slot0_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds0 d L X Wt j hj (View.write (Elt F) (rS0).view base pay Finset.univ) := by
  intro y
  rw [View.write_emb_of_mem _ _ (Finset.mem_univ y)]
  exact hpay y
theorem slot1_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds1 d L X Wt j hj (View.write (Elt F) (rS1).view base pay Finset.univ) := by
  intro y
  rw [View.write_emb_of_mem _ _ (Finset.mem_univ y)]
  exact hpay y
theorem slot2_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds2 d L X Wt j hj (View.write (Elt F) (rS2).view base pay Finset.univ) := by
  intro y
  rw [View.write_emb_of_mem _ _ (Finset.mem_univ y)]
  exact hpay y
theorem slot3_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds3 d L X Wt j hj (View.write (Elt F) (rS3).view base pay Finset.univ) := by
  intro y
  rw [View.write_emb_of_mem _ _ (Finset.mem_univ y)]
  exact hpay y

/-! ## What a gather delivers -/

omit [FloatOps F] in
/-- The table read as a gather addresses it is the table. -/
theorem wSl_read (z : S100001x128.Idx) : (wSl).view.read (Elt F) (Wt d) z = Wt d z := by
  rw [View.read_apply, wSl_emb]
  rfl

/-- The looked-up rows, entry by entry. -/
theorem res_apply (i : S819200x128.Idx) : res X Wt d i = Wt d (ix2 (Spec.rowOf (Spec.wordAt (X d) (i 0))) (i 1)) := rfl

theorem gather_pay_eq (hpre : InRange X) (fs : Buf (Elt F) ((iV).view.loc (tV d L))) (j : ℕ) (hj : j < 200)
    (off : Fin 2 → ℕ) (inb : ∀ a, off a + S1x128.size a ≤ S200x128.size a) (hoff : off = ![j, 0])
    (hn : S128.numel = S128x128.size gathers_S100001x128_S128x128.axis')
    (hin : ∀ x, ((((iV).slice (Rect.unit (s := S200x128) off S1x128.size inb) (fun _ => rfl)).squeeze S128 squeezes_S1x128_S128).view.read (Elt F)
      (fetched d L X fs) x).toNat < S100001x128.size gathers_S100001x128_S128x128.axis)
    (y : S128x128.Idx) :
    SparseCore.gatherPayload gathers_S100001x128_S128x128 ((wSl).view.read (Elt F) (Wt d))
        (SparseCore.rows ((((iV).slice (Rect.unit (s := S200x128) off S1x128.size inb) (fun _ => rfl)).squeeze S128 squeezes_S1x128_S128).view.read (Elt F)
          (fetched d L X fs)) hn hin) y
      = res X Wt d ((oChAt L j hj).view.emb y) := by
  subst hoff
  obtain ⟨ho0, ho1⟩ := oCh_emb_val L j hj y
  have hy0 : (y 0).val < 128 := (y 0).isLt
  -- the list entry the payload's row `y 0` reads: entry `y 0` of the list
  have hx0 : ((S128.rowMajor.symm ((y gathers_S100001x128_S128x128.axis').cast hn.symm)) 0).val = (y 0).val := by
    have h1 := Shape.rowMajor_val_one (S128.rowMajor.symm ((y gathers_S100001x128_S128x128.axis').cast hn.symm))
    rw [Equiv.apply_symm_apply] at h1
    exact h1.symm
  obtain ⟨hr0, hr1⟩ := iRow_emb_val j inb (S128.rowMajor.symm ((y gathers_S100001x128_S128x128.axis').cast hn.symm))
  obtain ⟨hk0, hk1⟩ := xRowK_emb_val L ((iRowV j inb).view.emb (S128.rowMajor.symm ((y gathers_S100001x128_S128x128.axis').cast hn.symm)))
  -- that entry is the index word of the result row
  have hword : (iRowV j inb).view.read (Elt F) (fetched d L X fs) (S128.rowMajor.symm ((y gathers_S100001x128_S128x128.axis').cast hn.symm))
      = Spec.wordAt (X d) ((oChAt L j hj).view.emb y 0) := by
    rw [View.read_apply, fetched_apply]
    show X d _ = X d _
    refine congrArg (X d) (funext fun a => Fin.ext ?_)
    match a with
    | ⟨0, _⟩ =>
      show ((xRowK L).view.emb ((iRowV j inb).view.emb (S128.rowMajor.symm ((y gathers_S100001x128_S128x128.axis').cast hn.symm))) 0).val
        = ((oChAt L j hj).view.emb y 0).val / 128
      omega
    | ⟨1, _⟩ =>
      show ((xRowK L).view.emb ((iRowV j inb).view.emb (S128.rowMajor.symm ((y gathers_S100001x128_S128x128.axis').cast hn.symm))) 1).val
        = ((oChAt L j hj).view.emb y 0).val % 128
      omega
  show (wSl).view.read (Elt F) (Wt d) (gathers_S100001x128_S128x128.idx _ y) = _
  rw [wSl_read, res_apply]
  refine congrArg (Wt d) (funext fun a => Fin.ext ?_)
  match a with
  | ⟨0, _⟩ =>
    show (gathers_S100001x128_S128x128.idx _ y gathers_S100001x128_S128x128.axis).val = (Spec.rowOf (Spec.wordAt (X d) ((oChAt L j hj).view.emb y 0))).val
    have hlt : (Spec.wordAt (X d) ((oChAt L j hj).view.emb y 0)).toNat < 100001 := hpre d _
    rw [Shape.Gathers.idx_axis, Spec.rowOf_val hlt, ← hword]
    rfl
  | ⟨1, _⟩ =>
    show (gathers_S100001x128_S128x128.idx _ y ⟨1, by decide⟩).val = ((oChAt L j hj).view.emb y 1).val
    rw [Shape.Gathers.idx_of_ne _ _ _ _ (by decide), ho1]
    rfl

end Val

end Cert.Proof.KI

end
-- ==== Proof.KIDone.lean ====
/-
  The values of one tile's loop over its chunks.

  The tile's rows of the result are filled chunk by chunk: `DoneN n` says the first `n` chunks — rows
  `[25600 w, 25600 w + 128 n)` — hold the looked-up rows. Nothing is asked of no chunks; writing chunk `n`, 128 rows from row
  `25600 w + 128 n`, with the looked-up rows of that chunk extends `DoneN n` to `DoneN (n + 1)`: an entry inside the chunk
  takes the payload, an entry outside keeps what it had, and an entry below row `25600 w + 128 (n + 1)` that is not in the
  chunk is below row `25600 w + 128 n`. After 200 chunks all the tile's 25600 rows are done. A slot of the row scratch that
  holds chunk `n` reads, entry by entry, as that chunk of the result.
-/
import proofs.«206608_g4801773437349_cont_8to1_c_1039_14_alg».proof.Proof.KIDefs
import proofs.«206608_g4801773437349_cont_8to1_c_1039_14_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "xV" => (Memref.whole Cert.KernelIdeal.main_v0_scv : Memref Cert.KernelIdeal.sig Kind.scVector Space.hbm Cert.KernelIdeal.S6400x128 EltTy.i32)
local notation "wV" => (Memref.whole Cert.KernelIdeal.main_arg1_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S4x128x128 EltTy.f32)

section Tile
variable (d : Dev nD) (L : grid0.Coords)
variable [FloatOps F]
variable (X : (d : Dev nD) → Buf (Elt F) (xLoc d)) (Wt : (d : Dev nD) → Buf (Elt F) (wLoc d)) (O0 : (d : Dev nD) → Buf (Elt F) (oLoc d))

/-- The tile's first row of the result, by its coordinates and by its worker number. -/
theorem firstRow_eq : 51200 * (L 1).val + 25600 * (L 0).val = 25600 * (wL L).val := by
  show _ = 25600 * (2 * (L 1).val + (L 0).val)
  omega

/-- The elements under a 128-row window of the result from row `r₀`: rows `[r₀, r₀ + 128)`, every column. -/
theorem mem_window (r₀ : ℕ) (inb : ∀ a, (![r₀, 0] : Fin 2 → ℕ) a + S128x128.size a ≤ S819200x128.size a) (i : S819200x128.Idx) :
    i ∈ ((oV).slice (Rect.unit (s := S819200x128) ![r₀, 0] S128x128.size inb) (fun _ => rfl)).view.set
      ↔ r₀ ≤ (i 0).val ∧ (i 0).val < r₀ + 128 := by
  have e : ((oV).slice (Rect.unit (s := S819200x128) ![r₀, 0] S128x128.size inb) (fun _ => rfl)).view.set
      = (Rect.unit (s := S819200x128) ![r₀, 0] S128x128.size inb).set := View.set_slice_whole _ _
  rw [e, Rect.mem_set_unit]
  have h1 : (i 1).val < 128 := (i 1).isLt
  constructor
  · intro h
    exact h 0
  · intro h a
    match a with
    | ⟨0, _⟩ => exact h
    | ⟨1, _⟩ => exact ⟨Nat.zero_le _, by show (i 1).val < 0 + 128; omega⟩

/-- No chunk done yet asks nothing. -/
theorem doneN_zero (fO : Buf (Elt F) ((oV).view.loc (tV d L))) : DoneN d L X Wt 0 fO := by
  intro i h0 h1
  omega

/-- Chunk `n` written with its looked-up rows: the first `n + 1` chunks are done. -/
theorem doneN_step (n : ℕ) (hn : n < 200) (fO : Buf (Elt F) ((oV).view.loc (tV d L))) (hd : DoneN d L X Wt n fO)
    (pay : S128x128.Idx → Elt F .f32) (hpay : ∀ y : S128x128.Idx, pay y = res X Wt d ((oChAt L n hn).view.emb y))
    (off : Fin 2 → ℕ) (inb : ∀ a, off a + S128x128.size a ≤ S819200x128.size a)
    (hoff : off = ![51200 * (L 1).val + 25600 * (L 0).val + 128 * n, 0]) :
    DoneN d L X Wt (n + 1) (View.write (Elt F) ((oV).slice (Rect.unit (s := S819200x128) off S128x128.size inb) (fun _ => rfl)).view fO pay Finset.univ) := by
  subst hoff
  intro i h0 h1
  have hw := firstRow_eq L
  by_cases hm : i ∈ ((oV).slice (Rect.unit (s := S819200x128) ![51200 * (L 1).val + 25600 * (L 0).val + 128 * n, 0] S128x128.size inb) (fun _ => rfl)).view.set
  · -- inside the chunk: the payload
    obtain ⟨y, -, rfl⟩ := Finset.mem_map.mp hm
    rw [View.write_emb_of_mem _ _ (Finset.mem_univ y)]
    exact (cast_eq _ _).trans (hpay y)
  · -- outside it: what was there, and the row is one of the first `n` chunks'
    rw [View.write_of_not_mem _ _ _ (by rw [View.setOn_univ]; exact hm)]
    refine hd i h0 ?_
    rw [mem_window] at hm
    omega

/-- All 200 chunks done: every one of the tile's rows of the result holds its looked-up row. -/
theorem doneN_all (fO : Buf (Elt F) ((oV).view.loc (tV d L))) (h : DoneN d L X Wt 200 fO) :
    ∀ i ∈ (oV).view.setOn (orowK L).set, fO i = res X Wt d i := by
  intro i hi
  obtain ⟨x, hx, rfl⟩ := Finset.mem_map.mp hi
  have hw := firstRow_eq L
  obtain ⟨hlo, hhi⟩ := Rect.mem_set_unit.mp hx 0
  have hlo' : 51200 * (L 1).val + 25600 * (L 0).val ≤ (x 0).val := hlo
  have hhi' : (x 0).val < 51200 * (L 1).val + 25600 * (L 0).val + 25600 := hhi
  exact h x (by omega) (by omega)

/-- What a transfer out of slot 0 moves, when the slot holds chunk `n`: entry by entry, the chunk's rows of the result. -/
theorem read_slot0 (n : ℕ) (hn : n < 200) (g : Buf (Elt F) ((rV).view.loc (tV d L))) (hs : SlotHolds0 d L X Wt n hn g) (y : S128x128.Idx) :
    ReadAs.same.apply ((rS0).view.read (Elt F) g) y = res X Wt d ((oChAt L n hn).view.emb y) := by
  show (rS0).view.read (Elt F) g y = _
  rw [View.read_apply]
  exact (cast_eq _ _).trans (hs y)

/-- What a transfer out of slot 1 moves, when the slot holds chunk `n`: entry by entry, the chunk's rows of the result. -/
theorem read_slot1 (n : ℕ) (hn : n < 200) (g : Buf (Elt F) ((rV).view.loc (tV d L))) (hs : SlotHolds1 d L X Wt n hn g) (y : S128x128.Idx) :
    ReadAs.same.apply ((rS1).view.read (Elt F) g) y = res X Wt d ((oChAt L n hn).view.emb y) := by
  show (rS1).view.read (Elt F) g y = _
  rw [View.read_apply]
  exact (cast_eq _ _).trans (hs y)

/-- What a transfer out of slot 2 moves, when the slot holds chunk `n`: entry by entry, the chunk's rows of the result. -/
theorem read_slot2 (n : ℕ) (hn : n < 200) (g : Buf (Elt F) ((rV).view.loc (tV d L))) (hs : SlotHolds2 d L X Wt n hn g) (y : S128x128.Idx) :
    ReadAs.same.apply ((rS2).view.read (Elt F) g) y = res X Wt d ((oChAt L n hn).view.emb y) := by
  show (rS2).view.read (Elt F) g y = _
  rw [View.read_apply]
  exact (cast_eq _ _).trans (hs y)

/-- What a transfer out of slot 3 moves, when the slot holds chunk `n`: entry by entry, the chunk's rows of the result. -/
theorem read_slot3 (n : ℕ) (hn : n < 200) (g : Buf (Elt F) ((rV).view.loc (tV d L))) (hs : SlotHolds3 d L X Wt n hn g) (y : S128x128.Idx) :
    ReadAs.same.apply ((rS3).view.read (Elt F) g) y = res X Wt d ((oChAt L n hn).view.emb y) := by
  show (rS3).view.read (Elt F) g y = _
  rw [View.read_apply]
  exact (cast_eq _ _).trans (hs y)

end Tile

end Cert.Proof.KI

end
-- ==== Proof.KIJoin.lean ====
/-
  The row scratch after the loop: its four slots, each held at its own contents, and the rest of the buffer join into
  the whole buffer at some contents.

  Slot b is the buffer's elements whose first coordinate is b, so the four slots are pairwise disjoint; the rest is held
  as everything but the four slots, and everything but some sets together with those sets is everything.
-/
import proofs.«206608_g4801773437349_cont_8to1_c_1039_14_alg».proof.Proof.KIDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S6400x128 EltTy.i32)
local notation "wV" => (Memref.whole Cert.KernelIdeal.main_arg1_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S4x128x128 EltTy.f32)

section Join
variable (d : Dev nD) (L : grid0.Coords)

/-! ## The slots as sets of the buffer's elements -/

abbrev slotRect0 : Rect S4x128x128 := Rect.unit (s := S4x128x128) ![0, 0, 0] S1x128x128.size inb_S4x128x128_S1x128x128_0_0_0
abbrev slotRect1 : Rect S4x128x128 := Rect.unit (s := S4x128x128) ![1, 0, 0] S1x128x128.size inb_S4x128x128_S1x128x128_1_0_0
abbrev slotRect2 : Rect S4x128x128 := Rect.unit (s := S4x128x128) ![2, 0, 0] S1x128x128.size inb_S4x128x128_S1x128x128_2_0_0
abbrev slotRect3 : Rect S4x128x128 := Rect.unit (s := S4x128x128) ![3, 0, 0] S1x128x128.size inb_S4x128x128_S1x128x128_3_0_0

theorem rS0_set : (rS0).view.set = slotRect0.set := (View.set_reshape _ _).trans (View.set_slice_whole _ _)
theorem rS1_set : (rS1).view.set = slotRect1.set := (View.set_reshape _ _).trans (View.set_slice_whole _ _)
theorem rS2_set : (rS2).view.set = slotRect2.set := (View.set_reshape _ _).trans (View.set_slice_whole _ _)
theorem rS3_set : (rS3).view.set = slotRect3.set := (View.set_reshape _ _).trans (View.set_slice_whole _ _)

/-- Two slots differ in the first coordinate of every element. -/
theorem slots_10 : Disjoint (rS1).view.set (rS0).view.set := by
  rw [rS1_set, rS0_set]; exact Rect.unit_disjoint 0 (Or.inr (by decide))
theorem slots_20 : Disjoint (rS2).view.set (rS0).view.set := by
  rw [rS2_set, rS0_set]; exact Rect.unit_disjoint 0 (Or.inr (by decide))
theorem slots_21 : Disjoint (rS2).view.set (rS1).view.set := by
  rw [rS2_set, rS1_set]; exact Rect.unit_disjoint 0 (Or.inr (by decide))
theorem slots_30 : Disjoint (rS3).view.set (rS0).view.set := by
  rw [rS3_set, rS0_set]; exact Rect.unit_disjoint 0 (Or.inr (by decide))
theorem slots_31 : Disjoint (rS3).view.set (rS1).view.set := by
  rw [rS3_set, rS1_set]; exact Rect.unit_disjoint 0 (Or.inr (by decide))
theorem slots_32 : Disjoint (rS3).view.set (rS2).view.set := by
  rw [rS3_set, rS2_set]; exact Rect.unit_disjoint 0 (Or.inr (by decide))

theorem sub1 : (rS1).view.set ⊆ Finset.univ \ (rS0).view.set :=
  Finset.subset_sdiff.mpr ⟨Finset.subset_univ _, slots_10⟩
theorem sub2 : (rS2).view.set ⊆ (Finset.univ \ (rS0).view.set) \ (rS1).view.set :=
  Finset.subset_sdiff.mpr ⟨Finset.subset_sdiff.mpr ⟨Finset.subset_univ _, slots_20⟩, slots_21⟩
theorem sub3 : (rS3).view.set ⊆ ((Finset.univ \ (rS0).view.set) \ (rS1).view.set) \ (rS2).view.set :=
  Finset.subset_sdiff.mpr ⟨Finset.subset_sdiff.mpr ⟨Finset.subset_sdiff.mpr ⟨Finset.subset_univ _, slots_30⟩, slots_31⟩, slots_32⟩

/-! ## The join -/

theorem rowScratch_join (R g0 g1 g2 g3 : Buf (Elt F) ((rV).view.loc (tV d L))) :
    iprop(((rV).view.loc (tV d L) ↦[(((Finset.univ \ (rS0).view.set) \ (rS1).view.set) \ (rS2).view.set) \ (rS3).view.set]{fullShare} R)
        ∗ ((rS0).view.loc (tV d L) ↦[(rS0).view.set]{fullShare} g0) ∗ ((rS1).view.loc (tV d L) ↦[(rS1).view.set]{fullShare} g1)
        ∗ ((rS2).view.loc (tV d L) ↦[(rS2).view.set]{fullShare} g2) ∗ ((rS3).view.loc (tV d L) ↦[(rS3).view.set]{fullShare} g3))
      ⊢ (iprop(∃ f, (V d (cV L) (jV L)).loc cc0_scratch1 ↦{fullShare} f) : sProp 𝕄) := by
  iintro ⟨HR, H0, H1, H2, H3⟩
  ihave H := (pointsTo_join_subset (ℓ := (rV).view.loc (tV d L)) (q := fullShare) (g := g3) (f := R) sub3) $$ [H3 HR]
  · isplitl [H3] <;> iassumption
  ihave H := (pointsTo_join_subset (ℓ := (rV).view.loc (tV d L)) (q := fullShare) (g := g2)
    (f := ((rS3).view.set : Finset (Idx ((rV).view.loc (tV d L)))).piecewise g3 R) sub2) $$ [H2 H]
  · isplitl [H2] <;> iassumption
  ihave H := (pointsTo_join_subset (ℓ := (rV).view.loc (tV d L)) (q := fullShare) (g := g1)
    (f := ((rS2).view.set : Finset (Idx ((rV).view.loc (tV d L)))).piecewise g2 (((rS3).view.set : Finset (Idx ((rV).view.loc (tV d L)))).piecewise g3 R)) sub1) $$ [H1 H]
  · isplitl [H1] <;> iassumption
  ihave H := (pointsTo_join_subset (ℓ := (rV).view.loc (tV d L)) (q := fullShare) (g := g0)
    (f := ((rS1).view.set : Finset (Idx ((rV).view.loc (tV d L)))).piecewise g1 (((rS2).view.set : Finset (Idx ((rV).view.loc (tV d L)))).piecewise g2 (((rS3).view.set : Finset (Idx ((rV).view.loc (tV d L)))).piecewise g3 R)))
    (Finset.subset_univ ((rS0).view.set : Finset (Idx ((rV).view.loc (tV d L)))))) $$ [H0 H]
  · isplitl [H0] <;> iassumption
  iexists _
  iexact H

end Join

end Cert.Proof.KI

end
-- ==== Proof.KIBody.lean ====
import proofs.«206608_g4801773437349_cont_8to1_c_1039_14_alg».proof.Proof.KIDefs
import proofs.«206608_g4801773437349_cont_8to1_c_1039_14_alg».proof.Proof.KIRows
import proofs.«206608_g4801773437349_cont_8to1_c_1039_14_alg».proof.Proof.KIVal
import proofs.«206608_g4801773437349_cont_8to1_c_1039_14_alg».proof.Proof.KIDone
import proofs.«206608_g4801773437349_cont_8to1_c_1039_14_alg».proof.Proof.KIJoin

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S6400x128 EltTy.i32)
local notation "wV" => (Memref.whole Cert.KernelIdeal.main_arg1_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S4x128x128 EltTy.f32)

section Tile
variable (d : Dev nD) (L : grid0.Coords)
variable [FloatOps F]
variable (X : (d : Dev nD) → Buf (Elt F) (xLoc d)) (Wt : (d : Dev nD) → Buf (Elt F) (wLoc d)) (O0 : (d : Dev nD) → Buf (Elt F) (oLoc d))

/-- The gather of chunk `j` in flight into slot 0: it delivers the slot (by its own elements) at `g`, the list row it read and the table token it read through. -/
abbrev flightO0 (j : ℕ) (hj : j < 200) (fI : Buf (Elt F) ((iV).view.loc (tV d L))) (g : Buf (Elt F) ((rV).view.loc (tV d L))) : sProp 𝕄 :=
  Transfers.Flight countersEmb (tV d L) (SemLoc.dma 0) default 524288
    iprop((((rS0).view.loc (tV d L) ↦[(rS0).view.set]{fullShare} g) ∗ ((iV).view.loc (tV d L) ↦[(iRowAt j hj).view.set]{fullShare} fI))
      ∗ ((wV).view.loc (tV d L) ↦[(wSl).view.set]{Transfers.shareTokN (wq (wL L)) 0} Wt d))
/-- The gather of chunk `j` in flight into slot 1: it delivers the slot (by its own elements) at `g`, the list row it read and the table token it read through. -/
abbrev flightO1 (j : ℕ) (hj : j < 200) (fI : Buf (Elt F) ((iV).view.loc (tV d L))) (g : Buf (Elt F) ((rV).view.loc (tV d L))) : sProp 𝕄 :=
  Transfers.Flight countersEmb (tV d L) (SemLoc.dma 1) default 524288
    iprop((((rS1).view.loc (tV d L) ↦[(rS1).view.set]{fullShare} g) ∗ ((iV).view.loc (tV d L) ↦[(iRowAt j hj).view.set]{fullShare} fI))
      ∗ ((wV).view.loc (tV d L) ↦[(wSl).view.set]{Transfers.shareTokN (wq (wL L)) 1} Wt d))
/-- The gather of chunk `j` in flight into slot 2: it delivers the slot (by its own elements) at `g`, the list row it read and the table token it read through. -/
abbrev flightO2 (j : ℕ) (hj : j < 200) (fI : Buf (Elt F) ((iV).view.loc (tV d L))) (g : Buf (Elt F) ((rV).view.loc (tV d L))) : sProp 𝕄 :=
  Transfers.Flight countersEmb (tV d L) (SemLoc.dma 2) default 524288
    iprop((((rS2).view.loc (tV d L) ↦[(rS2).view.set]{fullShare} g) ∗ ((iV).view.loc (tV d L) ↦[(iRowAt j hj).view.set]{fullShare} fI))
      ∗ ((wV).view.loc (tV d L) ↦[(wSl).view.set]{Transfers.shareTokN (wq (wL L)) 2} Wt d))
/-- The gather of chunk `j` in flight into slot 3: it delivers the slot (by its own elements) at `g`, the list row it read and the table token it read through. -/
abbrev flightO3 (j : ℕ) (hj : j < 200) (fI : Buf (Elt F) ((iV).view.loc (tV d L))) (g : Buf (Elt F) ((rV).view.loc (tV d L))) : sProp 𝕄 :=
  Transfers.Flight countersEmb (tV d L) (SemLoc.dma 3) default 524288
    iprop((((rS3).view.loc (tV d L) ↦[(rS3).view.set]{fullShare} g) ∗ ((iV).view.loc (tV d L) ↦[(iRowAt j hj).view.set]{fullShare} fI))
      ∗ ((wV).view.loc (tV d L) ↦[(wSl).view.set]{Transfers.shareTokN (wq (wL L)) 3} Wt d))

/-- Before trip `k < 50`: the gathers of chunks `4k … 4k+3` are in flight into the four slots. -/
def InFlightO (fI : Buf (Elt F) ((iV).view.loc (tV d L))) (k : ℕ) (h : k < 50) : sProp 𝕄 :=
  iprop((∃ g, flightO0 d L Wt (4 * k + 0) (lt200_0 k h) fI g ∗ ⌜SlotHolds0 d L X Wt (4 * k + 0) (lt200_0 k h) g⌝) ∗ wRest d L Wt 0
    ∗ (∃ g, flightO1 d L Wt (4 * k + 1) (lt200_1 k h) fI g ∗ ⌜SlotHolds1 d L X Wt (4 * k + 1) (lt200_1 k h) g⌝) ∗ wRest d L Wt 1
    ∗ (∃ g, flightO2 d L Wt (4 * k + 2) (lt200_2 k h) fI g ∗ ⌜SlotHolds2 d L X Wt (4 * k + 2) (lt200_2 k h) g⌝) ∗ wRest d L Wt 2
    ∗ (∃ g, flightO3 d L Wt (4 * k + 3) (lt200_3 k h) fI g ∗ ⌜SlotHolds3 d L X Wt (4 * k + 3) (lt200_3 k h) g⌝) ∗ wRest d L Wt 3
    ∗ (∃ R, (rV).view.loc (tV d L) ↦[(((Finset.univ \ (rS0).view.set) \ (rS1).view.set) \ (rS2).view.set) \ (rS3).view.set]{fullShare} R)
    ∗ ((iV).view.loc (tV d L) ↦[(((Finset.univ \ ((iRowAt (4 * k + 0) (lt200_0 k h)).view.set : Finset (Idx ((iV).view.loc (tV d L))))) \ ((iRowAt (4 * k + 1) (lt200_1 k h)).view.set : Finset (Idx ((iV).view.loc (tV d L)))))
          \ ((iRowAt (4 * k + 2) (lt200_2 k h)).view.set : Finset (Idx ((iV).view.loc (tV d L))))) \ ((iRowAt (4 * k + 3) (lt200_3 k h)).view.set : Finset (Idx ((iV).view.loc (tV d L))))]{fullShare} fI))

/-- After the last trip: nothing in flight; the four slots, the four tokens and the gather cells are back. -/
def IdleO (fI : Buf (Elt F) ((iV).view.loc (tV d L))) : sProp 𝕄 :=
  iprop((∃ g, (rS0).view.loc (tV d L) ↦[(rS0).view.set]{fullShare} g) ∗ ((wV).view.loc (tV d L) ↦{Transfers.shareTokN (wq (wL L)) 0} Wt d) ∗ semVal (cell d (cV L) (jV L) 0) 0
    ∗ (∃ g, (rS1).view.loc (tV d L) ↦[(rS1).view.set]{fullShare} g) ∗ ((wV).view.loc (tV d L) ↦{Transfers.shareTokN (wq (wL L)) 1} Wt d) ∗ semVal (cell d (cV L) (jV L) 1) 0
    ∗ (∃ g, (rS2).view.loc (tV d L) ↦[(rS2).view.set]{fullShare} g) ∗ ((wV).view.loc (tV d L) ↦{Transfers.shareTokN (wq (wL L)) 2} Wt d) ∗ semVal (cell d (cV L) (jV L) 2) 0
    ∗ (∃ g, (rS3).view.loc (tV d L) ↦[(rS3).view.set]{fullShare} g) ∗ ((wV).view.loc (tV d L) ↦{Transfers.shareTokN (wq (wL L)) 3} Wt d) ∗ semVal (cell d (cV L) (jV L) 3) 0
    ∗ (∃ R, (rV).view.loc (tV d L) ↦[(((Finset.univ \ (rS0).view.set) \ (rS1).view.set) \ (rS2).view.set) \ (rS3).view.set]{fullShare} R)
    ∗ ((iV).view.loc (tV d L) ↦{fullShare} fI))

def invO (fI : Buf (Elt F) ((iV).view.loc (tV d L))) (O : CellTallies nD τ sig (HIx 1)) (W : Waits sig (HIx 1)) (k : ℕ) (_ : PUnit) : sProp 𝕄 :=
  iprop(Transfers.MayWaits (tV d L) (default : HIx 1) O
    ∗ (∃ fO, ((oV).view.loc (tV d L) ↦[(oV).view.setOn (orowK L).set]{fullShare} fO) ∗ ⌜DoneN d L X Wt (4 * k) fO⌝)
    ∗ semVal (cell d (cV L) (jV L) 5) 0 ∗ semVal (cell d (cV L) (jV L) 6) 0 ∗ semVal (cell d (cV L) (jV L) 7) 0 ∗ semVal (cell d (cV L) (jV L) 8) 0
    ∗ (∃ W', ⌜∀ p ∈ W', p ∈ W ∨ p.2 = none⌝ ∗ owes (tV d L) O W')
    ∗ (if h : k < 50 then InFlightO d L X Wt fI k h else IdleO d L Wt fI))

omit [FloatOps F] in
theorem waits_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

omit [FloatOps F] in
/-- The flight into slot 0, its list row spelt by its offsets. -/
theorem flightO0_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 0) default 524288
      iprop((((rS0).view.loc (tV d L) ↦[(rS0).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 0} Wt d)) : sProp 𝕄)
      = flightO0 d L Wt j hj fI g := by
  subst hoff; rfl
omit [FloatOps F] in
/-- The flight into slot 1, its list row spelt by its offsets. -/
theorem flightO1_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 1) default 524288
      iprop((((rS1).view.loc (tV d L) ↦[(rS1).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 1} Wt d)) : sProp 𝕄)
      = flightO1 d L Wt j hj fI g := by
  subst hoff; rfl
omit [FloatOps F] in
/-- The flight into slot 2, its list row spelt by its offsets. -/
theorem flightO2_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 2) default 524288
      iprop((((rS2).view.loc (tV d L) ↦[(rS2).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 2} Wt d)) : sProp 𝕄)
      = flightO2 d L Wt j hj fI g := by
  subst hoff; rfl
omit [FloatOps F] in
/-- The flight into slot 3, its list row spelt by its offsets. -/
theorem flightO3_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 3) default 524288
      iprop((((rS3).view.loc (tV d L) ↦[(rS3).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 3} Wt d)) : sProp 𝕄)
      = flightO3 d L Wt j hj fI g := by
  subst hoff; rfl
omit [FloatOps F] in
/-- The index scratch less four rows, the rows spelt by their offsets. -/
theorem idxRest_rows (j0 j1 j2 j3 : ℕ) (h0 : j0 < 200) (h1 : j1 < 200) (h2 : j2 < 200) (h3 : j3 < 200) (o0 o1 o2 o3 : Fin 2 → ℕ)
    (i0 : ∀ a, o0 a + S1x128.size a ≤ S200x128.size a) (i1 : ∀ a, o1 a + S1x128.size a ≤ S200x128.size a)
    (i2 : ∀ a, o2 a + S1x128.size a ≤ S200x128.size a) (i3 : ∀ a, o3 a + S1x128.size a ≤ S200x128.size a)
    (e0 : o0 = ![j0, 0]) (e1 : o1 = ![j1, 0]) (e2 : o2 = ![j2, 0]) (e3 : o3 = ![j3, 0]) (fI : Buf (Elt F) ((iV).view.loc (tV d L))) :
    ((iV).view.loc (tV d L) ↦[(((Finset.univ \ ((((iV).slice (Rect.unit (s := S200x128) o0 S1x128.size i0) (fun _ => rfl)).squeeze S128 squeezes_S1x128_S128).view.set : Finset (Idx ((iV).view.loc (tV d L))))) \ ((((iV).slice (Rect.unit (s := S200x128) o1 S1x128.size i1) (fun _ => rfl)).squeeze S128 squeezes_S1x128_S128).view.set : Finset (Idx ((iV).view.loc (tV d L)))))
          \ ((((iV).slice (Rect.unit (s := S200x128) o2 S1x128.size i2) (fun _ => rfl)).squeeze S128 squeezes_S1x128_S128).view.set : Finset (Idx ((iV).view.loc (tV d L))))) \ ((((iV).slice (Rect.unit (s := S200x128) o3 S1x128.size i3) (fun _ => rfl)).squeeze S128 squeezes_S1x128_S128).view.set : Finset (Idx ((iV).view.loc (tV d L))))]{fullShare} fI : sProp 𝕄)
      = ((iV).view.loc (tV d L) ↦[(((Finset.univ \ ((iRowAt j0 h0).view.set : Finset (Idx ((iV).view.loc (tV d L))))) \ ((iRowAt j1 h1).view.set : Finset (Idx ((iV).view.loc (tV d L)))))
          \ ((iRowAt j2 h2).view.set : Finset (Idx ((iV).view.loc (tV d L))))) \ ((iRowAt j3 h3).view.set : Finset (Idx ((iV).view.loc (tV d L))))]{fullShare} fI) := by
  subst e0 e1 e2 e3; rfl

omit [FloatOps F] in
theorem off2_chunk (k : Fin k0_t1_loop.trips) (b : Fin 4) :
    k0_off2 L k (BitVec.ofNat 32 b.val) = ![51200 * (L 1).val + 25600 * (L 0).val + 128 * (4 * k.val + b.val), 0] := by
  rw [k0_off2_eq L k b]; congr 1; omega

set_option maxHeartbeats 4000000 in
theorem tile_body (hF : (K (F := F)).Facts) (hpre : InRange X) (O : CellTallies nD τ sig (HIx 1)) (W : Waits sig (HIx 1)) (hO : ∀ g, O g none = 0) :
    iprop(levAts (K (F := F)).L (K (F := F)).lev ∗ emp
        ∗ goPts X Wt O0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_lookup L xV (Memref.isWhole_whole _) wV (Memref.isWhole_whole _) oV (Memref.isWhole_whole _)
            iV (Memref.isWhole_whole _) rV (Memref.isWhole_whole _) cc0_scratch2 cc0_scoped0 cc0_scoped1 cc0_scoped2 cc0_scoped3 cc0_scoped4)
          fun _ => iprop(tdPts X Wt d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_lookup_eq_skeleton]; unfold cc0__emb_lookup_skel
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%fs, Hs⟩, ⟨%fr, Hr⟩, Hbufs⟩, ⟨Hc0, Hc1, Hc2, Hc3, Hc4, Hc5, Hc6, Hc7, Hc8⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the tile's rows of the index array, held by their own elements as the fetch addresses them
  ihave Hx' := (Entails.of_eq (show (xLoc d ↦[xSet (wL L)]{fullShare} X d : sProp 𝕄)
      = (xRowK L).view.loc (V d (cV L) (jV L)) ↦[(xRowK L).view.set]{fullShare} X d by rw [set_xRowK])) $$ Hx
  -- its rows of the result, as the elements under one rectangle
  ihave Ho' := (Entails.of_eq (show (oLoc d ↦[oSet (wL L)]{fullShare} O0 d : sProp 𝕄)
      = (oV).view.loc (V d (cV L) (jV L)) ↦[(oV).view.setOn (orowK L).set]{fullShare} O0 d by rw [setOn_orowK])) $$ Ho
  -- its read share of the table, one token per gather semaphore
  ihave Hw := (Entails.of_eq (show (wLoc d ↦{wq (wL L)} Wt d : sProp 𝕄) = (wV).view.loc (V d (cV L) (jV L)) ↦{Transfers.shareDrop (wq (wL L)) 0} Wt d from rfl)) $$ Hw
  ihave Hw := (tok_split (Wt d) (wq (wL L)) 0) $$ Hw
  icases Hw with ⟨Hw, Hw0⟩
  ihave Hw := (tok_split (Wt d) (wq (wL L)) 1) $$ Hw
  icases Hw with ⟨Hw, Hw1⟩
  ihave Hw := (tok_split (Wt d) (wq (wL L)) 2) $$ Hw
  icases Hw with ⟨Hw, Hw2⟩
  ihave Hw := (tok_split (Wt d) (wq (wL L)) 3) $$ Hw
  icases Hw with ⟨Hwd, Hw3⟩
  ihave Hw0 := (Entails.of_eq (show (wLoc d ↦{Transfers.shareTokN (wq (wL L)) 0} Wt d : sProp 𝕄)
      = (wV).view.loc (V d (cV L) (jV L)) ↦{Transfers.shareTokN (wq (wL L)) 0} Wt d from rfl)) $$ Hw0
  ihave Hw1 := (Entails.of_eq (show (wLoc d ↦{Transfers.shareTokN (wq (wL L)) 1} Wt d : sProp 𝕄)
      = (wV).view.loc (V d (cV L) (jV L)) ↦{Transfers.shareTokN (wq (wL L)) 1} Wt d from rfl)) $$ Hw1
  ihave Hw2 := (Entails.of_eq (show (wLoc d ↦{Transfers.shareTokN (wq (wL L)) 2} Wt d : sProp 𝕄)
      = (wV).view.loc (V d (cV L) (jV L)) ↦{Transfers.shareTokN (wq (wL L)) 2} Wt d from rfl)) $$ Hw2
  ihave Hw3 := (Entails.of_eq (show (wLoc d ↦{Transfers.shareTokN (wq (wL L)) 3} Wt d : sProp 𝕄)
      = (wV).view.loc (V d (cV L) (jV L)) ↦{Transfers.shareTokN (wq (wL L)) 3} Wt d from rfl)) $$ Hw3
  ihave Hs' := (Entails.of_eq (show ((V d (cV L) (jV L)).loc cc0_scratch0 ↦{fullShare} fs : sProp 𝕄) = (iV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  -- every list window of the fetched scratch names table rows
  have hin : ∀ (fs' : Buf (Elt F) ((iV).view.loc (V d (cV L) (jV L)))) (off : Fin 2 → Nat) (inb : ∀ a, off a + S1x128.size a ≤ S200x128.size a) (x : S128.Idx),
      ((((iV).slice (Rect.unit (s := S200x128) off S1x128.size inb) (fun _ => rfl)).squeeze S128 squeezes_S1x128_S128).view.read (Elt F)
        (fetched d L X fs') x).toNat < 100001 := by
    intro fs' off inb x
    rw [View.read_apply]
    exact fetched_lt d L X hpre fs' _
  sl_exec
  sl_for (invO d L X Wt (fetched d L X fs) O W) $$ [Hmw Ho' Hc5 Hc6 Hc7 Hc8 HO Hc0 Hw0 Hc1 Hw1 Hc2 Hw2 Hc3 Hw3 Hr' Hs']
  case region =>
    intro k _
    have hk : k.val < 50 := trips_eq ▸ k.isLt
    unfold invO
    rw [dif_pos hk]
    unfold InFlightO
    iintro ⟨#Hmw, ⟨%fO, Ho, %hfO⟩, Hc5, Hc6, Hc7, Hc8, ⟨%W', %hW', HO⟩, ⟨%g0, Hf0, %hg0⟩, Hw0, ⟨%g1, Hf1, %hg1⟩, Hw1, ⟨%g2, Hf2, %hg2⟩, Hw2, ⟨%g3, Hf3, %hg3⟩, Hw3, ⟨%R, Hr⟩, Hs⟩
    by_cases hlast : k.val + 1 < 50
    · obtain ⟨k0_h1, k0_h2, k0_h3, k0_h4⟩ := conds_of_lt k hlast
      sl_exec (disch := first
        | (refine rows_disjoint _ _ _ _ ?_; simp [off3_row, off4_row, off5_row, off6_row] <;> omega)
        | (refine rows_disjoint' _ _ _ _ ?_; simp [off3_row, off4_row, off5_row, off6_row] <;> omega))
      sl_step
      rw [dif_pos hlast]
      isplitl []; · iexact Hmw
      isplitl [Ho]
      · iexists _; isplitl [Ho]; · iexact Ho
        ipureintro
        have e : 4 * (k.val + 1) = 4 * k.val + 3 + 1 := by omega
        rw [e]
        exact doneN_step d L X Wt (4 * k.val + 3) (lt200_3 k.val hk) _
          (doneN_step d L X Wt (4 * k.val + 2) (lt200_2 k.val hk) _
            (doneN_step d L X Wt (4 * k.val + 1) (lt200_1 k.val hk) _
              (doneN_step d L X Wt (4 * k.val + 0) (lt200_0 k.val hk) fO hfO _ (read_slot0 d L X Wt _ _ g0 hg0) _ _ (off2_chunk L k ⟨0, by decide⟩))
              _ (read_slot1 d L X Wt _ _ g1 hg1) _ _ (off2_chunk L k ⟨1, by decide⟩))
            _ (read_slot2 d L X Wt _ _ g2 hg2) _ _ (off2_chunk L k ⟨2, by decide⟩))
          _ (read_slot3 d L X Wt _ _ g3 hg3) _ _ (off2_chunk L k ⟨3, by decide⟩)
      isplitl [Hc5]; · iexact Hc5
      isplitl [Hc6]; · iexact Hc6
      isplitl [Hc7]; · iexact Hc7
      isplitl [Hc8]; · iexact Hc8
      isplitl [HO]
      · iexists _; isplitr; swap; · iexact HO
        ipureintro
        exact waits_ok (waits_ok (waits_ok (waits_ok (waits_ok (waits_ok (waits_ok (waits_ok hW' _) _) _) _) _) _) _) _
      isplitl [Hf0]
      · iexists _; isplitl [Hf0]
        · iapply (Entails.of_eq (flightO0_row d L Wt (4 * (k.val + 1) + 0) (lt200_0 (k.val + 1) hlast) (k0_off3 k) (k0_off3_inb k k0_h1) (by rw [k0_off3_eq k, show 4 * k.val + 4 = 4 * (k.val + 1) + 0 from by omega]) _ _))
          iexact Hf0
        · ipureintro
          rw [← View.write_univ_eq_writes_whole]
          exact slot0_of_pay d L X Wt _ _ _ _
            (fun y => gather_pay_eq d L X Wt hpre fs (4 * (k.val + 1) + 0) (lt200_0 (k.val + 1) hlast) (k0_off3 k) (k0_off3_inb k k0_h1) (by rw [k0_off3_eq k, show 4 * k.val + 4 = 4 * (k.val + 1) + 0 from by omega]) _ _ y)
      isplitl [Hw0]; · iexact Hw0
      isplitl [Hf1]
      · iexists _; isplitl [Hf1]
        · iapply (Entails.of_eq (flightO1_row d L Wt (4 * (k.val + 1) + 1) (lt200_1 (k.val + 1) hlast) (k0_off4 k) (k0_off4_inb k k0_h2) (by rw [k0_off4_eq k, show 4 * k.val + 5 = 4 * (k.val + 1) + 1 from by omega]) _ _))
          iexact Hf1
        · ipureintro
          rw [← View.write_univ_eq_writes_whole]
          exact slot1_of_pay d L X Wt _ _ _ _
            (fun y => gather_pay_eq d L X Wt hpre fs (4 * (k.val + 1) + 1) (lt200_1 (k.val + 1) hlast) (k0_off4 k) (k0_off4_inb k k0_h2) (by rw [k0_off4_eq k, show 4 * k.val + 5 = 4 * (k.val + 1) + 1 from by omega]) _ _ y)
      isplitl [Hw1]; · iexact Hw1
      isplitl [Hf2]
      · iexists _; isplitl [Hf2]
        · iapply (Entails.of_eq (flightO2_row d L Wt (4 * (k.val + 1) + 2) (lt200_2 (k.val + 1) hlast) (k0_off5 k) (k0_off5_inb k k0_h3) (by rw [k0_off5_eq k, show 4 * k.val + 6 = 4 * (k.val + 1) + 2 from by omega]) _ _))
          iexact Hf2
        · ipureintro
          rw [← View.write_univ_eq_writes_whole]
          exact slot2_of_pay d L X Wt _ _ _ _
            (fun y => gather_pay_eq d L X Wt hpre fs (4 * (k.val + 1) + 2) (lt200_2 (k.val + 1) hlast) (k0_off5 k) (k0_off5_inb k k0_h3) (by rw [k0_off5_eq k, show 4 * k.val + 6 = 4 * (k.val + 1) + 2 from by omega]) _ _ y)
      isplitl [Hw2]; · iexact Hw2
      isplitl [Hf3]
      · iexists _; isplitl [Hf3]
        · iapply (Entails.of_eq (flightO3_row d L Wt (4 * (k.val + 1) + 3) (lt200_3 (k.val + 1) hlast) (k0_off6 k) (k0_off6_inb k k0_h4) (by rw [k0_off6_eq k, show 4 * k.val + 7 = 4 * (k.val + 1) + 3 from by omega]) _ _))
          iexact Hf3
        · ipureintro
          rw [← View.write_univ_eq_writes_whole]
          exact slot3_of_pay d L X Wt _ _ _ _
            (fun y => gather_pay_eq d L X Wt hpre fs (4 * (k.val + 1) + 3) (lt200_3 (k.val + 1) hlast) (k0_off6 k) (k0_off6_inb k k0_h4) (by rw [k0_off6_eq k, show 4 * k.val + 7 = 4 * (k.val + 1) + 3 from by omega]) _ _ y)
      isplitl [Hw3]; · iexact Hw3
      isplitl [Hr]; · iexists _; iexact Hr
      iapply (Entails.of_eq (idxRest_rows d L (4 * (k.val + 1) + 0) (4 * (k.val + 1) + 1) (4 * (k.val + 1) + 2) (4 * (k.val + 1) + 3)
        (lt200_0 (k.val + 1) hlast) (lt200_1 (k.val + 1) hlast) (lt200_2 (k.val + 1) hlast) (lt200_3 (k.val + 1) hlast)
        (k0_off3 k) (k0_off4 k) (k0_off5 k) (k0_off6 k) (k0_off3_inb k k0_h1) (k0_off4_inb k k0_h2) (k0_off5_inb k k0_h3) (k0_off6_inb k k0_h4)
        (by rw [k0_off3_eq k, show 4 * k.val + 4 = 4 * (k.val + 1) + 0 from by omega]) (by rw [k0_off4_eq k, show 4 * k.val + 5 = 4 * (k.val + 1) + 1 from by omega]) (by rw [k0_off5_eq k, show 4 * k.val + 6 = 4 * (k.val + 1) + 2 from by omega]) (by rw [k0_off6_eq k, show 4 * k.val + 7 = 4 * (k.val + 1) + 3 from by omega]) _))
      iexact Hs
    · obtain ⟨k0_h1, k0_h2, k0_h3, k0_h4⟩ := conds_of_last k hlast
      sl_exec (disch := first
        | (refine rows_disjoint _ _ _ _ ?_; simp [off3_row, off4_row, off5_row, off6_row] <;> omega)
        | (refine rows_disjoint' _ _ _ _ ?_; simp [off3_row, off4_row, off5_row, off6_row] <;> omega))
      sl_step
      rw [dif_neg hlast]
      unfold IdleO
      isplitl []; · iexact Hmw
      isplitl [Ho]
      · iexists _; isplitl [Ho]; · iexact Ho
        ipureintro
        have e : 4 * (k.val + 1) = 4 * k.val + 3 + 1 := by omega
        rw [e]
        exact doneN_step d L X Wt (4 * k.val + 3) (lt200_3 k.val hk) _
          (doneN_step d L X Wt (4 * k.val + 2) (lt200_2 k.val hk) _
            (doneN_step d L X Wt (4 * k.val + 1) (lt200_1 k.val hk) _
              (doneN_step d L X Wt (4 * k.val + 0) (lt200_0 k.val hk) fO hfO _ (read_slot0 d L X Wt _ _ g0 hg0) _ _ (off2_chunk L k ⟨0, by decide⟩))
              _ (read_slot1 d L X Wt _ _ g1 hg1) _ _ (off2_chunk L k ⟨1, by decide⟩))
            _ (read_slot2 d L X Wt _ _ g2 hg2) _ _ (off2_chunk L k ⟨2, by decide⟩))
          _ (read_slot3 d L X Wt _ _ g3 hg3) _ _ (off2_chunk L k ⟨3, by decide⟩)
      isplitl [Hc5]; · iexact Hc5
      isplitl [Hc6]; · iexact Hc6
      isplitl [Hc7]; · iexact Hc7
      isplitl [Hc8]; · iexact Hc8
      isplitl [HO]
      · iexists _; isplitr; swap; · iexact HO
        ipureintro
        exact waits_ok (waits_ok (waits_ok (waits_ok (waits_ok (waits_ok (waits_ok (waits_ok hW' _) _) _) _) _) _) _) _
      isplitl [Hf0_dst]; · iexists _; iexact Hf0_dst
      isplitl [Hw0]; · iexact Hw0
      isplitl [Hf0]; · iexact Hf0
      isplitl [Hf1_dst]; · iexists _; iexact Hf1_dst
      isplitl [Hw1]; · iexact Hw1
      isplitl [Hf1]; · iexact Hf1
      isplitl [Hf2_dst]; · iexists _; iexact Hf2_dst
      isplitl [Hw2]; · iexact Hw2
      isplitl [Hf2]; · iexact Hf2
      isplitl [Hf3_dst]; · iexists _; iexact Hf3_dst
      isplitl [Hw3]; · iexact Hw3
      isplitl [Hf3]; · iexact Hf3
      isplitl [Hr]; · iexists _; iexact Hr
      iexact Hs
  · unfold invO
    rw [dif_pos (show (0 : ℕ) < 50 by decide)]
    unfold InFlightO
    isplitl []; · iexact Hmw
    isplitl [Ho']
    · iexists _; isplitl [Ho']; · iexact Ho'
      ipureintro
      exact doneN_zero d L X Wt _
    isplitl [Hc5]; · iexact Hc5
    isplitl [Hc6]; · iexact Hc6
    isplitl [Hc7]; · iexact Hc7
    isplitl [Hc8]; · iexact Hc8
    isplitl [HO]
    · iexists _; isplitr; swap; · iexact HO
      ipureintro
      exact waits_ok (fun p hp => .inl hp) _
    isplitl [Hc0]
    · iexists _; isplitl [Hc0]
      · iapply (Entails.of_eq (flightO0_row d L Wt (4 * 0 + 0) (lt200_0 0 (by decide)) ![0, 0] inb_S200x128_S1x128_0_0 rfl _ _))
        iexact Hc0
      · ipureintro
        exact slot0_of_pay d L X Wt _ _ _ _
          (fun y => gather_pay_eq d L X Wt hpre fs (4 * 0 + 0) (lt200_0 0 (by decide)) ![0, 0] inb_S200x128_S1x128_0_0 rfl _ _ y)
    isplitl [Hw0]; · iexact Hw0
    isplitl [Hc1]
    · iexists _; isplitl [Hc1]
      · iapply (Entails.of_eq (flightO1_row d L Wt (4 * 0 + 1) (lt200_1 0 (by decide)) ![1, 0] inb_S200x128_S1x128_1_0 rfl _ _))
        iexact Hc1
      · ipureintro
        exact slot1_of_pay d L X Wt _ _ _ _
          (fun y => gather_pay_eq d L X Wt hpre fs (4 * 0 + 1) (lt200_1 0 (by decide)) ![1, 0] inb_S200x128_S1x128_1_0 rfl _ _ y)
    isplitl [Hw1]; · iexact Hw1
    isplitl [Hc2]
    · iexists _; isplitl [Hc2]
      · iapply (Entails.of_eq (flightO2_row d L Wt (4 * 0 + 2) (lt200_2 0 (by decide)) ![2, 0] inb_S200x128_S1x128_2_0 rfl _ _))
        iexact Hc2
      · ipureintro
        exact slot2_of_pay d L X Wt _ _ _ _
          (fun y => gather_pay_eq d L X Wt hpre fs (4 * 0 + 2) (lt200_2 0 (by decide)) ![2, 0] inb_S200x128_S1x128_2_0 rfl _ _ y)
    isplitl [Hw2]; · iexact Hw2
    isplitl [Hc3]
    · iexists _; isplitl [Hc3]
      · iapply (Entails.of_eq (flightO3_row d L Wt (4 * 0 + 3) (lt200_3 0 (by decide)) ![3, 0] inb_S200x128_S1x128_3_0 rfl _ _))
        iexact Hc3
      · ipureintro
        exact slot3_of_pay d L X Wt _ _ _ _
          (fun y => gather_pay_eq d L X Wt hpre fs (4 * 0 + 3) (lt200_3 0 (by decide)) ![3, 0] inb_S200x128_S1x128_3_0 rfl _ _ y)
    isplitl [Hw3]; · iexact Hw3
    isplitl [Hr']; · iexists _; iexact Hr'
    iapply (Entails.of_eq (idxRest_rows d L (4 * 0 + 0) (4 * 0 + 1) (4 * 0 + 2) (4 * 0 + 3)
      (lt200_0 0 (by decide)) (lt200_1 0 (by decide)) (lt200_2 0 (by decide)) (lt200_3 0 (by decide))
      ![0, 0] ![1, 0] ![2, 0] ![3, 0] inb_S200x128_S1x128_0_0 inb_S200x128_S1x128_1_0 inb_S200x128_S1x128_2_0 inb_S200x128_S1x128_3_0
      rfl rfl rfl rfl _))
    iexact Hs'
  iintro %_ HI
  unfold invO
  rw [dif_neg (show ¬ Scf.trips k0_t1_loop.lb k0_t1_loop.ub k0_t1_loop.st < 50 by decide)]
  unfold IdleO
  icases HI with ⟨-, ⟨%fO, Ho, %hfO⟩, Hc5, Hc6, Hc7, Hc8, ⟨%W', %hW', HO⟩, ⟨%g0, Hg0⟩, Hw0, Hc0, ⟨%g1, Hg1⟩, Hw1, Hc1, ⟨%g2, Hg2⟩, Hw2, Hc2, ⟨%g3, Hg3⟩, Hw3, Hc3, ⟨%R, Hr⟩, Hs⟩
  have e4 : 4 * Scf.trips k0_t1_loop.lb k0_t1_loop.ub k0_t1_loop.st = 200 := by decide
  rw [e4] at hfO
  sl_exec
  sl_step
  isplitl [Hx' Hwd Hw0 Hw1 Hw2 Hw3 Ho]
  · isplitl [Hx']
    · iapply (Entails.of_eq (show ((xRowK L).view.loc (V d (cV L) (jV L)) ↦[(xRowK L).view.set]{fullShare} X d : sProp 𝕄)
          = (xLoc d ↦[xSet (wL L)]{fullShare} X d) by rw [set_xRowK]))
      iexact Hx'
    isplitl [Hwd Hw0 Hw1 Hw2 Hw3]
    · ihave H3 := (tok_join (Wt d) (wq (wL L)) 3) $$ [Hwd Hw3]
      · isplitl [Hwd]; · iexact Hwd
        iexact Hw3
      ihave H2 := (tok_join (Wt d) (wq (wL L)) 2) $$ [H3 Hw2]
      · isplitl [H3]; · iexact H3
        iexact Hw2
      ihave H1 := (tok_join (Wt d) (wq (wL L)) 1) $$ [H2 Hw1]
      · isplitl [H2]; · iexact H2
        iexact Hw1
      ihave H0 := (tok_join (Wt d) (wq (wL L)) 0) $$ [H1 Hw0]
      · isplitl [H1]; · iexact H1
        iexact Hw0
      iexact H0
    · iapply (Entails.of_eq (((pointsTo_congr (doneN_all d L X Wt fO hfO)).trans (by rw [setOn_orowK])) :
          ((oV).view.loc (V d (cV L) (jV L)) ↦[(oV).view.setOn (orowK L).set]{fullShare} fO : sProp 𝕄)
            = (oLoc d ↦[oSet (wL L)]{fullShare} res X Wt d)))
      iexact Ho
  isplitl [Hs Hr Hg0 Hg1 Hg2 Hg3 Hbufs]
  · isplitl [Hs]; · iexists _; iexact Hs
    isplitl [Hr Hg0 Hg1 Hg2 Hg3]
    · iapply (rowScratch_join d L R g0 g1 g2 g3)
      isplitl [Hr]; · iexact Hr
      isplitl [Hg0]; · iexact Hg0
      isplitl [Hg1]; · iexact Hg1
      isplitl [Hg2]; · iexact Hg2
      iexact Hg3
    iexact Hbufs
  isplitl [Hc0 Hc1 Hc2 Hc3 Hc4 Hc5 Hc6 Hc7 Hc8]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hc8
  iexists _; isplitr; swap; · iexact HO
  ipureintro; exact hW'

end Tile

end Cert.Proof.KI

end
-- ==== Proof.KITile.lean ====
/-
  One tile's task: from its rows of the index array, its read share of the table and its rows of the result, to the
  same with its rows of the result holding the looked-up table rows.

  The body table's entry for vector subcore (c, s) is the kernel's function at the coordinates (c, s), on the whole
  arrays and the subcore's scratch; the tile at (c, s) is worker 2 s + c, so what the task is handed and hands back
  are that worker's parts.
-/
import proofs.«206608_g4801773437349_cont_8to1_c_1039_14_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S6400x128 EltTy.i32)
local notation "wV" => (Memref.whole Cert.KernelIdeal.main_arg1_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S819200x128 EltTy.f32)
local notation "iV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S4x128x128 EltTy.f32)

variable [FloatOps F]

variable (X : (d : Dev nD) → Buf (Elt F) (xLoc d)) (Wt : (d : Dev nD) → Buf (Elt F) (wLoc d)) (O0 : (d : Dev nD) → Buf (Elt F) (oLoc d))

/-! ## The obligation -/

/-- The coordinates of the tile at SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_lookup (coordsV c s)
          xV (Memref.isWhole_whole _) wV (Memref.isWhole_whole _) oV (Memref.isWhole_whole _)
          iV (Memref.isWhole_whole _) rV (Memref.isWhole_whole _) cc0_scratch2 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRange X) : (K (F := F)).TileObl (D (F := F)) 𝒱 (P X Wt O0) v₀ 0 := by
  intro d c i O W hO _ _
  simp only [show (P X Wt O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) X Wt O0 hF hpre O W hO).trans (wp_mono frame _ _ fun _ => obl_post)

end Cert.Proof.KI

end
-- ==== Proof.KILaunchA.lean ====
/-
  The launch of the embedding lookup's SparseCore program, first part: how the arrays the call works on split among the
  32 workers and join again, the split of one SparseCore's operands among its sixteen tasks, and the launch element of
  the ghost state.

  The index array's 6400 rows are cut into 32 blocks of 200 rows, the result's 819200 rows into 32 blocks of 25600; the
  blocks are pairwise disjoint and cover the array, so a points-to of the whole array is the separating conjunction of
  the blocks'. The workers are numbered w = 2 s + c over SparseCore c and subcore s: (c, s) ↦ 2 s + c is a bijection of
  Fin 2 × Fin 16 with Fin 32, so a conjunction over the workers is the conjunction over the SparseCores of the
  conjunctions over their subcores.
-/
import proofs.«206608_g4801773437349_cont_8to1_c_1039_14_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The rows split and join -/

theorem xSet_eq (w : Fin 32) : xSet w = (xrow w).set := by
  show ((View.whole (main_v0_scv : Ref sig .scVector)).slice (xrow w)).set = _
  rw [View.set_slice]; exact Finset.map_refl
theorem oSet_eq (w : Fin 32) : oSet w = (orow w).set := by
  show ((View.whole (main_v1_scv : Ref sig .scVector)).slice (orow w)).set = _
  rw [View.set_slice]; exact Finset.map_refl
theorem xrows_disjoint : ∀ i ∈ (Finset.univ : Finset (Fin 32)), ∀ j ∈ (Finset.univ : Finset (Fin 32)), i ≠ j → Disjoint (xSet i) (xSet j) :=
  fun i _ j _ h => by rw [xSet_eq, xSet_eq]; exact Rect.part_disjoint xdiv h
theorem orows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem xrows_cover : (Finset.univ : Finset (Fin 32)).biUnion xSet = Finset.univ :=
  (Finset.biUnion_congr rfl fun i _ => xSet_eq i).trans (Rect.biUnion_part xdiv)
theorem orows_cover : (Finset.univ : Finset (Fin 32)).biUnion oSet = Finset.univ :=
  (Finset.biUnion_congr rfl fun i _ => oSet_eq i).trans (Rect.biUnion_part odiv)

/-- The index array whole is its 32 blocks of rows; -/
theorem xPts_rows (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xrows_disjoint, xrows_cover]; try rfl
/-- the result array whole is its 32 blocks of rows, all at the same contents. -/
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet orows_disjoint, orows_cover]; try rfl

/-! ## The workers, by SparseCore and subcore -/

/-- `(c, s) ↦ 2 s + c` is a bijection of the 2 × 16 tiles with the 32 workers: `w ↦ (w % 2, w / 2)` inverts it. -/
def widEquiv : Fin 2 × Fin 16 ≃ Fin 32 where
  toFun p := wid p.1 p.2
  invFun w := (⟨w.val % 2, Nat.mod_lt _ (by norm_num)⟩, ⟨w.val / 2, by have := w.isLt; omega⟩)
  left_inv := by
    rintro ⟨c, s⟩
    have hc := c.isLt
    refine Prod.ext (Fin.ext ?_) (Fin.ext ?_)
    · show (2 * s.val + c.val) % 2 = c.val
      omega
    · show (2 * s.val + c.val) / 2 = s.val
      omega
  right_inv := by
    intro w
    refine Fin.ext ?_
    show 2 * (w.val / 2) + w.val % 2 = w.val
    omega

/-- A conjunction over the workers, SparseCore by SparseCore. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

variable (X : (d : Dev nD) → Buf (Elt F) (xLoc d)) (Wt : (d : Dev nD) → Buf (Elt F) (wLoc d)) (O0 : (d : Dev nD) → Buf (Elt F) (oLoc d))

/-! ## What the handshakes carry, as equations -/

theorem P_st (d : Dev nD) (c : Fin ((K (F := F)).nCore 0)) :
    (P X Wt O0).st 0 d c = bigSep Finset.univ fun i : Fin 16 => goPts X Wt O0 d (wid (Fin.cast nCore_zero c) i) := by unfold P; rfl
theorem P_dn (d : Dev nD) (c : Fin ((K (F := F)).nCore 0)) :
    (P X Wt O0).dn 0 d c = bigSep Finset.univ fun i : Fin 16 => tdPts X Wt d (wid (Fin.cast nCore_zero c) i) := by unfold P; rfl
theorem P_go (d : Dev nD) (c : Fin ((K (F := F)).nCore 0)) (i : Fin ((K (F := F)).nSub 0)) :
    (P X Wt O0).go 0 d c i = goPts X Wt O0 d (wid (Fin.cast nCore_zero c) (Fin.cast nSub_zero i)) := by unfold P; rfl
theorem P_td (d : Dev nD) (c : Fin ((K (F := F)).nCore 0)) (i : Fin ((K (F := F)).nSub 0)) :
    (P X Wt O0).td 0 d c i = tdPts X Wt d (wid (Fin.cast nCore_zero c) (Fin.cast nSub_zero i)) := by unfold P; rfl
theorem P_x (q : Fin 1) (thr : Thread nD τ) : (P X Wt O0).x q thr = iprop(emp) := by unfold P; rfl

/-- What the call takes for the two SparseCores is what the 32 workers are handed; -/
theorem st0_eq (d : Dev nD) :
    (bigSep Finset.univ fun c : Fin ((K (F := F)).nCore 0) => (P X Wt O0).st 0 d c) = bigSep Finset.univ fun w : Fin 32 => goPts X Wt O0 d w := by
  rw [bigSep_workers (fun w => goPts X Wt O0 d w),
    ← bigSep_cores (F := F) (fun c => bigSep Finset.univ fun s : Fin 16 => goPts X Wt O0 d (wid c s))]
  exact bigSep_congr fun c _ => P_st X Wt O0 d c
/-- what it brings back is what they hand back. -/
theorem dn0_eq (d : Dev nD) :
    (bigSep Finset.univ fun c : Fin ((K (F := F)).nCore 0) => (P X Wt O0).dn 0 d c) = bigSep Finset.univ fun w : Fin 32 => tdPts X Wt d w := by
  rw [bigSep_workers (fun w => tdPts X Wt d w),
    ← bigSep_cores (F := F) (fun c => bigSep Finset.univ fun s : Fin 16 => tdPts X Wt d (wid c s))]
  exact bigSep_congr fun c _ => P_dn X Wt O0 d c

/-! ## One SparseCore's operands among its sixteen tasks -/

theorem vecSplit : (K (F := F)).VecSplit' (P X Wt O0) 0 := by
  intro d c
  rw [P_st, P_dn, bigSep_congr (fun i _ => P_go X Wt O0 d c i), bigSep_congr (fun i _ => P_td X Wt O0 d c i),
    bigSep_tasks (F := F) (fun i => goPts X Wt O0 d (wid (Fin.cast nCore_zero c) i)),
    bigSep_tasks (F := F) (fun i => tdPts X Wt d (wid (Fin.cast nCore_zero c) i))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Wt O0).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X Wt O0).x q thr) = bigSep Finset.univ fun _ => iprop(emp) from
    bigSep_congr fun _ _ => (bigSep_univ_of_subsingleton (0 : Fin 1)).trans (P_x X Wt O0 0 _), bigSep_emp']
  iempintro

end Cert.Proof.KI

end
-- ==== Proof.Regroup.lean ====
/-
  Regrouping rows is the lookup.

  The flat result has one row per index word, in row-major order of the index array: row `r = 200 b + h` belongs to
  the word `x[b, h]`. The flattened index array `i32[6400, 128]` holds the same words in the same order, so its entry
  `(r / 128, r % 128)` — flat position `128 (r / 128) + r % 128 = r` — is again `x[b, h]`. Reading the flat result
  `f32[819200, 128]` as `f32[4096, 200, 128]` keeps flat positions too: entry `(b, h, k)` is entry `(200 b + h, k)`.
-/
import proofs.«206608_g4801773437349_cont_8to1_c_1039_14_alg».proof.Proof.Spec
import Idealize.ShloMosaic.Lib.Pipeline.Value

noncomputable section

namespace Cert.Proof.Regroup

open Idealize.ShloMosaic
open Idealize.ShloMosaic.ValueIdx (ix2 ix3)
open Cert.Proof.Spec

/-- The flattened index array at `(r / 128, r % 128)`, for the flat row `r = 200 b + h`, is the word `x[b, h]`. -/
theorem wordAt_flat (x : SX.Idx → BitVec 32) (h1 : SX.ShapeCasts SX2) (b : Fin 4096) (h : Fin 200) (r : Fin 819200)
    (hr : r.val = 200 * b.val + h.val) : wordAt (shapeCast SX2 x h1) r = x (ix2 b h) := by
  unfold wordAt
  refine shapeCast_apply x h1 _ (ix2 b h) ?_
  rw [Shape.rowMajor_val_two, Shape.rowMajor_val_two]
  show b.val * 200 + h.val = r.val / 128 * 128 + r.val % 128
  omega

open Cert.Proof.Spec in
/-- The flat result with its rows regrouped by `(b, h)` is the lookup. -/
theorem lookup_eq_regroup {α : Type} (x : SX.Idx → BitVec 32) (Wt : SW.Idx → α) (h1 : SX.ShapeCasts SX2) (h2 : SO2.ShapeCasts SR) :
    shapeCast SR (gathered (shapeCast SX2 x h1) Wt) h2 = lookup x Wt := by
  funext j
  have hb := (j 0).isLt
  have hh := (j 1).isLt
  have hr : (j 0).val * 200 + (j 1).val < 819200 := by
    have : (j 0).val < 4096 := hb
    have : (j 1).val < 200 := hh
    omega
  refine (shapeCast_apply _ h2 j (ix2 (⟨(j 0).val * 200 + (j 1).val, hr⟩ : Fin 819200) (j 2)) ?_).trans ?_
  · rw [Shape.rowMajor_val_two, Shape.rowMajor_val_three]
    show ((j 0).val * 200 + (j 1).val) * 128 + (j 2).val = ((j 0).val * 200 + (j 1).val) * 128 + (j 2).val
    rfl
  · show Wt (ix2 (rowOf (wordAt (shapeCast SX2 x h1) ⟨(j 0).val * 200 + (j 1).val, hr⟩)) (j 2)) = Wt (ix2 (rowOf (x (ix2 (j 0) (j 1)))) (j 2))
    rw [wordAt_flat x h1 (j 0) (j 1) ⟨(j 0).val * 200 + (j 1).val, hr⟩ (by show (j 0).val * 200 + (j 1).val = 200 * (j 0).val + (j 1).val; omega)]

end Cert.Proof.Regroup

end
-- ==== Proof.KILaunchB.lean ====
/-
  The launch of the embedding lookup's SparseCore program, second part: @main on the TensorCore, how the final memory
  reads the claim, and the program's run.

  @main flattens the index array x : i32[4096, 200] into x2 : i32[6400, 128] (the same words in row-major order), hands
  x2, the table and the result array o : f32[819200, 128] to the two SparseCores — x2's and o's rows in 32 blocks, the
  table as 32 read shares, the rest of the share kept aside —, gets them back with row r of o holding the table's row
  x2[r / 128, r % 128], and regroups o's rows into the result f32[4096, 200, 128]. Regrouped, row (b, h) of the result
  is the table's row x[b, h]: the lookup.
-/
import proofs.«206608_g4801773437349_cont_8to1_c_1039_14_alg».proof.Proof.KILaunchA
import proofs.«206608_g4801773437349_cont_8to1_c_1039_14_alg».proof.Proof.Regroup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F]

/-! ## The arrays the call works on, split and joined -/

section Split

variable (X : (d : Dev nD) → Buf (Elt F) (xLoc d)) (Wt : (d : Dev nD) → Buf (Elt F) (wLoc d)) (O0 : (d : Dev nD) → Buf (Elt F) (oLoc d))

/-- What the 32 workers are handed is the index array whole, the table's 32 read shares and the result array whole; -/
theorem go_split (d : Dev nD) :
    (bigSep Finset.univ fun w : Fin 32 => goPts X Wt O0 d w)
      = iprop((xLoc d ↦{fullShare} X d) ∗ (bigSep Finset.univ fun w : Fin 32 => wLoc d ↦{wq w} Wt d) ∗ oLoc d ↦{fullShare} O0 d) := by
  rw [bigSep_sep', bigSep_sep', ← xPts_rows, ← oPts_rows]
/-- what they hand back is the same, the result array whole at the looked-up rows. -/
theorem td_split (d : Dev nD) :
    (bigSep Finset.univ fun w : Fin 32 => tdPts X Wt d w)
      = iprop((xLoc d ↦{fullShare} X d) ∗ (bigSep Finset.univ fun w : Fin 32 => wLoc d ↦{wq w} Wt d) ∗ oLoc d ↦{fullShare} res X Wt d) := by
  rw [bigSep_sep', bigSep_sep', ← xPts_rows, ← oPts_rows]

theorem st_eq (d : Dev nD) :
    (bigSep Finset.univ fun c : Fin ((K (F := F)).nCore 0) => (P X Wt O0).st 0 d c)
      = iprop((xLoc d ↦{fullShare} X d) ∗ (bigSep Finset.univ fun w : Fin 32 => wLoc d ↦{wq w} Wt d) ∗ oLoc d ↦{fullShare} O0 d) :=
  (st0_eq X Wt O0 d).trans (go_split X Wt O0 d)
theorem dn_eq (d : Dev nD) :
    (bigSep Finset.univ fun c : Fin ((K (F := F)).nCore 0) => (P X Wt O0).dn 0 d c)
      = iprop((xLoc d ↦{fullShare} X d) ∗ (bigSep Finset.univ fun w : Fin 32 => wLoc d ↦{wq w} Wt d) ∗ oLoc d ↦{fullShare} res X Wt d) :=
  (dn0_eq X Wt O0 d).trans (td_split X Wt d)

end Split

/-! ## The launch memory and the TensorCore's five arrays -/

variable (m : (ℓ : Loc nD τ sig) → Buf (Elt F) ℓ) (ρ : Dev nD → PrngReg)

/-- The index array flattened: the same words in row-major order, as the first reshape leaves them. -/
def Xm (d : Dev nD) : Buf (Elt F) (xLoc d) := shapeCast S6400x128 (m (aLoc d)) shapeCasts_S4096x200_S6400x128
abbrev Wm (d : Dev nD) : Buf (Elt F) (wLoc d) := m (wLoc d)
abbrev Om (d : Dev nD) : Buf (Elt F) (oLoc d) := m (oLoc d)
/-- The result: the looked-up rows regrouped, as the second reshape leaves them. -/
def Rm (d : Dev nD) : Buf (Elt F) (rLoc d) := shapeCast S4096x200x128 (res (Xm m) (Wm m) d) shapeCasts_S819200x128_S4096x200x128

abbrev a' : DevRef τ sig := Proc.devRef .tc (main_arg0 : Ref sig .tc)
abbrev w' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.reshape main_arg0 main_v0 rfl shapeCasts_S4096x200_S6400x128
abbrev op2 : HloOp τ sig (Elt F) := StableHlo.reshape main_v1 main_v2 rfl shapeCasts_S819200x128_S4096x200x128

/-- The TensorCore's arrays, all unscoped. -/
abbrev S5 : Finset (DevRef τ sig) := {a', w', x', o', r'}

omit [FloatOps F] in
theorem held_S5 (d : Dev nD) (W : Valuation τ sig (Elt F)) :
    (held (T d) S5 W : sProp 𝕄)
      = iprop((aLoc d ↦{fullShare} W a') ∗ (wLoc d ↦{fullShare} W w') ∗ (xLoc d ↦{fullShare} W x') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (wLoc d ↦{fullShare} W main_arg1) ∗ (xLoc d ↦{fullShare} W main_v0) ∗ (oLoc d ↦{fullShare} W main_v1)
          ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; -/
def V0 (d : Dev nD) : Valuation τ sig (Elt F) := fun b => m (d, b)
/-- after the call: the index array flattened, the result array at the looked-up rows. -/
def V2 (d : Dev nD) : Valuation τ sig (Elt F) := Function.update (Function.update (V0 m d) x' (Xm m d)) o' (res (Xm m) (Wm m) d)

theorem unscoped_held (d : Dev nD) : (unscopedBufs d (fun b => m ((SparseCore.T d).loc b)) : sProp 𝕄) = held (T d) S5 (V0 m d) := by
  rw [unscopedBufs_eq, held_S5]; rfl

theorem V1_a (d : Dev nD) : (op1 (F := F)).result (V0 m d) a' = m (aLoc d) :=
  ((op1 (F := F)).result_of_not_mem _ (show a' ∉ ({x'} : Finset (DevRef τ sig)) by decide)).trans rfl
theorem V1_w (d : Dev nD) : (op1 (F := F)).result (V0 m d) w' = m (wLoc d) :=
  ((op1 (F := F)).result_of_not_mem _ (show w' ∉ ({x'} : Finset (DevRef τ sig)) by decide)).trans rfl
theorem V1_x (d : Dev nD) : (op1 (F := F)).result (V0 m d) x' = Xm m d :=
  (StableHlo.reshape_result main_arg0 main_v0 rfl shapeCasts_S4096x200_S6400x128 ⟨by decide, rfl⟩ ⟨by decide, rfl⟩ (V0 m d)).trans rfl
theorem V1_o (d : Dev nD) : (op1 (F := F)).result (V0 m d) o' = m (oLoc d) :=
  ((op1 (F := F)).result_of_not_mem _ (show o' ∉ ({x'} : Finset (DevRef τ sig)) by decide)).trans rfl
theorem V1_r (d : Dev nD) : (op1 (F := F)).result (V0 m d) r' = m (rLoc d) :=
  ((op1 (F := F)).result_of_not_mem _ (show r' ∉ ({x'} : Finset (DevRef τ sig)) by decide)).trans rfl

theorem V2_a (d : Dev nD) : V2 m d a' = m (aLoc d) :=
  (Function.update_of_ne (show a' ≠ o' by decide) _ _).trans (Function.update_of_ne (show a' ≠ x' by decide) _ _)
theorem V2_w (d : Dev nD) : V2 m d w' = m (wLoc d) :=
  (Function.update_of_ne (show w' ≠ o' by decide) _ _).trans (Function.update_of_ne (show w' ≠ x' by decide) _ _)
theorem V2_x (d : Dev nD) : V2 m d x' = Xm m d :=
  (Function.update_of_ne (show x' ≠ o' by decide) _ _).trans (Function.update_self _ _ _)
theorem V2_o (d : Dev nD) : V2 m d o' = res (Xm m) (Wm m) d := Function.update_self _ _ _
theorem V2_r (d : Dev nD) : V2 m d r' = m (rLoc d) :=
  (Function.update_of_ne (show r' ≠ o' by decide) _ _).trans (Function.update_of_ne (show r' ≠ x' by decide) _ _)

theorem V3_a (d : Dev nD) : (op2 (F := F)).result (V2 m d) a' = m (aLoc d) :=
  ((op2 (F := F)).result_of_not_mem _ (show a' ∉ ({r'} : Finset (DevRef τ sig)) by decide)).trans (V2_a m d)
theorem V3_w (d : Dev nD) : (op2 (F := F)).result (V2 m d) w' = m (wLoc d) :=
  ((op2 (F := F)).result_of_not_mem _ (show w' ∉ ({r'} : Finset (DevRef τ sig)) by decide)).trans (V2_w m d)
theorem V3_r (d : Dev nD) : (op2 (F := F)).result (V2 m d) r' = Rm m d := by
  refine (StableHlo.reshape_result main_v1 main_v2 rfl shapeCasts_S819200x128_S4096x200x128 ⟨by decide, rfl⟩ ⟨by decide, rfl⟩ (V2 m d)).trans ?_
  rw [V2_o]; rfl

/-- The five arrays after the first reshape, -/
theorem held_V1 (d : Dev nD) :
    (held (T d) S5 ((op1 (F := F)).result (V0 m d)) : sProp 𝕄)
      = iprop((aLoc d ↦{fullShare} m (aLoc d)) ∗ (wLoc d ↦{fullShare} m (wLoc d)) ∗ (xLoc d ↦{fullShare} Xm m d) ∗ (oLoc d ↦{fullShare} m (oLoc d))
          ∗ rLoc d ↦{fullShare} m (rLoc d)) := by
  rw [held_S5, V1_a, V1_w, V1_x, V1_o, V1_r]
/-- and what the second leaves of the two arguments and the result. -/
theorem held_V3 (d : Dev nD) :
    (held (T d) S5 ((op2 (F := F)).result (V2 m d)) : sProp 𝕄)
      = iprop((aLoc d ↦{fullShare} m (aLoc d)) ∗ (wLoc d ↦{fullShare} m (wLoc d)) ∗ (xLoc d ↦{fullShare} (op2 (F := F)).result (V2 m d) x')
          ∗ (oLoc d ↦{fullShare} (op2 (F := F)).result (V2 m d) o') ∗ rLoc d ↦{fullShare} Rm m d) := by
  rw [held_S5, V3_a, V3_w, V3_r]

theorem hOp1 : (op1 (F := F)).bufs ⊆ S5 := show ({a', x'} : Finset (DevRef τ sig)) ⊆ S5 by decide
theorem hOp2 : (op2 (F := F)).bufs ⊆ S5 := show ({o', r'} : Finset (DevRef τ sig)) ⊆ S5 by decide

/-! ## @main on the TensorCore -/

/-- What @main leaves the claim: the two arguments at their launch contents, the result at the lookup regrouped. -/
abbrev FIN (d : Dev nD) : sProp 𝕄 := iprop((aLoc d ↦{fullShare} m (aLoc d)) ∗ (wLoc d ↦{fullShare} m (wLoc d)) ∗ rLoc d ↦{fullShare} Rm m d)

theorem hmain (κ : GSem nD τ sig → ℕ) (d : Dev nD) :
    iprop((K (F := F)).ctx EH (P (Xm m) (Wm m) (Om m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the index array flattened
  iapply (wp_hlo_within 𝒱 (SparseCore.T d) none Set.univ (op := op1) (S := S5) hOp1 (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hw, Hx, Ho, Hr⟩
  -- the table as 32 read shares and the rest of the share
  ihave Hw' := (Transfers.pointsTo_toks_split (ℓ := wLoc d) (S := Finset.univ) (f := m (wLoc d)) fullShare 32) $$ Hw
  icases Hw' with ⟨Hwrem, Hwtoks⟩
  -- the call: the flattened index array, the table's shares and the result array to the two SparseCores and back
  iapply ((K (F := F)).wp_run (D (F := F)) 𝒱 (EH := EH) (P := P (Xm m) (Wm m) (Om m)) κ d 0) $$ [Hst Hx Ho Hwtoks Hb Ha Hr Hwrem]
  isplitr; · iexact Hctx
  isplitl [Hst]; · iexact Hst
  isplitl [Hx Ho Hwtoks]
  · rw [st_eq]
    isplitl [Hx]; · iexact Hx
    isplitl [Hwtoks]; · iexact Hwtoks
    iexact Ho
  iintro ⟨Hst, Hdn⟩
  ihave Hdn' := (Entails.of_eq (dn_eq (Xm m) (Wm m) (Om m) d)) $$ Hdn
  icases Hdn' with ⟨Hx, Hwtoks, Ho⟩
  ihave Hw := (Transfers.pointsTo_toks_join (ℓ := wLoc d) (S := Finset.univ) (f := m (wLoc d)) fullShare 32) $$ [Hwrem Hwtoks]
  · isplitl [Hwrem] <;> iassumption
  -- the second reshape: the looked-up rows regrouped
  iapply (wp_hlo_within 𝒱 (SparseCore.T d) none Set.univ (op := op2) (S := S5) hOp2 (V := V2 m d)) $$ [Hb Ha Hw Hx Ho Hr]
  · isplitl [Hb]; · iexact Hb
    rw [held_S5, V2_a, V2_w, V2_x, V2_o, V2_r]
    isplitl [Ha]; · iexact Ha
    isplitl [Hw]; · iexact Hw
    isplitl [Hx]; · iexact Hx
    isplitl [Ho]; · iexact Ho
    iexact Hr
  iintro ⟨Hb, Hheld⟩
  ihave Hh := (Entails.of_eq (held_V3 (F := F) m d)) $$ Hheld
  icases Hh with ⟨Ha, Hw, -, -, Hr⟩
  rw [wp_ret]; imodintro; imodintro
  isplitl [Hst]; · iexact Hst
  isplitl [Ha]; · iexact Ha
  isplitl [Hw]; · iexact Hw
  iexact Hr

def fq (d : Dev nD) (s' : Phys nD τ sig (Elt F)) : Prop :=
  s'.mem.mem (aLoc d) = m (aLoc d) ∧ s'.mem.mem (wLoc d) = m (wLoc d) ∧ s'.mem.mem (rLoc d) = Rm m d

theorem hfin (d : Dev nD) (s' : Phys nD τ sig (Elt F)) : iprop(FIN m d ∗ SI s') ⊢ (⌜fq m d s'⌝ : sProp 𝕄) := by
  iintro ⟨⟨Ha, Hw, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

theorem inRange_of (hpre : ∀ (d : Dev nD) (j : S4096x200.Idx), (m (aLoc d) j).toNat < 100001) : InRange (Xm m) := by
  intro d j
  exact hpre d _

theorem Rm_eq (d : Dev nD) : Rm m d = Cert.Proof.Spec.lookup (m (aLoc d)) (m (wLoc d)) :=
  Cert.Proof.Regroup.lookup_eq_regroup (m (aLoc d)) (m (wLoc d)) shapeCasts_S4096x200_S6400x128 shapeCasts_S819200x128_S4096x200x128

theorem run_main [∀ e, Nonempty (Elt F e)] (m : (ℓ : Loc nD τ sig) → Buf (Elt F) ℓ) (ρ : Dev nD → PrngReg)
    (hpre : ∀ (d : Dev nD) (j : S4096x200.Idx), (m (aLoc d) j).toNat < 100001) :
    θ_run (Cert.KernelIdeal.defs (F := F)) (Cert.KernelIdeal.threads (F := F)) ⟨m, fun _ => 0, ρ⟩ (fun r => ∀ c : Dev nD,
      r.2.mem (rLoc c) = Cert.Proof.Spec.lookup (m (aLoc c)) (m (wLoc c)) ∧ r.2.mem (aLoc c) = m (aLoc c) ∧ r.2.mem (wLoc c) = m (wLoc c)) :=
  SparseCore.Cfg.θ_run_sc (K := K (F := F)) (D := D (F := F)) (𝒱 := 𝒱) (EH := EH) (P := P (Xm m) (Wm m) (Om m)) facts v₀
    (fun q hq => match q with | 0 => nomatch hq)
    (fun q _ => match q with | 0 => tileObl (Xm m) (Wm m) (Om m) facts (inRange_of m hpre))
    (fun q _ => match q with | 0 => SparseCore.Cfg.VecSplit.of_plain (vecSplit (Xm m) (Wm m) (Om m)))
    m ρ main (fun _ => iprop(emp)) (FIN m) (u₀ (F := F)) (sep_elim_left.trans (hu₀ (Xm m) (Wm m) (Om m))) (hmain m ρ) (fq m) (hfin m)
    _ (fun s' h c => ⟨((h c).2.2).trans (Rm_eq m c), (h c).1, (h c).2.1⟩)

end Cert.Proof.KI

end
-- ==== Proof.KBSetup.lean ====
/-
  The embedding lookup's SparseCore program as the launch theorem sees it, and what its handshakes carry.

  The kernel runs on 2 SparseCores x 16 vector subcores. Tile (c, s) has the worker number w = 2 s + c and owns
  rows [200 w, 200 w + 200) of the index array x2 : i32[6400, 128] (the indices, reshaped) and rows
  [25600 w, 25600 w + 25600) of the result o : f32[819200, 128]; every tile reads the whole table
  wt : f32[100001, 128], through a read share of its own. Row r of the result is row x2[r / 128, r % 128] of the table.
-/
import proofs.«206608_g4801773437349_cont_8to1_c_1039_14_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«206608_g4801773437349_cont_8to1_c_1039_14_alg».proof.Proof.Gen.Kernel
import proofs.«206608_g4801773437349_cont_8to1_c_1039_14_alg».proof.Proof.Spec
import proofs.«206608_g4801773437349_cont_8to1_c_1039_14_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev xLoc (d : Dev nD) : Loc nD τ sig := (SparseCore.T d).loc main_v0
abbrev wLoc (d : Dev nD) : Loc nD τ sig := (SparseCore.T d).loc main_arg1
abbrev oLoc (d : Dev nD) : Loc nD τ sig := (SparseCore.T d).loc main_v1
abbrev rLoc (d : Dev nD) : Loc nD τ sig := (SparseCore.T d).loc main_v2

/-- The worker number of tile `(c, s)`: `2 s + c`. -/
def wid (c : Fin 2) (s : Fin 16) : Fin 32 := ⟨2 * s.val + c.val, by omega⟩

theorem xdiv : 32 ∣ S6400x128.size 0 := ⟨200, rfl⟩
theorem odiv : 32 ∣ S819200x128.size 0 := ⟨25600, rfl⟩
/-- Worker `w`'s 200 rows of the index array and its 25600 rows of the result. -/
abbrev xrow (w : Fin 32) : Rect S6400x128 := Rect.part (s := S6400x128) (a₀ := 0) xdiv w
abbrev orow (w : Fin 32) : Rect S819200x128 := Rect.part (s := S819200x128) (a₀ := 0) odiv w

/-- Worker `w`'s read share of the table: one of 32 tokens of the full share. -/
abbrev wq (w : Fin 32) : PosShare TreeShare := Transfers.shareTok fullShare 32 w

/-! ## What the handshakes carry -/

local notation "xV" => (Memref.whole Cert.Kernel.main_v0_scv : Memref Cert.Kernel.sig Kind.scVector Space.hbm Cert.Kernel.S6400x128 EltTy.i32)
local notation "wV" => (Memref.whole Cert.Kernel.main_arg1_scv : Memref Cert.Kernel.sig Kind.scVector Space.hbm Cert.Kernel.S100001x128 EltTy.f32)
local notation "oV" => (Memref.whole Cert.Kernel.main_v1_scv : Memref Cert.Kernel.sig Kind.scVector Space.hbm Cert.Kernel.S819200x128 EltTy.f32)

abbrev xSet (w : Fin 32) : Finset S6400x128.Idx := ((xV).view.slice (xrow w)).set
abbrev oSet (w : Fin 32) : Finset S819200x128.Idx := ((oV).view.slice (orow w)).set

variable [FloatOps F]

/- The launch state of the three arrays the call works on: the flattened index array `X`, the table `Wt`, the result
   array before the call `O0`. -/
variable (X : (d : Dev nD) → Buf (Elt F) (xLoc d)) (Wt : (d : Dev nD) → Buf (Elt F) (wLoc d)) (O0 : (d : Dev nD) → Buf (Elt F) (oLoc d))

/-- The result array after the call: row `r` is the table's row named by the `r`-th index word. -/
def res (d : Dev nD) : Buf (Elt F) (oLoc d) := Spec.gathered (X d) (Wt d)

abbrev xRowPts (d : Dev nD) (w : Fin 32) : sProp 𝕄 := xLoc d ↦[xSet w]{fullShare} X d
abbrev wShPts (d : Dev nD) (w : Fin 32) : sProp 𝕄 := wLoc d ↦{wq w} Wt d
abbrev oRowPts (d : Dev nD) (w : Fin 32) (f : Buf (Elt F) (oLoc d)) : sProp 𝕄 := oLoc d ↦[oSet w]{fullShare} f

/-- What worker `w` is handed: its rows of the index array, its read share of the table, its rows of the result; -/
abbrev goPts (d : Dev nD) (w : Fin 32) : sProp 𝕄 := iprop(xRowPts X d w ∗ wShPts Wt d w ∗ oRowPts d w (O0 d))
/-- and what it hands back: the same, its rows of the result now the looked-up rows. -/
abbrev tdPts (d : Dev nD) (w : Fin 32) : sProp 𝕄 := iprop(xRowPts X d w ∗ wShPts Wt d w ∗ oRowPts d w (res X Wt d))

/-- SparseCore `c` takes what its sixteen tasks take, and brings back what they bring back. -/
def P : (K (F := F)).Pay (nD := nD) (Val := Elt F) (Name := ℕ) (U := UU) where
  st := fun q d c => match q with | 0 => bigSep Finset.univ fun i : Fin 16 => goPts X Wt O0 d (wid (Fin.cast nCore_zero c) i)
  dn := fun q d c => match q with | 0 => bigSep Finset.univ fun i : Fin 16 => tdPts X Wt d (wid (Fin.cast nCore_zero c) i)
  go := fun q d c i => match q with | 0 => goPts X Wt O0 d (wid (Fin.cast nCore_zero c) (Fin.cast nSub_zero i))
  td := fun q d c i => match q with | 0 => tdPts X Wt d (wid (Fin.cast nCore_zero c) (Fin.cast nSub_zero i))
  x := fun _ _ => iprop(emp)

instance P_storable : (P (F := F) X Wt O0).IsStorable where
  st q d c := match q with
    | 0 => (inferInstance : BI.Storable (upEmb : UEmb _ 𝕄) (bigSep Finset.univ fun i : Fin 16 => goPts X Wt O0 d (wid (Fin.cast nCore_zero c) i)))
  dn q d c := match q with
    | 0 => (inferInstance : BI.Storable (upEmb : UEmb _ 𝕄) (bigSep Finset.univ fun i : Fin 16 => tdPts X Wt d (wid (Fin.cast nCore_zero c) i)))
  go q d c i := match q with
    | 0 => (inferInstance : BI.Storable (upEmb : UEmb _ 𝕄) (goPts X Wt O0 d (wid (Fin.cast nCore_zero c) (Fin.cast nSub_zero i))))
  td q d c i := match q with
    | 0 => (inferInstance : BI.Storable (upEmb : UEmb _ 𝕄) (tdPts X Wt d (wid (Fin.cast nCore_zero c) (Fin.cast nSub_zero i))))

/-- What the proof asks of the launch state: every index word names a row of the table. -/
def InRange : Prop := ∀ (d : Dev nD) (j : S6400x128.Idx), (X d j).toNat < 100001

end Cert.Proof.KB

end
-- ==== Proof.KBDefs.lean ====
/-
  One tile of the embedding lookup: its views of the arrays, the share tokens it reads the table through, and the
  invariant of its loop. Tile (c, s) is worker w = 2 s + c. Chunk j (0 ≤ j < 200) of the tile is rows
  [25600 w + 128 j, 25600 w + 128 j + 128) of the result; its row numbers are row j of the tile's index scratch, which
  is row 200 w + j of the flattened index array. Chunk j travels through slot j % 4 of the row scratch.
-/
import proofs.«206608_g4801773437349_cont_8to1_c_1039_14_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S6400x128 EltTy.i32)
local notation "wV" => (Memref.whole Cert.Kernel.main_arg1_scv : Memref Cert.Kernel.sig Kind.scVector Space.hbm Cert.Kernel.S100001x128 EltTy.f32)
local notation "oV" => (Memref.whole Cert.Kernel.main_v1_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S4x128x128 EltTy.f32)

theorem scopedLocs : (Finset.univ.filter fun sl : SemLoc sig => sl.isScoped .scVector = true)
    = {SemLoc.dma 0, SemLoc.dma 1, SemLoc.dma 2, SemLoc.dma 3, SemLoc.dma 4, SemLoc.dma 5, SemLoc.dma 6, SemLoc.dma 7, SemLoc.dma 8} := by decide

theorem ownCells_V (d : Dev nD) (c : Fin τ.nSC) (i : Fin τ.nSub) :
    ownCells (sig := sig) (V d c i)
      = (Finset.univ.filter fun sl : SemLoc sig => sl.isScoped .scVector = true).map
          ⟨fun sl => ((V d c i : Thread nD τ), sl), fun _ _ h => (Prod.mk.inj h).2⟩ := by
  ext ⟨thr, sl⟩
  rw [mem_ownCells, Finset.mem_map]
  constructor
  · rintro ⟨h1, h2⟩
    change thr = V d c i at h1
    subst h1
    exact ⟨sl, Finset.mem_filter.mpr ⟨Finset.mem_univ _, h2⟩, rfl⟩
  · rintro ⟨sl', h, e⟩
    have h' := (Finset.mem_filter.mp h).2
    cases e
    exact ⟨rfl, h'⟩

abbrev cell (d : Dev nD) (c : Fin τ.nSC) (i : Fin τ.nSub) (k : DmaSem sig) : GSem nD τ sig := (V d c i, .dma k)

theorem ownSems0_V (d : Dev nD) (c : Fin τ.nSC) (i : Fin τ.nSub) :
    (ownSems0 (V d c i) : sProp 𝕄)
      = iprop(semVal (cell d c i 0) 0 ∗ semVal (cell d c i 1) 0 ∗ semVal (cell d c i 2) 0 ∗ semVal (cell d c i 3) 0 ∗ semVal (cell d c i 4) 0
          ∗ semVal (cell d c i 5) 0 ∗ semVal (cell d c i 6) 0 ∗ semVal (cell d c i 7) 0 ∗ semVal (cell d c i 8) 0) := by
  unfold SparseCore.Cfg.ownSems0
  rw [ownCells_V, bigSep_map, scopedLocs]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

section Tile
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
theorem L0_lt : (L 0).val < 2 := (L 0).isLt
theorem L1_lt : (L 1).val < 16 := (L 1).isLt
/-- The tile's worker number, from its coordinates. -/
def wL (L : grid0.Coords) : Fin 32 := ⟨2 * (L 1).val + (L 0).val, by have := L0_lt L; have := L1_lt L; omega⟩
theorem wL_eq : wL L = wid (Fin.cast bound_zero (L 0)) (Fin.cast bound_one (L 1)) := rfl

abbrev xrowK (L : grid0.Coords) : Rect S6400x128 := Rect.unit (s := S6400x128) (k0_off1 L) S200x128.size (k0_off1_inb L)
abbrev xRowK (L : grid0.Coords) : Memref sig .scVector .hbm S200x128 .i32 := (xV).slice (xrowK L) (fun _ => rfl)

theorem xrowK_eq : xrowK L = xrow (wL L) := by
  have h0 := L0_lt L; have h1 := L1_lt L
  unfold xrowK xrow Rect.part Rect.block
  congr 1 <;> funext a
  · rw [k0_off1_eq]
    match a with
    | 0 => simp [Shape.partIx, Shape.partSize, wL]; omega
    | 1 => simp [Shape.partIx, Shape.partSize]
  · match a with
    | 0 => simp [Shape.partSize]
    | 1 => simp [Shape.partSize]

abbrev S25600x128 : Shape := ⟨2, ![25600, 128]⟩
theorem orowK_inb : ∀ a, (![51200 * (L 1).val + 25600 * (L 0).val, 0] : Fin 2 → Nat) a + S25600x128.size a ≤ S819200x128.size a := by
  have h0 := L0_lt L; have h1 := L1_lt L
  intro a
  match a with
  | 0 => simp [Shape.size]; omega
  | 1 => simp [Shape.size]
abbrev orowK (L : grid0.Coords) : Rect S819200x128 :=
  Rect.unit (s := S819200x128) ![51200 * (L 1).val + 25600 * (L 0).val, 0] S25600x128.size (orowK_inb L)

theorem orowK_eq : orowK L = orow (wL L) := by
  have h0 := L0_lt L; have h1 := L1_lt L
  unfold orowK orow Rect.part Rect.block
  congr 1 <;> funext a
  · match a with
    | 0 => simp [Shape.partIx, Shape.partSize, wL]; omega
    | 1 => simp [Shape.partIx, Shape.partSize]
  · match a with
    | 0 => simp [Shape.partSize]
    | 1 => simp [Shape.partSize]

theorem set_xRowK : (xRowK L).view.set = xSet (wL L) := by
  show ((xV).view.slice (xrowK L)).set = ((xV).view.slice (xrow (wL L))).set
  rw [xrowK_eq]
theorem setOn_orowK : (oV).view.setOn (orowK L).set = oSet (wL L) := by
  show _ = ((oV).view.slice (orow (wL L))).set
  rw [View.set_slice, ← orowK_eq]; rfl

variable [FloatOps F]
variable (X : (d : Dev nD) → Buf (Elt F) (xLoc d)) (Wt : (d : Dev nD) → Buf (Elt F) (wLoc d)) (O0 : (d : Dev nD) → Buf (Elt F) (oLoc d))

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The index scratch after the fetch: the tile's 200 rows of the index array. -/
abbrev fetched (fs : Buf (Elt F) ((iV).view.loc (V d (cV L) (jV L)))) : Buf (Elt F) ((iV).view.loc (V d (cV L) (jV L))) :=
  (iV).view.write (Elt F) fs (ReadAs.same.apply ((xRowK L).view.read (Elt F) (X d))) Finset.univ

omit [FloatOps F] in
/-- Every word the fetch landed names a table row: it is a word of the index array. -/
theorem fetched_lt (hpre : InRange X) (fs : Buf (Elt F) ((iV).view.loc (V d (cV L) (jV L)))) (j : S200x128.Idx) :
    (fetched d L X fs j).toNat < 100001 := by
  unfold fetched
  rw [View.write_whole_univ]
  exact hpre d _

omit [FloatOps F] in
/-- A read share gives up one more token; -/
theorem tok_split {ℓ : Loc nD τ sig} (f : Buf (Elt F) ℓ) (q : PosShare TreeShare) (k : ℕ) :
    (ℓ ↦{Transfers.shareDrop q k} f : sProp 𝕄) ⊢ iprop((ℓ ↦{Transfers.shareDrop q (k + 1)} f) ∗ ℓ ↦{Transfers.shareTokN q k} f) :=
  (pointsTo_share (PosShare.mem_left_op_right (Transfers.shareDrop q k))).1
omit [FloatOps F] in
/-- and takes it back. -/
theorem tok_join {ℓ : Loc nD τ sig} (f : Buf (Elt F) ℓ) (q : PosShare TreeShare) (k : ℕ) :
    iprop((ℓ ↦{Transfers.shareDrop q (k + 1)} f) ∗ ℓ ↦{Transfers.shareTokN q k} f) ⊢ (ℓ ↦{Transfers.shareDrop q k} f : sProp 𝕄) :=
  (pointsTo_share (PosShare.mem_left_op_right (Transfers.shareDrop q k))).2

/-! ## The loop's invariant -/

/-- The four slots of the row scratch. -/
abbrev rS0 : Memref sig .scVector .vmem S128x128 .f32 := ((rV).slice (Rect.unit (s := S4x128x128) ![0, 0, 0] S1x128x128.size inb_S4x128x128_S1x128x128_0_0_0) (fun _ => rfl)).squeeze S128x128 squeezes_S1x128x128_S128x128
abbrev rS1 : Memref sig .scVector .vmem S128x128 .f32 := ((rV).slice (Rect.unit (s := S4x128x128) ![1, 0, 0] S1x128x128.size inb_S4x128x128_S1x128x128_1_0_0) (fun _ => rfl)).squeeze S128x128 squeezes_S1x128x128_S128x128
abbrev rS2 : Memref sig .scVector .vmem S128x128 .f32 := ((rV).slice (Rect.unit (s := S4x128x128) ![2, 0, 0] S1x128x128.size inb_S4x128x128_S1x128x128_2_0_0) (fun _ => rfl)).squeeze S128x128 squeezes_S1x128x128_S128x128
abbrev rS3 : Memref sig .scVector .vmem S128x128 .f32 := ((rV).slice (Rect.unit (s := S4x128x128) ![3, 0, 0] S1x128x128.size inb_S4x128x128_S1x128x128_3_0_0) (fun _ => rfl)).squeeze S128x128 squeezes_S1x128x128_S128x128
/-- The table, as every gather addresses it. -/
abbrev wSl : Memref sig .scVector .hbm S100001x128 .f32 := (wV).slice (Rect.unit (s := S100001x128) ![0, 0] S100001x128.size inb_S100001x128_S100001x128_0_0) (fun _ => rfl)

omit [FloatOps F] in
theorem iRow_inb (j : ℕ) (hj : j < 200) : ∀ a, (![j, 0] : Fin 2 → ℕ) a + S1x128.size a ≤ S200x128.size a := by
  intro a
  match a with
  | 0 => simp [Shape.size]; omega
  | 1 => simp [Shape.size]
/-- Row `j` of the index scratch: the list of chunk `j`. -/
abbrev iRowAt (j : ℕ) (hj : j < 200) : Memref sig .scVector .vmem S128 .i32 :=
  ((iV).slice (Rect.unit (s := S200x128) ![j, 0] S1x128.size (iRow_inb j hj)) (fun _ => rfl)).squeeze S128 squeezes_S1x128_S128

omit [FloatOps F] in
theorem oCh_inb (j : ℕ) (hj : j < 200) :
    ∀ a, (![51200 * (L 1).val + 25600 * (L 0).val + 128 * j, 0] : Fin 2 → ℕ) a + S128x128.size a ≤ S819200x128.size a := by
  have h0 := L0_lt L; have h1 := L1_lt L
  intro a
  match a with
  | 0 => simp [Shape.size]; omega
  | 1 => simp [Shape.size]
/-- Chunk `j` of the tile's rows of the result: 128 rows. -/
abbrev oChAt (j : ℕ) (hj : j < 200) : Memref sig .scVector .hbm S128x128 .f32 :=
  (oV).slice (Rect.unit (s := S819200x128) ![51200 * (L 1).val + 25600 * (L 0).val + 128 * j, 0] S128x128.size (oCh_inb L j hj)) (fun _ => rfl)

abbrev tV : Thread nD τ := V d (cV L) (jV L)

/-- The result array holds the looked-up rows on the tile's first `n` chunks. -/
def DoneN (n : ℕ) (fO : Buf (Elt F) ((oV).view.loc (tV d L))) : Prop :=
  ∀ i : S819200x128.Idx, 25600 * (wL L).val ≤ (i 0).val → (i 0).val < 25600 * (wL L).val + 128 * n → fO i = res X Wt d i

omit [FloatOps F] in
theorem lt200_0 (k : ℕ) (h : k < 50) : 4 * k + 0 < 200 := by omega
omit [FloatOps F] in
theorem lt200_1 (k : ℕ) (h : k < 50) : 4 * k + 1 < 200 := by omega
omit [FloatOps F] in
theorem lt200_2 (k : ℕ) (h : k < 50) : 4 * k + 2 < 200 := by omega
omit [FloatOps F] in
theorem lt200_3 (k : ℕ) (h : k < 50) : 4 * k + 3 < 200 := by omega

/-- Slot 0's contents are chunk `j`'s rows of the result. -/
def SlotHolds0 (j : ℕ) (hj : j < 200) (g : Buf (Elt F) ((rV).view.loc (tV d L))) : Prop :=
  ∀ y : S128x128.Idx, g ((rS0).view.emb y) = res X Wt d ((oChAt L j hj).view.emb y)
/-- The gather of chunk `j` in flight into slot 0: it delivers the slot at `g`, the list row it read and the table token it read through. -/
abbrev flight0 (j : ℕ) (hj : j < 200) (fI : Buf (Elt F) ((iV).view.loc (tV d L))) (g : Buf (Elt F) ((rV).view.loc (tV d L))) : sProp 𝕄 :=
  Transfers.Flight countersEmb (tV d L) (SemLoc.dma 0) default 524288
    iprop((((rV).view.loc (tV d L) ↦[(rS0).view.set]{fullShare} g) ∗ ((iV).view.loc (tV d L) ↦[(iRowAt j hj).view.set]{fullShare} fI))
      ∗ ((wV).view.loc (tV d L) ↦[(wSl).view.set]{Transfers.shareTokN (wq (wL L)) 0} Wt d))
/-- Slot 1's contents are chunk `j`'s rows of the result. -/
def SlotHolds1 (j : ℕ) (hj : j < 200) (g : Buf (Elt F) ((rV).view.loc (tV d L))) : Prop :=
  ∀ y : S128x128.Idx, g ((rS1).view.emb y) = res X Wt d ((oChAt L j hj).view.emb y)
/-- The gather of chunk `j` in flight into slot 1: it delivers the slot at `g`, the list row it read and the table token it read through. -/
abbrev flight1 (j : ℕ) (hj : j < 200) (fI : Buf (Elt F) ((iV).view.loc (tV d L))) (g : Buf (Elt F) ((rV).view.loc (tV d L))) : sProp 𝕄 :=
  Transfers.Flight countersEmb (tV d L) (SemLoc.dma 1) default 524288
    iprop((((rV).view.loc (tV d L) ↦[(rS1).view.set]{fullShare} g) ∗ ((iV).view.loc (tV d L) ↦[(iRowAt j hj).view.set]{fullShare} fI))
      ∗ ((wV).view.loc (tV d L) ↦[(wSl).view.set]{Transfers.shareTokN (wq (wL L)) 1} Wt d))
/-- Slot 2's contents are chunk `j`'s rows of the result. -/
def SlotHolds2 (j : ℕ) (hj : j < 200) (g : Buf (Elt F) ((rV).view.loc (tV d L))) : Prop :=
  ∀ y : S128x128.Idx, g ((rS2).view.emb y) = res X Wt d ((oChAt L j hj).view.emb y)
/-- The gather of chunk `j` in flight into slot 2: it delivers the slot at `g`, the list row it read and the table token it read through. -/
abbrev flight2 (j : ℕ) (hj : j < 200) (fI : Buf (Elt F) ((iV).view.loc (tV d L))) (g : Buf (Elt F) ((rV).view.loc (tV d L))) : sProp 𝕄 :=
  Transfers.Flight countersEmb (tV d L) (SemLoc.dma 2) default 524288
    iprop((((rV).view.loc (tV d L) ↦[(rS2).view.set]{fullShare} g) ∗ ((iV).view.loc (tV d L) ↦[(iRowAt j hj).view.set]{fullShare} fI))
      ∗ ((wV).view.loc (tV d L) ↦[(wSl).view.set]{Transfers.shareTokN (wq (wL L)) 2} Wt d))
/-- Slot 3's contents are chunk `j`'s rows of the result. -/
def SlotHolds3 (j : ℕ) (hj : j < 200) (g : Buf (Elt F) ((rV).view.loc (tV d L))) : Prop :=
  ∀ y : S128x128.Idx, g ((rS3).view.emb y) = res X Wt d ((oChAt L j hj).view.emb y)
/-- The gather of chunk `j` in flight into slot 3: it delivers the slot at `g`, the list row it read and the table token it read through. -/
abbrev flight3 (j : ℕ) (hj : j < 200) (fI : Buf (Elt F) ((iV).view.loc (tV d L))) (g : Buf (Elt F) ((rV).view.loc (tV d L))) : sProp 𝕄 :=
  Transfers.Flight countersEmb (tV d L) (SemLoc.dma 3) default 524288
    iprop((((rV).view.loc (tV d L) ↦[(rS3).view.set]{fullShare} g) ∗ ((iV).view.loc (tV d L) ↦[(iRowAt j hj).view.set]{fullShare} fI))
      ∗ ((wV).view.loc (tV d L) ↦[(wSl).view.set]{Transfers.shareTokN (wq (wL L)) 3} Wt d))

abbrev wRest (tok : ℕ) : sProp 𝕄 :=
  (wV).view.loc (tV d L) ↦[Finset.univ \ (wSl).view.set]{Transfers.shareTokN (wq (wL L)) tok} Wt d

/-- Before trip `k < 50`: the gathers of chunks `4k … 4k+3` are in flight into the four slots. -/
def InFlight (fI : Buf (Elt F) ((iV).view.loc (tV d L))) (k : ℕ) (h : k < 50) : sProp 𝕄 :=
  iprop((∃ g, flight0 d L Wt (4 * k + 0) (lt200_0 k h) fI g ∗ ⌜SlotHolds0 d L X Wt (4 * k + 0) (lt200_0 k h) g⌝) ∗ wRest d L Wt 0
    ∗ (∃ g, flight1 d L Wt (4 * k + 1) (lt200_1 k h) fI g ∗ ⌜SlotHolds1 d L X Wt (4 * k + 1) (lt200_1 k h) g⌝) ∗ wRest d L Wt 1
    ∗ (∃ g, flight2 d L Wt (4 * k + 2) (lt200_2 k h) fI g ∗ ⌜SlotHolds2 d L X Wt (4 * k + 2) (lt200_2 k h) g⌝) ∗ wRest d L Wt 2
    ∗ (∃ g, flight3 d L Wt (4 * k + 3) (lt200_3 k h) fI g ∗ ⌜SlotHolds3 d L X Wt (4 * k + 3) (lt200_3 k h) g⌝) ∗ wRest d L Wt 3
    ∗ (∃ R, (rV).view.loc (tV d L) ↦[(((Finset.univ \ (rS0).view.set) \ (rS1).view.set) \ (rS2).view.set) \ (rS3).view.set]{fullShare} R)
    ∗ ((iV).view.loc (tV d L) ↦[(((Finset.univ \ ((iRowAt (4 * k + 0) (lt200_0 k h)).view.set : Finset (Idx ((iV).view.loc (tV d L))))) \ ((iRowAt (4 * k + 1) (lt200_1 k h)).view.set : Finset (Idx ((iV).view.loc (tV d L)))))
          \ ((iRowAt (4 * k + 2) (lt200_2 k h)).view.set : Finset (Idx ((iV).view.loc (tV d L))))) \ ((iRowAt (4 * k + 3) (lt200_3 k h)).view.set : Finset (Idx ((iV).view.loc (tV d L))))]{fullShare} fI))

def inv (fI : Buf (Elt F) ((iV).view.loc (tV d L))) (O : CellTallies nD τ sig (HIx 1)) (W : Waits sig (HIx 1)) (k : ℕ) (_ : PUnit) : sProp 𝕄 :=
  iprop(Transfers.MayWaits (tV d L) (default : HIx 1) O
    ∗ (∃ fO, ((oV).view.loc (tV d L) ↦[(oV).view.setOn (orowK L).set]{fullShare} fO) ∗ ⌜DoneN d L X Wt (4 * k) fO⌝)
    ∗ semVal (cell d (cV L) (jV L) 5) 0 ∗ semVal (cell d (cV L) (jV L) 6) 0 ∗ semVal (cell d (cV L) (jV L) 7) 0 ∗ semVal (cell d (cV L) (jV L) 8) 0
    ∗ (∃ W', ⌜∀ p ∈ W', p ∈ W ∨ p.2 = none⌝ ∗ owes (tV d L) O W')
    ∗ (if h : k < 50 then InFlight d L X Wt fI k h else iprop(emp)))

omit [FloatOps F] in
theorem conds_of_lt : ∀ k : Fin k0_t1_loop.trips, k.val + 1 < 50 → k0_cond1 k = 1#1 ∧ k0_cond2 k = 1#1 ∧ k0_cond3 k = 1#1 ∧ k0_cond4 k = 1#1 := by decide +kernel
omit [FloatOps F] in
theorem conds_of_last : ∀ k : Fin k0_t1_loop.trips, ¬ k.val + 1 < 50 → ¬ k0_cond1 k = 1#1 ∧ ¬ k0_cond2 k = 1#1 ∧ ¬ k0_cond3 k = 1#1 ∧ ¬ k0_cond4 k = 1#1 := by decide +kernel
omit [FloatOps F] in
theorem trips_eq : k0_t1_loop.trips = 50 := by decide

end Tile

end Cert.Proof.KB

end
-- ==== Proof.KBRows.lean ====
/-
  Rows of the index scratch.

  A row of the index scratch `i32[200, 128]` is the rectangle of height 1 and width 128 at some row offset; an element is in it
  exactly when its row coordinate is that offset. So rows at different offsets share no element — as rectangles of the
  scratch, and as the 128-vectors they are squeezed to (a squeeze keeps the elements). In trip `k` of the tile's loop
  the next four gathers read rows `4 k + 4, …, 4 k + 7`.
-/
import proofs.«206608_g4801773437349_cont_8to1_c_1039_14_alg».proof.Proof.KBDefs

noncomputable section

namespace Cert.Proof.KB

open Cert.Kernel Cert.Kernel.Gen

open Idealize.ShloMosaic

local notation "iV" => (Memref.whole Cert.Kernel.cc0_scratch0 : Memref Cert.Kernel.sig Kind.scVector Space.vmem Cert.Kernel.S200x128 EltTy.i32)

/-- Two rows of the index scratch at different row offsets are disjoint; -/
theorem rows_disjoint' (off off' : Fin 2 → ℕ) (inb : ∀ a, off a + S1x128.size a ≤ S200x128.size a)
    (inb' : ∀ a, off' a + S1x128.size a ≤ S200x128.size a) (h : off 0 ≠ off' 0) :
    Disjoint ((iV).slice (Rect.unit (s := S200x128) off S1x128.size inb) (fun _ => rfl)).view.set
      ((iV).slice (Rect.unit (s := S200x128) off' S1x128.size inb') (fun _ => rfl)).view.set := by
  have e : ((iV).slice (Rect.unit (s := S200x128) off S1x128.size inb) (fun _ => rfl)).view.set
      = (Rect.unit (s := S200x128) off S1x128.size inb).set := View.set_slice_whole _ _
  have e' : ((iV).slice (Rect.unit (s := S200x128) off' S1x128.size inb') (fun _ => rfl)).view.set
      = (Rect.unit (s := S200x128) off' S1x128.size inb').set := View.set_slice_whole _ _
  rw [e, e']
  refine Rect.unit_disjoint 0 ?_
  have h1 : S1x128.size 0 = 1 := rfl
  rw [h1]
  omega

/-- and so are the 128-vectors they are squeezed to. -/
theorem rows_disjoint (off off' : Fin 2 → ℕ) (inb : ∀ a, off a + S1x128.size a ≤ S200x128.size a)
    (inb' : ∀ a, off' a + S1x128.size a ≤ S200x128.size a) (h : off 0 ≠ off' 0) :
    Disjoint (((iV).slice (Rect.unit (s := S200x128) off S1x128.size inb) (fun _ => rfl)).squeeze S128 squeezes_S1x128_S128).view.set
      (((iV).slice (Rect.unit (s := S200x128) off' S1x128.size inb') (fun _ => rfl)).squeeze S128 squeezes_S1x128_S128).view.set := by
  have e : (((iV).slice (Rect.unit (s := S200x128) off S1x128.size inb) (fun _ => rfl)).squeeze S128 squeezes_S1x128_S128).view.set
      = ((iV).slice (Rect.unit (s := S200x128) off S1x128.size inb) (fun _ => rfl)).view.set := View.set_reshape _ _
  have e' : (((iV).slice (Rect.unit (s := S200x128) off' S1x128.size inb') (fun _ => rfl)).squeeze S128 squeezes_S1x128_S128).view.set
      = ((iV).slice (Rect.unit (s := S200x128) off' S1x128.size inb') (fun _ => rfl)).view.set := View.set_reshape _ _
  rw [e, e']
  exact rows_disjoint' off off' inb inb' h

/-- The rows the four gathers issued in trip `k` read. -/
theorem off3_row (k : Fin k0_t1_loop.trips) : (k0_off3 k) 0 = 4 * k.val + 4 := by rw [k0_off3_eq]; rfl
theorem off4_row (k : Fin k0_t1_loop.trips) : (k0_off4 k) 0 = 4 * k.val + 5 := by rw [k0_off4_eq]; rfl
theorem off5_row (k : Fin k0_t1_loop.trips) : (k0_off5 k) 0 = 4 * k.val + 6 := by rw [k0_off5_eq]; rfl
theorem off6_row (k : Fin k0_t1_loop.trips) : (k0_off6 k) 0 = 4 * k.val + 7 := by rw [k0_off6_eq]; rfl

/-- The four together. -/
theorem off3_ne : ∀ k : Fin k0_t1_loop.trips, (k0_off3 k) 0 = 4 * k.val + 4 ∧ (k0_off4 k) 0 = 4 * k.val + 5
    ∧ (k0_off5 k) 0 = 4 * k.val + 6 ∧ (k0_off6 k) 0 = 4 * k.val + 7 :=
  fun k => ⟨off3_row k, off4_row k, off5_row k, off6_row k⟩

end Cert.Proof.KB

end
-- ==== Proof.KBVal.lean ====
/-
  Values in one tile's loop of the embedding lookup.

  A gather of chunk j reads row j of the tile's index scratch — after the fetch, row 200 w + j of the flattened index
  array, w the tile's worker number — and delivers, at (p, c), the table's entry (x2[200 w + j, p], c). Row p of chunk j
  of the tile's rows of the result is the flat row r = 25600 w + 128 j + p, for which r / 128 = 200 w + j and
  r % 128 = p: the looked-up row there is the table's row x2[200 w + j, p], the same entry. A slot of the row scratch
  written whole with such a payload holds the chunk's rows of the result.
-/
import proofs.«206608_g4801773437349_cont_8to1_c_1039_14_alg».proof.Proof.KBDefs
import proofs.«206608_g4801773437349_cont_8to1_c_1039_14_alg».proof.Proof.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S6400x128 EltTy.i32)
local notation "wV" => (Memref.whole Cert.Kernel.main_arg1_scv : Memref Cert.Kernel.sig Kind.scVector Space.hbm Cert.Kernel.S100001x128 EltTy.f32)
local notation "oV" => (Memref.whole Cert.Kernel.main_v1_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S4x128x128 EltTy.f32)

section Val
variable (d : Dev nD) (L : grid0.Coords)

/-! ## Where the tile's views place their indices -/

/-- The table as a gather addresses it is the table: index for index. -/
theorem wSl_emb (z : S100001x128.Idx) : (wSl).view.emb z = z := by
  funext a
  apply Fin.ext
  show (![0, 0] : Fin 2 → ℕ) a + 1 * (z a).val = (z a).val
  match a with
  | ⟨0, _⟩ => simp
  | ⟨1, _⟩ => simp

/-- Row `j` of the index scratch as a list: the slice at `![j, 0]`, squeezed. -/
abbrev iRowV (j : ℕ) (inb : ∀ a, (![j, 0] : Fin 2 → ℕ) a + S1x128.size a ≤ S200x128.size a) : Memref sig .scVector .vmem S128 .i32 :=
  ((iV).slice (Rect.unit (s := S200x128) ![j, 0] S1x128.size inb) (fun _ => rfl)).squeeze S128 squeezes_S1x128_S128

/-- Entry `p` of the list at row `j` of the index scratch is the scratch's entry `(j, p)`. -/
theorem iRow_emb_val (j : ℕ) (inb : ∀ a, (![j, 0] : Fin 2 → ℕ) a + S1x128.size a ≤ S200x128.size a) (x : S128.Idx) :
    ((iRowV j inb).view.emb x 0).val = j ∧ ((iRowV j inb).view.emb x 1).val = (x 0).val := by
  have hnum : S128.numel = S1x128.numel := squeezes_S1x128_S128.numel_eq
  set y' : S1x128.Idx := Shape.reshapeEquiv hnum x with hy'
  have h1 : (S1x128.rowMajor y').val = (S128.rowMajor x).val := Shape.rowMajor_reshapeEquiv hnum x
  have h2 : (S1x128.rowMajor y').val = (y' 0).val * 128 + (y' 1).val := Shape.rowMajor_val_two y'
  have h3 : (S128.rowMajor x).val = (x 0).val := Shape.rowMajor_val_one x
  have h0 : (y' 0).val < 1 := (y' 0).isLt
  constructor
  · show (![j, 0] : Fin 2 → ℕ) 0 + 1 * (y' 0).val = j
    simp; omega
  · show (![j, 0] : Fin 2 → ℕ) 1 + 1 * (y' 1).val = (x 0).val
    simp; omega

/-- Entry `(j, p)` of the tile's rows of the index array is the array's entry `(200 w + j, p)`. -/
theorem xRowK_emb_val (i : S200x128.Idx) :
    ((xRowK L).view.emb i 0).val = 200 * (wL L).val + (i 0).val ∧ ((xRowK L).view.emb i 1).val = (i 1).val := by
  constructor
  · show (k0_off1 L) 0 + 1 * (i 0).val = 200 * (2 * (L 1).val + (L 0).val) + (i 0).val
    rw [k0_off1_eq]; simp; omega
  · show (k0_off1 L) 1 + 1 * (i 1).val = (i 1).val
    rw [k0_off1_eq]; simp

/-- Entry `(p, c)` of chunk `j` of the tile's rows of the result is the result's entry `(25600 w + 128 j + p, c)`. -/
theorem oCh_emb_val (j : ℕ) (hj : j < 200) (y : S128x128.Idx) :
    ((oChAt L j hj).view.emb y 0).val = 25600 * (wL L).val + 128 * j + (y 0).val ∧ ((oChAt L j hj).view.emb y 1).val = (y 1).val := by
  constructor
  · show (![51200 * (L 1).val + 25600 * (L 0).val + 128 * j, 0] : Fin 2 → ℕ) 0 + 1 * (y 0).val = 25600 * (2 * (L 1).val + (L 0).val) + 128 * j + (y 0).val
    simp; omega
  · show (![51200 * (L 1).val + 25600 * (L 0).val + 128 * j, 0] : Fin 2 → ℕ) 1 + 1 * (y 1).val = (y 1).val
    simp

variable [FloatOps F]
variable (X : (d : Dev nD) → Buf (Elt F) (xLoc d)) (Wt : (d : Dev nD) → Buf (Elt F) (wLoc d)) (O0 : (d : Dev nD) → Buf (Elt F) (oLoc d))

omit [FloatOps F] in
/-- After the fetch the index scratch holds the tile's rows of the index array. -/
theorem fetched_apply (fs : Buf (Elt F) ((iV).view.loc (tV d L))) (i : S200x128.Idx) :
    fetched d L X fs i = X d ((xRowK L).view.emb i) := by
  unfold fetched
  rw [View.write_whole_univ]
  rfl

/-! ## A slot written whole holds what was written -/

theorem slot0_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds0 d L X Wt j hj (View.write (Elt F) (rS0).view base pay Finset.univ) := by
  intro y
  rw [View.write_emb_of_mem _ _ (Finset.mem_univ y)]
  exact hpay y
theorem slot1_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds1 d L X Wt j hj (View.write (Elt F) (rS1).view base pay Finset.univ) := by
  intro y
  rw [View.write_emb_of_mem _ _ (Finset.mem_univ y)]
  exact hpay y
theorem slot2_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds2 d L X Wt j hj (View.write (Elt F) (rS2).view base pay Finset.univ) := by
  intro y
  rw [View.write_emb_of_mem _ _ (Finset.mem_univ y)]
  exact hpay y
theorem slot3_of_pay (base : Buf (Elt F) ((rV).view.loc (tV d L))) (j : ℕ) (hj : j < 200) (pay : S128x128.Idx → Elt F .f32)
    (hpay : ∀ y : S128x128.Idx, pay y = res X Wt d ((oChAt L j hj).view.emb y)) :
    SlotHolds3 d L X Wt j hj (View.write (Elt F) (rS3).view base pay Finset.univ) := by
  intro y
  rw [View.write_emb_of_mem _ _ (Finset.mem_univ y)]
  exact hpay y

/-! ## What a gather delivers -/

omit [FloatOps F] in
/-- The table read as a gather addresses it is the table. -/
theorem wSl_read (z : S100001x128.Idx) : (wSl).view.read (Elt F) (Wt d) z = Wt d z := by
  rw [View.read_apply, wSl_emb]
  rfl

/-- The looked-up rows, entry by entry. -/
theorem res_apply (i : S819200x128.Idx) : res X Wt d i = Wt d (ix2 (Spec.rowOf (Spec.wordAt (X d) (i 0))) (i 1)) := rfl

theorem gather_pay_eq (hpre : InRange X) (fs : Buf (Elt F) ((iV).view.loc (tV d L))) (j : ℕ) (hj : j < 200)
    (off : Fin 2 → ℕ) (inb : ∀ a, off a + S1x128.size a ≤ S200x128.size a) (hoff : off = ![j, 0])
    (hn : S128.numel = S128x128.size gathers_S100001x128_S128x128.axis')
    (hin : ∀ x, ((((iV).slice (Rect.unit (s := S200x128) off S1x128.size inb) (fun _ => rfl)).squeeze S128 squeezes_S1x128_S128).view.read (Elt F)
      (fetched d L X fs) x).toNat < S100001x128.size gathers_S100001x128_S128x128.axis)
    (y : S128x128.Idx) :
    SparseCore.gatherPayload gathers_S100001x128_S128x128 ((wSl).view.read (Elt F) (Wt d))
        (SparseCore.rows ((((iV).slice (Rect.unit (s := S200x128) off S1x128.size inb) (fun _ => rfl)).squeeze S128 squeezes_S1x128_S128).view.read (Elt F)
          (fetched d L X fs)) hn hin) y
      = res X Wt d ((oChAt L j hj).view.emb y) := by
  subst hoff
  obtain ⟨ho0, ho1⟩ := oCh_emb_val L j hj y
  have hy0 : (y 0).val < 128 := (y 0).isLt
  -- the list entry the payload's row `y 0` reads: entry `y 0` of the list
  have hx0 : ((S128.rowMajor.symm ((y gathers_S100001x128_S128x128.axis').cast hn.symm)) 0).val = (y 0).val := by
    have h1 := Shape.rowMajor_val_one (S128.rowMajor.symm ((y gathers_S100001x128_S128x128.axis').cast hn.symm))
    rw [Equiv.apply_symm_apply] at h1
    exact h1.symm
  obtain ⟨hr0, hr1⟩ := iRow_emb_val j inb (S128.rowMajor.symm ((y gathers_S100001x128_S128x128.axis').cast hn.symm))
  obtain ⟨hk0, hk1⟩ := xRowK_emb_val L ((iRowV j inb).view.emb (S128.rowMajor.symm ((y gathers_S100001x128_S128x128.axis').cast hn.symm)))
  -- that entry is the index word of the result row
  have hword : (iRowV j inb).view.read (Elt F) (fetched d L X fs) (S128.rowMajor.symm ((y gathers_S100001x128_S128x128.axis').cast hn.symm))
      = Spec.wordAt (X d) ((oChAt L j hj).view.emb y 0) := by
    rw [View.read_apply, fetched_apply]
    show X d _ = X d _
    refine congrArg (X d) (funext fun a => Fin.ext ?_)
    match a with
    | ⟨0, _⟩ =>
      show ((xRowK L).view.emb ((iRowV j inb).view.emb (S128.rowMajor.symm ((y gathers_S100001x128_S128x128.axis').cast hn.symm))) 0).val
        = ((oChAt L j hj).view.emb y 0).val / 128
      omega
    | ⟨1, _⟩ =>
      show ((xRowK L).view.emb ((iRowV j inb).view.emb (S128.rowMajor.symm ((y gathers_S100001x128_S128x128.axis').cast hn.symm))) 1).val
        = ((oChAt L j hj).view.emb y 0).val % 128
      omega
  show (wSl).view.read (Elt F) (Wt d) (gathers_S100001x128_S128x128.idx _ y) = _
  rw [wSl_read, res_apply]
  refine congrArg (Wt d) (funext fun a => Fin.ext ?_)
  match a with
  | ⟨0, _⟩ =>
    show (gathers_S100001x128_S128x128.idx _ y gathers_S100001x128_S128x128.axis).val = (Spec.rowOf (Spec.wordAt (X d) ((oChAt L j hj).view.emb y 0))).val
    have hlt : (Spec.wordAt (X d) ((oChAt L j hj).view.emb y 0)).toNat < 100001 := hpre d _
    rw [Shape.Gathers.idx_axis, Spec.rowOf_val hlt, ← hword]
    rfl
  | ⟨1, _⟩ =>
    show (gathers_S100001x128_S128x128.idx _ y ⟨1, by decide⟩).val = ((oChAt L j hj).view.emb y 1).val
    rw [Shape.Gathers.idx_of_ne _ _ _ _ (by decide), ho1]
    rfl

end Val

end Cert.Proof.KB

end
-- ==== Proof.KBDone.lean ====
/-
  The values of one tile's loop over its chunks.

  The tile's rows of the result are filled chunk by chunk: `DoneN n` says the first `n` chunks — rows
  `[25600 w, 25600 w + 128 n)` — hold the looked-up rows. Nothing is asked of no chunks; writing chunk `n`, 128 rows from row
  `25600 w + 128 n`, with the looked-up rows of that chunk extends `DoneN n` to `DoneN (n + 1)`: an entry inside the chunk
  takes the payload, an entry outside keeps what it had, and an entry below row `25600 w + 128 (n + 1)` that is not in the
  chunk is below row `25600 w + 128 n`. After 200 chunks all the tile's 25600 rows are done. A slot of the row scratch that
  holds chunk `n` reads, entry by entry, as that chunk of the result.
-/
import proofs.«206608_g4801773437349_cont_8to1_c_1039_14_alg».proof.Proof.KBDefs
import proofs.«206608_g4801773437349_cont_8to1_c_1039_14_alg».proof.Proof.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "xV" => (Memref.whole Cert.Kernel.main_v0_scv : Memref Cert.Kernel.sig Kind.scVector Space.hbm Cert.Kernel.S6400x128 EltTy.i32)
local notation "wV" => (Memref.whole Cert.Kernel.main_arg1_scv : Memref Cert.Kernel.sig Kind.scVector Space.hbm Cert.Kernel.S100001x128 EltTy.f32)
local notation "oV" => (Memref.whole Cert.Kernel.main_v1_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S4x128x128 EltTy.f32)

section Tile
variable (d : Dev nD) (L : grid0.Coords)
variable [FloatOps F]
variable (X : (d : Dev nD) → Buf (Elt F) (xLoc d)) (Wt : (d : Dev nD) → Buf (Elt F) (wLoc d)) (O0 : (d : Dev nD) → Buf (Elt F) (oLoc d))

/-- The tile's first row of the result, by its coordinates and by its worker number. -/
theorem firstRow_eq : 51200 * (L 1).val + 25600 * (L 0).val = 25600 * (wL L).val := by
  show _ = 25600 * (2 * (L 1).val + (L 0).val)
  omega

/-- The elements under a 128-row window of the result from row `r₀`: rows `[r₀, r₀ + 128)`, every column. -/
theorem mem_window (r₀ : ℕ) (inb : ∀ a, (![r₀, 0] : Fin 2 → ℕ) a + S128x128.size a ≤ S819200x128.size a) (i : S819200x128.Idx) :
    i ∈ ((oV).slice (Rect.unit (s := S819200x128) ![r₀, 0] S128x128.size inb) (fun _ => rfl)).view.set
      ↔ r₀ ≤ (i 0).val ∧ (i 0).val < r₀ + 128 := by
  have e : ((oV).slice (Rect.unit (s := S819200x128) ![r₀, 0] S128x128.size inb) (fun _ => rfl)).view.set
      = (Rect.unit (s := S819200x128) ![r₀, 0] S128x128.size inb).set := View.set_slice_whole _ _
  rw [e, Rect.mem_set_unit]
  have h1 : (i 1).val < 128 := (i 1).isLt
  constructor
  · intro h
    exact h 0
  · intro h a
    match a with
    | ⟨0, _⟩ => exact h
    | ⟨1, _⟩ => exact ⟨Nat.zero_le _, by show (i 1).val < 0 + 128; omega⟩

/-- No chunk done yet asks nothing. -/
theorem doneN_zero (fO : Buf (Elt F) ((oV).view.loc (tV d L))) : DoneN d L X Wt 0 fO := by
  intro i h0 h1
  omega

/-- Chunk `n` written with its looked-up rows: the first `n + 1` chunks are done. -/
theorem doneN_step (n : ℕ) (hn : n < 200) (fO : Buf (Elt F) ((oV).view.loc (tV d L))) (hd : DoneN d L X Wt n fO)
    (pay : S128x128.Idx → Elt F .f32) (hpay : ∀ y : S128x128.Idx, pay y = res X Wt d ((oChAt L n hn).view.emb y))
    (off : Fin 2 → ℕ) (inb : ∀ a, off a + S128x128.size a ≤ S819200x128.size a)
    (hoff : off = ![51200 * (L 1).val + 25600 * (L 0).val + 128 * n, 0]) :
    DoneN d L X Wt (n + 1) (View.write (Elt F) ((oV).slice (Rect.unit (s := S819200x128) off S128x128.size inb) (fun _ => rfl)).view fO pay Finset.univ) := by
  subst hoff
  intro i h0 h1
  have hw := firstRow_eq L
  by_cases hm : i ∈ ((oV).slice (Rect.unit (s := S819200x128) ![51200 * (L 1).val + 25600 * (L 0).val + 128 * n, 0] S128x128.size inb) (fun _ => rfl)).view.set
  · -- inside the chunk: the payload
    obtain ⟨y, -, rfl⟩ := Finset.mem_map.mp hm
    rw [View.write_emb_of_mem _ _ (Finset.mem_univ y)]
    exact (cast_eq _ _).trans (hpay y)
  · -- outside it: what was there, and the row is one of the first `n` chunks'
    rw [View.write_of_not_mem _ _ _ (by rw [View.setOn_univ]; exact hm)]
    refine hd i h0 ?_
    rw [mem_window] at hm
    omega

/-- All 200 chunks done: every one of the tile's rows of the result holds its looked-up row. -/
theorem doneN_all (fO : Buf (Elt F) ((oV).view.loc (tV d L))) (h : DoneN d L X Wt 200 fO) :
    ∀ i ∈ (oV).view.setOn (orowK L).set, fO i = res X Wt d i := by
  intro i hi
  obtain ⟨x, hx, rfl⟩ := Finset.mem_map.mp hi
  have hw := firstRow_eq L
  obtain ⟨hlo, hhi⟩ := Rect.mem_set_unit.mp hx 0
  have hlo' : 51200 * (L 1).val + 25600 * (L 0).val ≤ (x 0).val := hlo
  have hhi' : (x 0).val < 51200 * (L 1).val + 25600 * (L 0).val + 25600 := hhi
  exact h x (by omega) (by omega)

/-- What a transfer out of slot 0 moves, when the slot holds chunk `n`: entry by entry, the chunk's rows of the result. -/
theorem read_slot0 (n : ℕ) (hn : n < 200) (g : Buf (Elt F) ((rV).view.loc (tV d L))) (hs : SlotHolds0 d L X Wt n hn g) (y : S128x128.Idx) :
    ReadAs.same.apply ((rS0).view.read (Elt F) g) y = res X Wt d ((oChAt L n hn).view.emb y) := by
  show (rS0).view.read (Elt F) g y = _
  rw [View.read_apply]
  exact (cast_eq _ _).trans (hs y)

/-- What a transfer out of slot 1 moves, when the slot holds chunk `n`: entry by entry, the chunk's rows of the result. -/
theorem read_slot1 (n : ℕ) (hn : n < 200) (g : Buf (Elt F) ((rV).view.loc (tV d L))) (hs : SlotHolds1 d L X Wt n hn g) (y : S128x128.Idx) :
    ReadAs.same.apply ((rS1).view.read (Elt F) g) y = res X Wt d ((oChAt L n hn).view.emb y) := by
  show (rS1).view.read (Elt F) g y = _
  rw [View.read_apply]
  exact (cast_eq _ _).trans (hs y)

/-- What a transfer out of slot 2 moves, when the slot holds chunk `n`: entry by entry, the chunk's rows of the result. -/
theorem read_slot2 (n : ℕ) (hn : n < 200) (g : Buf (Elt F) ((rV).view.loc (tV d L))) (hs : SlotHolds2 d L X Wt n hn g) (y : S128x128.Idx) :
    ReadAs.same.apply ((rS2).view.read (Elt F) g) y = res X Wt d ((oChAt L n hn).view.emb y) := by
  show (rS2).view.read (Elt F) g y = _
  rw [View.read_apply]
  exact (cast_eq _ _).trans (hs y)

/-- What a transfer out of slot 3 moves, when the slot holds chunk `n`: entry by entry, the chunk's rows of the result. -/
theorem read_slot3 (n : ℕ) (hn : n < 200) (g : Buf (Elt F) ((rV).view.loc (tV d L))) (hs : SlotHolds3 d L X Wt n hn g) (y : S128x128.Idx) :
    ReadAs.same.apply ((rS3).view.read (Elt F) g) y = res X Wt d ((oChAt L n hn).view.emb y) := by
  show (rS3).view.read (Elt F) g y = _
  rw [View.read_apply]
  exact (cast_eq _ _).trans (hs y)

end Tile

end Cert.Proof.KB

end
-- ==== Proof.KBJoin.lean ====
/-
  The row scratch after the loop: its four slots, each held at its own contents, and the rest of the buffer join into
  the whole buffer at some contents.

  Slot b is the buffer's elements whose first coordinate is b, so the four slots are pairwise disjoint; the rest is held
  as everything but the four slots, and everything but some sets together with those sets is everything.
-/
import proofs.«206608_g4801773437349_cont_8to1_c_1039_14_alg».proof.Proof.KBDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S6400x128 EltTy.i32)
local notation "wV" => (Memref.whole Cert.Kernel.main_arg1_scv : Memref Cert.Kernel.sig Kind.scVector Space.hbm Cert.Kernel.S100001x128 EltTy.f32)
local notation "oV" => (Memref.whole Cert.Kernel.main_v1_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S4x128x128 EltTy.f32)

section Join
variable (d : Dev nD) (L : grid0.Coords)

/-! ## The slots as sets of the buffer's elements -/

abbrev slotRect0 : Rect S4x128x128 := Rect.unit (s := S4x128x128) ![0, 0, 0] S1x128x128.size inb_S4x128x128_S1x128x128_0_0_0
abbrev slotRect1 : Rect S4x128x128 := Rect.unit (s := S4x128x128) ![1, 0, 0] S1x128x128.size inb_S4x128x128_S1x128x128_1_0_0
abbrev slotRect2 : Rect S4x128x128 := Rect.unit (s := S4x128x128) ![2, 0, 0] S1x128x128.size inb_S4x128x128_S1x128x128_2_0_0
abbrev slotRect3 : Rect S4x128x128 := Rect.unit (s := S4x128x128) ![3, 0, 0] S1x128x128.size inb_S4x128x128_S1x128x128_3_0_0

theorem rS0_set : (rS0).view.set = slotRect0.set := (View.set_reshape _ _).trans (View.set_slice_whole _ _)
theorem rS1_set : (rS1).view.set = slotRect1.set := (View.set_reshape _ _).trans (View.set_slice_whole _ _)
theorem rS2_set : (rS2).view.set = slotRect2.set := (View.set_reshape _ _).trans (View.set_slice_whole _ _)
theorem rS3_set : (rS3).view.set = slotRect3.set := (View.set_reshape _ _).trans (View.set_slice_whole _ _)

/-- Two slots differ in the first coordinate of every element. -/
theorem slots_10 : Disjoint (rS1).view.set (rS0).view.set := by
  rw [rS1_set, rS0_set]; exact Rect.unit_disjoint 0 (Or.inr (by decide))
theorem slots_20 : Disjoint (rS2).view.set (rS0).view.set := by
  rw [rS2_set, rS0_set]; exact Rect.unit_disjoint 0 (Or.inr (by decide))
theorem slots_21 : Disjoint (rS2).view.set (rS1).view.set := by
  rw [rS2_set, rS1_set]; exact Rect.unit_disjoint 0 (Or.inr (by decide))
theorem slots_30 : Disjoint (rS3).view.set (rS0).view.set := by
  rw [rS3_set, rS0_set]; exact Rect.unit_disjoint 0 (Or.inr (by decide))
theorem slots_31 : Disjoint (rS3).view.set (rS1).view.set := by
  rw [rS3_set, rS1_set]; exact Rect.unit_disjoint 0 (Or.inr (by decide))
theorem slots_32 : Disjoint (rS3).view.set (rS2).view.set := by
  rw [rS3_set, rS2_set]; exact Rect.unit_disjoint 0 (Or.inr (by decide))

theorem sub1 : (rS1).view.set ⊆ Finset.univ \ (rS0).view.set :=
  Finset.subset_sdiff.mpr ⟨Finset.subset_univ _, slots_10⟩
theorem sub2 : (rS2).view.set ⊆ (Finset.univ \ (rS0).view.set) \ (rS1).view.set :=
  Finset.subset_sdiff.mpr ⟨Finset.subset_sdiff.mpr ⟨Finset.subset_univ _, slots_20⟩, slots_21⟩
theorem sub3 : (rS3).view.set ⊆ ((Finset.univ \ (rS0).view.set) \ (rS1).view.set) \ (rS2).view.set :=
  Finset.subset_sdiff.mpr ⟨Finset.subset_sdiff.mpr ⟨Finset.subset_sdiff.mpr ⟨Finset.subset_univ _, slots_30⟩, slots_31⟩, slots_32⟩

/-! ## The join -/

theorem rowScratch_join (R g0 g1 g2 g3 : Buf (Elt F) ((rV).view.loc (tV d L))) :
    iprop(((rV).view.loc (tV d L) ↦[(((Finset.univ \ (rS0).view.set) \ (rS1).view.set) \ (rS2).view.set) \ (rS3).view.set]{fullShare} R)
        ∗ ((rS0).view.loc (tV d L) ↦[(rS0).view.set]{fullShare} g0) ∗ ((rS1).view.loc (tV d L) ↦[(rS1).view.set]{fullShare} g1)
        ∗ ((rS2).view.loc (tV d L) ↦[(rS2).view.set]{fullShare} g2) ∗ ((rS3).view.loc (tV d L) ↦[(rS3).view.set]{fullShare} g3))
      ⊢ (iprop(∃ f, (V d (cV L) (jV L)).loc cc0_scratch1 ↦{fullShare} f) : sProp 𝕄) := by
  iintro ⟨HR, H0, H1, H2, H3⟩
  ihave H := (pointsTo_join_subset (ℓ := (rV).view.loc (tV d L)) (q := fullShare) (g := g3) (f := R) sub3) $$ [H3 HR]
  · isplitl [H3] <;> iassumption
  ihave H := (pointsTo_join_subset (ℓ := (rV).view.loc (tV d L)) (q := fullShare) (g := g2)
    (f := ((rS3).view.set : Finset (Idx ((rV).view.loc (tV d L)))).piecewise g3 R) sub2) $$ [H2 H]
  · isplitl [H2] <;> iassumption
  ihave H := (pointsTo_join_subset (ℓ := (rV).view.loc (tV d L)) (q := fullShare) (g := g1)
    (f := ((rS2).view.set : Finset (Idx ((rV).view.loc (tV d L)))).piecewise g2 (((rS3).view.set : Finset (Idx ((rV).view.loc (tV d L)))).piecewise g3 R)) sub1) $$ [H1 H]
  · isplitl [H1] <;> iassumption
  ihave H := (pointsTo_join_subset (ℓ := (rV).view.loc (tV d L)) (q := fullShare) (g := g0)
    (f := ((rS1).view.set : Finset (Idx ((rV).view.loc (tV d L)))).piecewise g1 (((rS2).view.set : Finset (Idx ((rV).view.loc (tV d L)))).piecewise g2 (((rS3).view.set : Finset (Idx ((rV).view.loc (tV d L)))).piecewise g3 R)))
    (Finset.subset_univ ((rS0).view.set : Finset (Idx ((rV).view.loc (tV d L)))))) $$ [H0 H]
  · isplitl [H0] <;> iassumption
  iexists _
  iexact H

end Join

end Cert.Proof.KB

end
-- ==== Proof.KBBody.lean ====
import proofs.«206608_g4801773437349_cont_8to1_c_1039_14_alg».proof.Proof.KBDefs
import proofs.«206608_g4801773437349_cont_8to1_c_1039_14_alg».proof.Proof.KBRows
import proofs.«206608_g4801773437349_cont_8to1_c_1039_14_alg».proof.Proof.KBVal
import proofs.«206608_g4801773437349_cont_8to1_c_1039_14_alg».proof.Proof.KBDone
import proofs.«206608_g4801773437349_cont_8to1_c_1039_14_alg».proof.Proof.KBJoin

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S6400x128 EltTy.i32)
local notation "wV" => (Memref.whole Cert.Kernel.main_arg1_scv : Memref Cert.Kernel.sig Kind.scVector Space.hbm Cert.Kernel.S100001x128 EltTy.f32)
local notation "oV" => (Memref.whole Cert.Kernel.main_v1_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S4x128x128 EltTy.f32)

section Tile
variable (d : Dev nD) (L : grid0.Coords)
variable [FloatOps F]
variable (X : (d : Dev nD) → Buf (Elt F) (xLoc d)) (Wt : (d : Dev nD) → Buf (Elt F) (wLoc d)) (O0 : (d : Dev nD) → Buf (Elt F) (oLoc d))

/-- The gather of chunk `j` in flight into slot 0: it delivers the slot (by its own elements) at `g`, the list row it read and the table token it read through. -/
abbrev flightO0 (j : ℕ) (hj : j < 200) (fI : Buf (Elt F) ((iV).view.loc (tV d L))) (g : Buf (Elt F) ((rV).view.loc (tV d L))) : sProp 𝕄 :=
  Transfers.Flight countersEmb (tV d L) (SemLoc.dma 0) default 524288
    iprop((((rS0).view.loc (tV d L) ↦[(rS0).view.set]{fullShare} g) ∗ ((iV).view.loc (tV d L) ↦[(iRowAt j hj).view.set]{fullShare} fI))
      ∗ ((wV).view.loc (tV d L) ↦[(wSl).view.set]{Transfers.shareTokN (wq (wL L)) 0} Wt d))
/-- The gather of chunk `j` in flight into slot 1: it delivers the slot (by its own elements) at `g`, the list row it read and the table token it read through. -/
abbrev flightO1 (j : ℕ) (hj : j < 200) (fI : Buf (Elt F) ((iV).view.loc (tV d L))) (g : Buf (Elt F) ((rV).view.loc (tV d L))) : sProp 𝕄 :=
  Transfers.Flight countersEmb (tV d L) (SemLoc.dma 1) default 524288
    iprop((((rS1).view.loc (tV d L) ↦[(rS1).view.set]{fullShare} g) ∗ ((iV).view.loc (tV d L) ↦[(iRowAt j hj).view.set]{fullShare} fI))
      ∗ ((wV).view.loc (tV d L) ↦[(wSl).view.set]{Transfers.shareTokN (wq (wL L)) 1} Wt d))
/-- The gather of chunk `j` in flight into slot 2: it delivers the slot (by its own elements) at `g`, the list row it read and the table token it read through. -/
abbrev flightO2 (j : ℕ) (hj : j < 200) (fI : Buf (Elt F) ((iV).view.loc (tV d L))) (g : Buf (Elt F) ((rV).view.loc (tV d L))) : sProp 𝕄 :=
  Transfers.Flight countersEmb (tV d L) (SemLoc.dma 2) default 524288
    iprop((((rS2).view.loc (tV d L) ↦[(rS2).view.set]{fullShare} g) ∗ ((iV).view.loc (tV d L) ↦[(iRowAt j hj).view.set]{fullShare} fI))
      ∗ ((wV).view.loc (tV d L) ↦[(wSl).view.set]{Transfers.shareTokN (wq (wL L)) 2} Wt d))
/-- The gather of chunk `j` in flight into slot 3: it delivers the slot (by its own elements) at `g`, the list row it read and the table token it read through. -/
abbrev flightO3 (j : ℕ) (hj : j < 200) (fI : Buf (Elt F) ((iV).view.loc (tV d L))) (g : Buf (Elt F) ((rV).view.loc (tV d L))) : sProp 𝕄 :=
  Transfers.Flight countersEmb (tV d L) (SemLoc.dma 3) default 524288
    iprop((((rS3).view.loc (tV d L) ↦[(rS3).view.set]{fullShare} g) ∗ ((iV).view.loc (tV d L) ↦[(iRowAt j hj).view.set]{fullShare} fI))
      ∗ ((wV).view.loc (tV d L) ↦[(wSl).view.set]{Transfers.shareTokN (wq (wL L)) 3} Wt d))

/-- Before trip `k < 50`: the gathers of chunks `4k … 4k+3` are in flight into the four slots. -/
def InFlightO (fI : Buf (Elt F) ((iV).view.loc (tV d L))) (k : ℕ) (h : k < 50) : sProp 𝕄 :=
  iprop((∃ g, flightO0 d L Wt (4 * k + 0) (lt200_0 k h) fI g ∗ ⌜SlotHolds0 d L X Wt (4 * k + 0) (lt200_0 k h) g⌝) ∗ wRest d L Wt 0
    ∗ (∃ g, flightO1 d L Wt (4 * k + 1) (lt200_1 k h) fI g ∗ ⌜SlotHolds1 d L X Wt (4 * k + 1) (lt200_1 k h) g⌝) ∗ wRest d L Wt 1
    ∗ (∃ g, flightO2 d L Wt (4 * k + 2) (lt200_2 k h) fI g ∗ ⌜SlotHolds2 d L X Wt (4 * k + 2) (lt200_2 k h) g⌝) ∗ wRest d L Wt 2
    ∗ (∃ g, flightO3 d L Wt (4 * k + 3) (lt200_3 k h) fI g ∗ ⌜SlotHolds3 d L X Wt (4 * k + 3) (lt200_3 k h) g⌝) ∗ wRest d L Wt 3
    ∗ (∃ R, (rV).view.loc (tV d L) ↦[(((Finset.univ \ (rS0).view.set) \ (rS1).view.set) \ (rS2).view.set) \ (rS3).view.set]{fullShare} R)
    ∗ ((iV).view.loc (tV d L) ↦[(((Finset.univ \ ((iRowAt (4 * k + 0) (lt200_0 k h)).view.set : Finset (Idx ((iV).view.loc (tV d L))))) \ ((iRowAt (4 * k + 1) (lt200_1 k h)).view.set : Finset (Idx ((iV).view.loc (tV d L)))))
          \ ((iRowAt (4 * k + 2) (lt200_2 k h)).view.set : Finset (Idx ((iV).view.loc (tV d L))))) \ ((iRowAt (4 * k + 3) (lt200_3 k h)).view.set : Finset (Idx ((iV).view.loc (tV d L))))]{fullShare} fI))

/-- After the last trip: nothing in flight; the four slots, the four tokens and the gather cells are back. -/
def IdleO (fI : Buf (Elt F) ((iV).view.loc (tV d L))) : sProp 𝕄 :=
  iprop((∃ g, (rS0).view.loc (tV d L) ↦[(rS0).view.set]{fullShare} g) ∗ ((wV).view.loc (tV d L) ↦{Transfers.shareTokN (wq (wL L)) 0} Wt d) ∗ semVal (cell d (cV L) (jV L) 0) 0
    ∗ (∃ g, (rS1).view.loc (tV d L) ↦[(rS1).view.set]{fullShare} g) ∗ ((wV).view.loc (tV d L) ↦{Transfers.shareTokN (wq (wL L)) 1} Wt d) ∗ semVal (cell d (cV L) (jV L) 1) 0
    ∗ (∃ g, (rS2).view.loc (tV d L) ↦[(rS2).view.set]{fullShare} g) ∗ ((wV).view.loc (tV d L) ↦{Transfers.shareTokN (wq (wL L)) 2} Wt d) ∗ semVal (cell d (cV L) (jV L) 2) 0
    ∗ (∃ g, (rS3).view.loc (tV d L) ↦[(rS3).view.set]{fullShare} g) ∗ ((wV).view.loc (tV d L) ↦{Transfers.shareTokN (wq (wL L)) 3} Wt d) ∗ semVal (cell d (cV L) (jV L) 3) 0
    ∗ (∃ R, (rV).view.loc (tV d L) ↦[(((Finset.univ \ (rS0).view.set) \ (rS1).view.set) \ (rS2).view.set) \ (rS3).view.set]{fullShare} R)
    ∗ ((iV).view.loc (tV d L) ↦{fullShare} fI))

def invO (fI : Buf (Elt F) ((iV).view.loc (tV d L))) (O : CellTallies nD τ sig (HIx 1)) (W : Waits sig (HIx 1)) (k : ℕ) (_ : PUnit) : sProp 𝕄 :=
  iprop(Transfers.MayWaits (tV d L) (default : HIx 1) O
    ∗ (∃ fO, ((oV).view.loc (tV d L) ↦[(oV).view.setOn (orowK L).set]{fullShare} fO) ∗ ⌜DoneN d L X Wt (4 * k) fO⌝)
    ∗ semVal (cell d (cV L) (jV L) 5) 0 ∗ semVal (cell d (cV L) (jV L) 6) 0 ∗ semVal (cell d (cV L) (jV L) 7) 0 ∗ semVal (cell d (cV L) (jV L) 8) 0
    ∗ (∃ W', ⌜∀ p ∈ W', p ∈ W ∨ p.2 = none⌝ ∗ owes (tV d L) O W')
    ∗ (if h : k < 50 then InFlightO d L X Wt fI k h else IdleO d L Wt fI))

omit [FloatOps F] in
theorem waits_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

omit [FloatOps F] in
/-- The flight into slot 0, its list row spelt by its offsets. -/
theorem flightO0_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 0) default 524288
      iprop((((rS0).view.loc (tV d L) ↦[(rS0).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 0} Wt d)) : sProp 𝕄)
      = flightO0 d L Wt j hj fI g := by
  subst hoff; rfl
omit [FloatOps F] in
/-- The flight into slot 1, its list row spelt by its offsets. -/
theorem flightO1_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 1) default 524288
      iprop((((rS1).view.loc (tV d L) ↦[(rS1).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 1} Wt d)) : sProp 𝕄)
      = flightO1 d L Wt j hj fI g := by
  subst hoff; rfl
omit [FloatOps F] in
/-- The flight into slot 2, its list row spelt by its offsets. -/
theorem flightO2_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 2) default 524288
      iprop((((rS2).view.loc (tV d L) ↦[(rS2).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 2} Wt d)) : sProp 𝕄)
      = flightO2 d L Wt j hj fI g := by
  subst hoff; rfl
omit [FloatOps F] in
/-- The flight into slot 3, its list row spelt by its offsets. -/
theorem flightO3_row (j : ℕ) (hj : j < 200) (off : Fin 2 → ℕ) (inb : ∀ a, off a + S1x128.size a ≤ S200x128.size a) (hoff : off = ![j, 0])
    (fI : Buf (Elt F) ((iV).view.loc (tV d L))) (g : Buf (Elt F) ((rV).view.loc (tV d L))) :
    (Transfers.Flight countersEmb (tV d L) (SemLoc.dma 3) default 524288
      iprop((((rS3).view.loc (tV d L) ↦[(rS3).view.set]{fullShare} g)
          ∗ ((iV).view.loc (tV d L) ↦[(((iV).slice (Rect.unit (s := S200x128) off S1x128.size inb) (fun _ => rfl)).squeeze S128 squeezes_S1x128_S128).view.set]{fullShare} fI))
        ∗ ((wV).view.loc (tV d L) ↦[(wSl).view.set]{Transfers.shareTokN (wq (wL L)) 3} Wt d)) : sProp 𝕄)
      = flightO3 d L Wt j hj fI g := by
  subst hoff; rfl
omit [FloatOps F] in
/-- The index scratch less four rows, the rows spelt by their offsets. -/
theorem idxRest_rows (j0 j1 j2 j3 : ℕ) (h0 : j0 < 200) (h1 : j1 < 200) (h2 : j2 < 200) (h3 : j3 < 200) (o0 o1 o2 o3 : Fin 2 → ℕ)
    (i0 : ∀ a, o0 a + S1x128.size a ≤ S200x128.size a) (i1 : ∀ a, o1 a + S1x128.size a ≤ S200x128.size a)
    (i2 : ∀ a, o2 a + S1x128.size a ≤ S200x128.size a) (i3 : ∀ a, o3 a + S1x128.size a ≤ S200x128.size a)
    (e0 : o0 = ![j0, 0]) (e1 : o1 = ![j1, 0]) (e2 : o2 = ![j2, 0]) (e3 : o3 = ![j3, 0]) (fI : Buf (Elt F) ((iV).view.loc (tV d L))) :
    ((iV).view.loc (tV d L) ↦[(((Finset.univ \ ((((iV).slice (Rect.unit (s := S200x128) o0 S1x128.size i0) (fun _ => rfl)).squeeze S128 squeezes_S1x128_S128).view.set : Finset (Idx ((iV).view.loc (tV d L))))) \ ((((iV).slice (Rect.unit (s := S200x128) o1 S1x128.size i1) (fun _ => rfl)).squeeze S128 squeezes_S1x128_S128).view.set : Finset (Idx ((iV).view.loc (tV d L)))))
          \ ((((iV).slice (Rect.unit (s := S200x128) o2 S1x128.size i2) (fun _ => rfl)).squeeze S128 squeezes_S1x128_S128).view.set : Finset (Idx ((iV).view.loc (tV d L))))) \ ((((iV).slice (Rect.unit (s := S200x128) o3 S1x128.size i3) (fun _ => rfl)).squeeze S128 squeezes_S1x128_S128).view.set : Finset (Idx ((iV).view.loc (tV d L))))]{fullShare} fI : sProp 𝕄)
      = ((iV).view.loc (tV d L) ↦[(((Finset.univ \ ((iRowAt j0 h0).view.set : Finset (Idx ((iV).view.loc (tV d L))))) \ ((iRowAt j1 h1).view.set : Finset (Idx ((iV).view.loc (tV d L)))))
          \ ((iRowAt j2 h2).view.set : Finset (Idx ((iV).view.loc (tV d L))))) \ ((iRowAt j3 h3).view.set : Finset (Idx ((iV).view.loc (tV d L))))]{fullShare} fI) := by
  subst e0 e1 e2 e3; rfl

omit [FloatOps F] in
theorem off2_chunk (k : Fin k0_t1_loop.trips) (b : Fin 4) :
    k0_off2 L k (BitVec.ofNat 32 b.val) = ![51200 * (L 1).val + 25600 * (L 0).val + 128 * (4 * k.val + b.val), 0] := by
  rw [k0_off2_eq L k b]; congr 1; omega

set_option maxHeartbeats 4000000 in
theorem tile_body (hF : (K (F := F)).Facts) (hpre : InRange X) (O : CellTallies nD τ sig (HIx 1)) (W : Waits sig (HIx 1)) (hO : ∀ g, O g none = 0) :
    iprop(levAts (K (F := F)).L (K (F := F)).lev ∗ emp
        ∗ goPts X Wt O0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_lookup L xV (Memref.isWhole_whole _) wV (Memref.isWhole_whole _) oV (Memref.isWhole_whole _)
            iV (Memref.isWhole_whole _) rV (Memref.isWhole_whole _) cc0_scratch2 cc0_scoped0 cc0_scoped1 cc0_scoped2 cc0_scoped3 cc0_scoped4)
          fun _ => iprop(tdPts X Wt d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_lookup_eq_skeleton]; unfold cc0__emb_lookup_skel
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%fs, Hs⟩, ⟨%fr, Hr⟩, Hbufs⟩, ⟨Hc0, Hc1, Hc2, Hc3, Hc4, Hc5, Hc6, Hc7, Hc8⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the tile's rows of the index array, held by their own elements as the fetch addresses them
  ihave Hx' := (Entails.of_eq (show (xLoc d ↦[xSet (wL L)]{fullShare} X d : sProp 𝕄)
      = (xRowK L).view.loc (V d (cV L) (jV L)) ↦[(xRowK L).view.set]{fullShare} X d by rw [set_xRowK])) $$ Hx
  -- its rows of the result, as the elements under one rectangle
  ihave Ho' := (Entails.of_eq (show (oLoc d ↦[oSet (wL L)]{fullShare} O0 d : sProp 𝕄)
      = (oV).view.loc (V d (cV L) (jV L)) ↦[(oV).view.setOn (orowK L).set]{fullShare} O0 d by rw [setOn_orowK])) $$ Ho
  -- its read share of the table, one token per gather semaphore
  ihave Hw := (Entails.of_eq (show (wLoc d ↦{wq (wL L)} Wt d : sProp 𝕄) = (wV).view.loc (V d (cV L) (jV L)) ↦{Transfers.shareDrop (wq (wL L)) 0} Wt d from rfl)) $$ Hw
  ihave Hw := (tok_split (Wt d) (wq (wL L)) 0) $$ Hw
  icases Hw with ⟨Hw, Hw0⟩
  ihave Hw := (tok_split (Wt d) (wq (wL L)) 1) $$ Hw
  icases Hw with ⟨Hw, Hw1⟩
  ihave Hw := (tok_split (Wt d) (wq (wL L)) 2) $$ Hw
  icases Hw with ⟨Hw, Hw2⟩
  ihave Hw := (tok_split (Wt d) (wq (wL L)) 3) $$ Hw
  icases Hw with ⟨Hwd, Hw3⟩
  ihave Hw0 := (Entails.of_eq (show (wLoc d ↦{Transfers.shareTokN (wq (wL L)) 0} Wt d : sProp 𝕄)
      = (wV).view.loc (V d (cV L) (jV L)) ↦{Transfers.shareTokN (wq (wL L)) 0} Wt d from rfl)) $$ Hw0
  ihave Hw1 := (Entails.of_eq (show (wLoc d ↦{Transfers.shareTokN (wq (wL L)) 1} Wt d : sProp 𝕄)
      = (wV).view.loc (V d (cV L) (jV L)) ↦{Transfers.shareTokN (wq (wL L)) 1} Wt d from rfl)) $$ Hw1
  ihave Hw2 := (Entails.of_eq (show (wLoc d ↦{Transfers.shareTokN (wq (wL L)) 2} Wt d : sProp 𝕄)
      = (wV).view.loc (V d (cV L) (jV L)) ↦{Transfers.shareTokN (wq (wL L)) 2} Wt d from rfl)) $$ Hw2
  ihave Hw3 := (Entails.of_eq (show (wLoc d ↦{Transfers.shareTokN (wq (wL L)) 3} Wt d : sProp 𝕄)
      = (wV).view.loc (V d (cV L) (jV L)) ↦{Transfers.shareTokN (wq (wL L)) 3} Wt d from rfl)) $$ Hw3
  ihave Hs' := (Entails.of_eq (show ((V d (cV L) (jV L)).loc cc0_scratch0 ↦{fullShare} fs : sProp 𝕄) = (iV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  -- every list window of the fetched scratch names table rows
  have hin : ∀ (fs' : Buf (Elt F) ((iV).view.loc (V d (cV L) (jV L)))) (off : Fin 2 → Nat) (inb : ∀ a, off a + S1x128.size a ≤ S200x128.size a) (x : S128.Idx),
      ((((iV).slice (Rect.unit (s := S200x128) off S1x128.size inb) (fun _ => rfl)).squeeze S128 squeezes_S1x128_S128).view.read (Elt F)
        (fetched d L X fs') x).toNat < 100001 := by
    intro fs' off inb x
    rw [View.read_apply]
    exact fetched_lt d L X hpre fs' _
  sl_exec
  sl_for (invO d L X Wt (fetched d L X fs) O W) $$ [Hmw Ho' Hc5 Hc6 Hc7 Hc8 HO Hc0 Hw0 Hc1 Hw1 Hc2 Hw2 Hc3 Hw3 Hr' Hs']
  case region =>
    intro k _
    have hk : k.val < 50 := trips_eq ▸ k.isLt
    unfold invO
    rw [dif_pos hk]
    unfold InFlightO
    iintro ⟨#Hmw, ⟨%fO, Ho, %hfO⟩, Hc5, Hc6, Hc7, Hc8, ⟨%W', %hW', HO⟩, ⟨%g0, Hf0, %hg0⟩, Hw0, ⟨%g1, Hf1, %hg1⟩, Hw1, ⟨%g2, Hf2, %hg2⟩, Hw2, ⟨%g3, Hf3, %hg3⟩, Hw3, ⟨%R, Hr⟩, Hs⟩
    by_cases hlast : k.val + 1 < 50
    · obtain ⟨k0_h1, k0_h2, k0_h3, k0_h4⟩ := conds_of_lt k hlast
      sl_exec (disch := first
        | (refine rows_disjoint _ _ _ _ ?_; simp [off3_row, off4_row, off5_row, off6_row] <;> omega)
        | (refine rows_disjoint' _ _ _ _ ?_; simp [off3_row, off4_row, off5_row, off6_row] <;> omega))
      sl_step
      rw [dif_pos hlast]
      isplitl []; · iexact Hmw
      isplitl [Ho]
      · iexists _; isplitl [Ho]; · iexact Ho
        ipureintro
        have e : 4 * (k.val + 1) = 4 * k.val + 3 + 1 := by omega
        rw [e]
        exact doneN_step d L X Wt (4 * k.val + 3) (lt200_3 k.val hk) _
          (doneN_step d L X Wt (4 * k.val + 2) (lt200_2 k.val hk) _
            (doneN_step d L X Wt (4 * k.val + 1) (lt200_1 k.val hk) _
              (doneN_step d L X Wt (4 * k.val + 0) (lt200_0 k.val hk) fO hfO _ (read_slot0 d L X Wt _ _ g0 hg0) _ _ (off2_chunk L k ⟨0, by decide⟩))
              _ (read_slot1 d L X Wt _ _ g1 hg1) _ _ (off2_chunk L k ⟨1, by decide⟩))
            _ (read_slot2 d L X Wt _ _ g2 hg2) _ _ (off2_chunk L k ⟨2, by decide⟩))
          _ (read_slot3 d L X Wt _ _ g3 hg3) _ _ (off2_chunk L k ⟨3, by decide⟩)
      isplitl [Hc5]; · iexact Hc5
      isplitl [Hc6]; · iexact Hc6
      isplitl [Hc7]; · iexact Hc7
      isplitl [Hc8]; · iexact Hc8
      isplitl [HO]
      · iexists _; isplitr; swap; · iexact HO
        ipureintro
        exact waits_ok (waits_ok (waits_ok (waits_ok (waits_ok (waits_ok (waits_ok (waits_ok hW' _) _) _) _) _) _) _) _
      isplitl [Hf0]
      · iexists _; isplitl [Hf0]
        · iapply (Entails.of_eq (flightO0_row d L Wt (4 * (k.val + 1) + 0) (lt200_0 (k.val + 1) hlast) (k0_off3 k) (k0_off3_inb k k0_h1) (by rw [k0_off3_eq k, show 4 * k.val + 4 = 4 * (k.val + 1) + 0 from by omega]) _ _))
          iexact Hf0
        · ipureintro
          rw [← View.write_univ_eq_writes_whole]
          exact slot0_of_pay d L X Wt _ _ _ _
            (fun y => gather_pay_eq d L X Wt hpre fs (4 * (k.val + 1) + 0) (lt200_0 (k.val + 1) hlast) (k0_off3 k) (k0_off3_inb k k0_h1) (by rw [k0_off3_eq k, show 4 * k.val + 4 = 4 * (k.val + 1) + 0 from by omega]) _ _ y)
      isplitl [Hw0]; · iexact Hw0
      isplitl [Hf1]
      · iexists _; isplitl [Hf1]
        · iapply (Entails.of_eq (flightO1_row d L Wt (4 * (k.val + 1) + 1) (lt200_1 (k.val + 1) hlast) (k0_off4 k) (k0_off4_inb k k0_h2) (by rw [k0_off4_eq k, show 4 * k.val + 5 = 4 * (k.val + 1) + 1 from by omega]) _ _))
          iexact Hf1
        · ipureintro
          rw [← View.write_univ_eq_writes_whole]
          exact slot1_of_pay d L X Wt _ _ _ _
            (fun y => gather_pay_eq d L X Wt hpre fs (4 * (k.val + 1) + 1) (lt200_1 (k.val + 1) hlast) (k0_off4 k) (k0_off4_inb k k0_h2) (by rw [k0_off4_eq k, show 4 * k.val + 5 = 4 * (k.val + 1) + 1 from by omega]) _ _ y)
      isplitl [Hw1]; · iexact Hw1
      isplitl [Hf2]
      · iexists _; isplitl [Hf2]
        · iapply (Entails.of_eq (flightO2_row d L Wt (4 * (k.val + 1) + 2) (lt200_2 (k.val + 1) hlast) (k0_off5 k) (k0_off5_inb k k0_h3) (by rw [k0_off5_eq k, show 4 * k.val + 6 = 4 * (k.val + 1) + 2 from by omega]) _ _))
          iexact Hf2
        · ipureintro
          rw [← View.write_univ_eq_writes_whole]
          exact slot2_of_pay d L X Wt _ _ _ _
            (fun y => gather_pay_eq d L X Wt hpre fs (4 * (k.val + 1) + 2) (lt200_2 (k.val + 1) hlast) (k0_off5 k) (k0_off5_inb k k0_h3) (by rw [k0_off5_eq k, show 4 * k.val + 6 = 4 * (k.val + 1) + 2 from by omega]) _ _ y)
      isplitl [Hw2]; · iexact Hw2
      isplitl [Hf3]
      · iexists _; isplitl [Hf3]
        · iapply (Entails.of_eq (flightO3_row d L Wt (4 * (k.val + 1) + 3) (lt200_3 (k.val + 1) hlast) (k0_off6 k) (k0_off6_inb k k0_h4) (by rw [k0_off6_eq k, show 4 * k.val + 7 = 4 * (k.val + 1) + 3 from by omega]) _ _))
          iexact Hf3
        · ipureintro
          rw [← View.write_univ_eq_writes_whole]
          exact slot3_of_pay d L X Wt _ _ _ _
            (fun y => gather_pay_eq d L X Wt hpre fs (4 * (k.val + 1) + 3) (lt200_3 (k.val + 1) hlast) (k0_off6 k) (k0_off6_inb k k0_h4) (by rw [k0_off6_eq k, show 4 * k.val + 7 = 4 * (k.val + 1) + 3 from by omega]) _ _ y)
      isplitl [Hw3]; · iexact Hw3
      isplitl [Hr]; · iexists _; iexact Hr
      iapply (Entails.of_eq (idxRest_rows d L (4 * (k.val + 1) + 0) (4 * (k.val + 1) + 1) (4 * (k.val + 1) + 2) (4 * (k.val + 1) + 3)
        (lt200_0 (k.val + 1) hlast) (lt200_1 (k.val + 1) hlast) (lt200_2 (k.val + 1) hlast) (lt200_3 (k.val + 1) hlast)
        (k0_off3 k) (k0_off4 k) (k0_off5 k) (k0_off6 k) (k0_off3_inb k k0_h1) (k0_off4_inb k k0_h2) (k0_off5_inb k k0_h3) (k0_off6_inb k k0_h4)
        (by rw [k0_off3_eq k, show 4 * k.val + 4 = 4 * (k.val + 1) + 0 from by omega]) (by rw [k0_off4_eq k, show 4 * k.val + 5 = 4 * (k.val + 1) + 1 from by omega]) (by rw [k0_off5_eq k, show 4 * k.val + 6 = 4 * (k.val + 1) + 2 from by omega]) (by rw [k0_off6_eq k, show 4 * k.val + 7 = 4 * (k.val + 1) + 3 from by omega]) _))
      iexact Hs
    · obtain ⟨k0_h1, k0_h2, k0_h3, k0_h4⟩ := conds_of_last k hlast
      sl_exec (disch := first
        | (refine rows_disjoint _ _ _ _ ?_; simp [off3_row, off4_row, off5_row, off6_row] <;> omega)
        | (refine rows_disjoint' _ _ _ _ ?_; simp [off3_row, off4_row, off5_row, off6_row] <;> omega))
      sl_step
      rw [dif_neg hlast]
      unfold IdleO
      isplitl []; · iexact Hmw
      isplitl [Ho]
      · iexists _; isplitl [Ho]; · iexact Ho
        ipureintro
        have e : 4 * (k.val + 1) = 4 * k.val + 3 + 1 := by omega
        rw [e]
        exact doneN_step d L X Wt (4 * k.val + 3) (lt200_3 k.val hk) _
          (doneN_step d L X Wt (4 * k.val + 2) (lt200_2 k.val hk) _
            (doneN_step d L X Wt (4 * k.val + 1) (lt200_1 k.val hk) _
              (doneN_step d L X Wt (4 * k.val + 0) (lt200_0 k.val hk) fO hfO _ (read_slot0 d L X Wt _ _ g0 hg0) _ _ (off2_chunk L k ⟨0, by decide⟩))
              _ (read_slot1 d L X Wt _ _ g1 hg1) _ _ (off2_chunk L k ⟨1, by decide⟩))
            _ (read_slot2 d L X Wt _ _ g2 hg2) _ _ (off2_chunk L k ⟨2, by decide⟩))
          _ (read_slot3 d L X Wt _ _ g3 hg3) _ _ (off2_chunk L k ⟨3, by decide⟩)
      isplitl [Hc5]; · iexact Hc5
      isplitl [Hc6]; · iexact Hc6
      isplitl [Hc7]; · iexact Hc7
      isplitl [Hc8]; · iexact Hc8
      isplitl [HO]
      · iexists _; isplitr; swap; · iexact HO
        ipureintro
        exact waits_ok (waits_ok (waits_ok (waits_ok (waits_ok (waits_ok (waits_ok (waits_ok hW' _) _) _) _) _) _) _) _
      isplitl [Hf0_dst]; · iexists _; iexact Hf0_dst
      isplitl [Hw0]; · iexact Hw0
      isplitl [Hf0]; · iexact Hf0
      isplitl [Hf1_dst]; · iexists _; iexact Hf1_dst
      isplitl [Hw1]; · iexact Hw1
      isplitl [Hf1]; · iexact Hf1
      isplitl [Hf2_dst]; · iexists _; iexact Hf2_dst
      isplitl [Hw2]; · iexact Hw2
      isplitl [Hf2]; · iexact Hf2
      isplitl [Hf3_dst]; · iexists _; iexact Hf3_dst
      isplitl [Hw3]; · iexact Hw3
      isplitl [Hf3]; · iexact Hf3
      isplitl [Hr]; · iexists _; iexact Hr
      iexact Hs
  · unfold invO
    rw [dif_pos (show (0 : ℕ) < 50 by decide)]
    unfold InFlightO
    isplitl []; · iexact Hmw
    isplitl [Ho']
    · iexists _; isplitl [Ho']; · iexact Ho'
      ipureintro
      exact doneN_zero d L X Wt _
    isplitl [Hc5]; · iexact Hc5
    isplitl [Hc6]; · iexact Hc6
    isplitl [Hc7]; · iexact Hc7
    isplitl [Hc8]; · iexact Hc8
    isplitl [HO]
    · iexists _; isplitr; swap; · iexact HO
      ipureintro
      exact waits_ok (fun p hp => .inl hp) _
    isplitl [Hc0]
    · iexists _; isplitl [Hc0]
      · iapply (Entails.of_eq (flightO0_row d L Wt (4 * 0 + 0) (lt200_0 0 (by decide)) ![0, 0] inb_S200x128_S1x128_0_0 rfl _ _))
        iexact Hc0
      · ipureintro
        exact slot0_of_pay d L X Wt _ _ _ _
          (fun y => gather_pay_eq d L X Wt hpre fs (4 * 0 + 0) (lt200_0 0 (by decide)) ![0, 0] inb_S200x128_S1x128_0_0 rfl _ _ y)
    isplitl [Hw0]; · iexact Hw0
    isplitl [Hc1]
    · iexists _; isplitl [Hc1]
      · iapply (Entails.of_eq (flightO1_row d L Wt (4 * 0 + 1) (lt200_1 0 (by decide)) ![1, 0] inb_S200x128_S1x128_1_0 rfl _ _))
        iexact Hc1
      · ipureintro
        exact slot1_of_pay d L X Wt _ _ _ _
          (fun y => gather_pay_eq d L X Wt hpre fs (4 * 0 + 1) (lt200_1 0 (by decide)) ![1, 0] inb_S200x128_S1x128_1_0 rfl _ _ y)
    isplitl [Hw1]; · iexact Hw1
    isplitl [Hc2]
    · iexists _; isplitl [Hc2]
      · iapply (Entails.of_eq (flightO2_row d L Wt (4 * 0 + 2) (lt200_2 0 (by decide)) ![2, 0] inb_S200x128_S1x128_2_0 rfl _ _))
        iexact Hc2
      · ipureintro
        exact slot2_of_pay d L X Wt _ _ _ _
          (fun y => gather_pay_eq d L X Wt hpre fs (4 * 0 + 2) (lt200_2 0 (by decide)) ![2, 0] inb_S200x128_S1x128_2_0 rfl _ _ y)
    isplitl [Hw2]; · iexact Hw2
    isplitl [Hc3]
    · iexists _; isplitl [Hc3]
      · iapply (Entails.of_eq (flightO3_row d L Wt (4 * 0 + 3) (lt200_3 0 (by decide)) ![3, 0] inb_S200x128_S1x128_3_0 rfl _ _))
        iexact Hc3
      · ipureintro
        exact slot3_of_pay d L X Wt _ _ _ _
          (fun y => gather_pay_eq d L X Wt hpre fs (4 * 0 + 3) (lt200_3 0 (by decide)) ![3, 0] inb_S200x128_S1x128_3_0 rfl _ _ y)
    isplitl [Hw3]; · iexact Hw3
    isplitl [Hr']; · iexists _; iexact Hr'
    iapply (Entails.of_eq (idxRest_rows d L (4 * 0 + 0) (4 * 0 + 1) (4 * 0 + 2) (4 * 0 + 3)
      (lt200_0 0 (by decide)) (lt200_1 0 (by decide)) (lt200_2 0 (by decide)) (lt200_3 0 (by decide))
      ![0, 0] ![1, 0] ![2, 0] ![3, 0] inb_S200x128_S1x128_0_0 inb_S200x128_S1x128_1_0 inb_S200x128_S1x128_2_0 inb_S200x128_S1x128_3_0
      rfl rfl rfl rfl _))
    iexact Hs'
  iintro %_ HI
  unfold invO
  rw [dif_neg (show ¬ Scf.trips k0_t1_loop.lb k0_t1_loop.ub k0_t1_loop.st < 50 by decide)]
  unfold IdleO
  icases HI with ⟨-, ⟨%fO, Ho, %hfO⟩, Hc5, Hc6, Hc7, Hc8, ⟨%W', %hW', HO⟩, ⟨%g0, Hg0⟩, Hw0, Hc0, ⟨%g1, Hg1⟩, Hw1, Hc1, ⟨%g2, Hg2⟩, Hw2, Hc2, ⟨%g3, Hg3⟩, Hw3, Hc3, ⟨%R, Hr⟩, Hs⟩
  have e4 : 4 * Scf.trips k0_t1_loop.lb k0_t1_loop.ub k0_t1_loop.st = 200 := by decide
  rw [e4] at hfO
  sl_exec
  sl_step
  isplitl [Hx' Hwd Hw0 Hw1 Hw2 Hw3 Ho]
  · isplitl [Hx']
    · iapply (Entails.of_eq (show ((xRowK L).view.loc (V d (cV L) (jV L)) ↦[(xRowK L).view.set]{fullShare} X d : sProp 𝕄)
          = (xLoc d ↦[xSet (wL L)]{fullShare} X d) by rw [set_xRowK]))
      iexact Hx'
    isplitl [Hwd Hw0 Hw1 Hw2 Hw3]
    · ihave H3 := (tok_join (Wt d) (wq (wL L)) 3) $$ [Hwd Hw3]
      · isplitl [Hwd]; · iexact Hwd
        iexact Hw3
      ihave H2 := (tok_join (Wt d) (wq (wL L)) 2) $$ [H3 Hw2]
      · isplitl [H3]; · iexact H3
        iexact Hw2
      ihave H1 := (tok_join (Wt d) (wq (wL L)) 1) $$ [H2 Hw1]
      · isplitl [H2]; · iexact H2
        iexact Hw1
      ihave H0 := (tok_join (Wt d) (wq (wL L)) 0) $$ [H1 Hw0]
      · isplitl [H1]; · iexact H1
        iexact Hw0
      iexact H0
    · iapply (Entails.of_eq (((pointsTo_congr (doneN_all d L X Wt fO hfO)).trans (by rw [setOn_orowK])) :
          ((oV).view.loc (V d (cV L) (jV L)) ↦[(oV).view.setOn (orowK L).set]{fullShare} fO : sProp 𝕄)
            = (oLoc d ↦[oSet (wL L)]{fullShare} res X Wt d)))
      iexact Ho
  isplitl [Hs Hr Hg0 Hg1 Hg2 Hg3 Hbufs]
  · isplitl [Hs]; · iexists _; iexact Hs
    isplitl [Hr Hg0 Hg1 Hg2 Hg3]
    · iapply (rowScratch_join d L R g0 g1 g2 g3)
      isplitl [Hr]; · iexact Hr
      isplitl [Hg0]; · iexact Hg0
      isplitl [Hg1]; · iexact Hg1
      isplitl [Hg2]; · iexact Hg2
      iexact Hg3
    iexact Hbufs
  isplitl [Hc0 Hc1 Hc2 Hc3 Hc4 Hc5 Hc6 Hc7 Hc8]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hc8
  iexists _; isplitr; swap; · iexact HO
  ipureintro; exact hW'

end Tile

end Cert.Proof.KB

end
-- ==== Proof.KBTile.lean ====
/-
  One tile's task: from its rows of the index array, its read share of the table and its rows of the result, to the
  same with its rows of the result holding the looked-up table rows.

  The body table's entry for vector subcore (c, s) is the kernel's function at the coordinates (c, s), on the whole
  arrays and the subcore's scratch; the tile at (c, s) is worker 2 s + c, so what the task is handed and hands back
  are that worker's parts.
-/
import proofs.«206608_g4801773437349_cont_8to1_c_1039_14_alg».proof.Proof.KBBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S6400x128 EltTy.i32)
local notation "wV" => (Memref.whole Cert.Kernel.main_arg1_scv : Memref Cert.Kernel.sig Kind.scVector Space.hbm Cert.Kernel.S100001x128 EltTy.f32)
local notation "oV" => (Memref.whole Cert.Kernel.main_v1_scv : Memref Cert.Kernel.sig Kind.scVector Space.hbm Cert.Kernel.S819200x128 EltTy.f32)
local notation "iV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S4x128x128 EltTy.f32)

variable [FloatOps F]

variable (X : (d : Dev nD) → Buf (Elt F) (xLoc d)) (Wt : (d : Dev nD) → Buf (Elt F) (wLoc d)) (O0 : (d : Dev nD) → Buf (Elt F) (oLoc d))

/-! ## The obligation -/

/-- The coordinates of the tile at SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_lookup (coordsV c s)
          xV (Memref.isWhole_whole _) wV (Memref.isWhole_whole _) oV (Memref.isWhole_whole _)
          iV (Memref.isWhole_whole _) rV (Memref.isWhole_whole _) cc0_scratch2 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRange X) : (K (F := F)).TileObl (D (F := F)) 𝒱 (P X Wt O0) v₀ 0 := by
  intro d c i O W hO _ _
  simp only [show (P X Wt O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) X Wt O0 hF hpre O W hO).trans (wp_mono frame _ _ fun _ => obl_post)

end Cert.Proof.KB

end
-- ==== Proof.KBLaunchA.lean ====
/-
  The launch of the embedding lookup's SparseCore program, first part: how the arrays the call works on split among the
  32 workers and join again, the split of one SparseCore's operands among its sixteen tasks, and the launch element of
  the ghost state.

  The index array's 6400 rows are cut into 32 blocks of 200 rows, the result's 819200 rows into 32 blocks of 25600; the
  blocks are pairwise disjoint and cover the array, so a points-to of the whole array is the separating conjunction of
  the blocks'. The workers are numbered w = 2 s + c over SparseCore c and subcore s: (c, s) ↦ 2 s + c is a bijection of
  Fin 2 × Fin 16 with Fin 32, so a conjunction over the workers is the conjunction over the SparseCores of the
  conjunctions over their subcores.
-/
import proofs.«206608_g4801773437349_cont_8to1_c_1039_14_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The rows split and join -/

theorem xSet_eq (w : Fin 32) : xSet w = (xrow w).set := by
  show ((View.whole (main_v0_scv : Ref sig .scVector)).slice (xrow w)).set = _
  rw [View.set_slice]; exact Finset.map_refl
theorem oSet_eq (w : Fin 32) : oSet w = (orow w).set := by
  show ((View.whole (main_v1_scv : Ref sig .scVector)).slice (orow w)).set = _
  rw [View.set_slice]; exact Finset.map_refl
theorem xrows_disjoint : ∀ i ∈ (Finset.univ : Finset (Fin 32)), ∀ j ∈ (Finset.univ : Finset (Fin 32)), i ≠ j → Disjoint (xSet i) (xSet j) :=
  fun i _ j _ h => by rw [xSet_eq, xSet_eq]; exact Rect.part_disjoint xdiv h
theorem orows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem xrows_cover : (Finset.univ : Finset (Fin 32)).biUnion xSet = Finset.univ :=
  (Finset.biUnion_congr rfl fun i _ => xSet_eq i).trans (Rect.biUnion_part xdiv)
theorem orows_cover : (Finset.univ : Finset (Fin 32)).biUnion oSet = Finset.univ :=
  (Finset.biUnion_congr rfl fun i _ => oSet_eq i).trans (Rect.biUnion_part odiv)

/-- The index array whole is its 32 blocks of rows; -/
theorem xPts_rows (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xrows_disjoint, xrows_cover]; try rfl
/-- the result array whole is its 32 blocks of rows, all at the same contents. -/
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet orows_disjoint, orows_cover]; try rfl

/-! ## The workers, by SparseCore and subcore -/

/-- `(c, s) ↦ 2 s + c` is a bijection of the 2 × 16 tiles with the 32 workers: `w ↦ (w % 2, w / 2)` inverts it. -/
def widEquiv : Fin 2 × Fin 16 ≃ Fin 32 where
  toFun p := wid p.1 p.2
  invFun w := (⟨w.val % 2, Nat.mod_lt _ (by norm_num)⟩, ⟨w.val / 2, by have := w.isLt; omega⟩)
  left_inv := by
    rintro ⟨c, s⟩
    have hc := c.isLt
    refine Prod.ext (Fin.ext ?_) (Fin.ext ?_)
    · show (2 * s.val + c.val) % 2 = c.val
      omega
    · show (2 * s.val + c.val) / 2 = s.val
      omega
  right_inv := by
    intro w
    refine Fin.ext ?_
    show 2 * (w.val / 2) + w.val % 2 = w.val
    omega

/-- A conjunction over the workers, SparseCore by SparseCore. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

variable (X : (d : Dev nD) → Buf (Elt F) (xLoc d)) (Wt : (d : Dev nD) → Buf (Elt F) (wLoc d)) (O0 : (d : Dev nD) → Buf (Elt F) (oLoc d))

/-! ## What the handshakes carry, as equations -/

theorem P_st (d : Dev nD) (c : Fin ((K (F := F)).nCore 0)) :
    (P X Wt O0).st 0 d c = bigSep Finset.univ fun i : Fin 16 => goPts X Wt O0 d (wid (Fin.cast nCore_zero c) i) := by unfold P; rfl
theorem P_dn (d : Dev nD) (c : Fin ((K (F := F)).nCore 0)) :
    (P X Wt O0).dn 0 d c = bigSep Finset.univ fun i : Fin 16 => tdPts X Wt d (wid (Fin.cast nCore_zero c) i) := by unfold P; rfl
theorem P_go (d : Dev nD) (c : Fin ((K (F := F)).nCore 0)) (i : Fin ((K (F := F)).nSub 0)) :
    (P X Wt O0).go 0 d c i = goPts X Wt O0 d (wid (Fin.cast nCore_zero c) (Fin.cast nSub_zero i)) := by unfold P; rfl
theorem P_td (d : Dev nD) (c : Fin ((K (F := F)).nCore 0)) (i : Fin ((K (F := F)).nSub 0)) :
    (P X Wt O0).td 0 d c i = tdPts X Wt d (wid (Fin.cast nCore_zero c) (Fin.cast nSub_zero i)) := by unfold P; rfl
theorem P_x (q : Fin 1) (thr : Thread nD τ) : (P X Wt O0).x q thr = iprop(emp) := by unfold P; rfl

/-- What the call takes for the two SparseCores is what the 32 workers are handed; -/
theorem st0_eq (d : Dev nD) :
    (bigSep Finset.univ fun c : Fin ((K (F := F)).nCore 0) => (P X Wt O0).st 0 d c) = bigSep Finset.univ fun w : Fin 32 => goPts X Wt O0 d w := by
  rw [bigSep_workers (fun w => goPts X Wt O0 d w),
    ← bigSep_cores (F := F) (fun c => bigSep Finset.univ fun s : Fin 16 => goPts X Wt O0 d (wid c s))]
  exact bigSep_congr fun c _ => P_st X Wt O0 d c
/-- what it brings back is what they hand back. -/
theorem dn0_eq (d : Dev nD) :
    (bigSep Finset.univ fun c : Fin ((K (F := F)).nCore 0) => (P X Wt O0).dn 0 d c) = bigSep Finset.univ fun w : Fin 32 => tdPts X Wt d w := by
  rw [bigSep_workers (fun w => tdPts X Wt d w),
    ← bigSep_cores (F := F) (fun c => bigSep Finset.univ fun s : Fin 16 => tdPts X Wt d (wid c s))]
  exact bigSep_congr fun c _ => P_dn X Wt O0 d c

/-! ## One SparseCore's operands among its sixteen tasks -/

theorem vecSplit : (K (F := F)).VecSplit' (P X Wt O0) 0 := by
  intro d c
  rw [P_st, P_dn, bigSep_congr (fun i _ => P_go X Wt O0 d c i), bigSep_congr (fun i _ => P_td X Wt O0 d c i),
    bigSep_tasks (F := F) (fun i => goPts X Wt O0 d (wid (Fin.cast nCore_zero c) i)),
    bigSep_tasks (F := F) (fun i => tdPts X Wt d (wid (Fin.cast nCore_zero c) i))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Wt O0).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X Wt O0).x q thr) = bigSep Finset.univ fun _ => iprop(emp) from
    bigSep_congr fun _ _ => (bigSep_univ_of_subsingleton (0 : Fin 1)).trans (P_x X Wt O0 0 _), bigSep_emp']
  iempintro

end Cert.Proof.KB

end
-- ==== Proof.KBLaunchB.lean ====
/-
  The launch of the embedding lookup's SparseCore program, second part: @main on the TensorCore, how the final memory
  reads the claim, and the program's run.

  @main flattens the index array x : i32[4096, 200] into x2 : i32[6400, 128] (the same words in row-major order), hands
  x2, the table and the result array o : f32[819200, 128] to the two SparseCores — x2's and o's rows in 32 blocks, the
  table as 32 read shares, the rest of the share kept aside —, gets them back with row r of o holding the table's row
  x2[r / 128, r % 128], and regroups o's rows into the result f32[4096, 200, 128]. Regrouped, row (b, h) of the result
  is the table's row x[b, h]: the lookup.
-/
import proofs.«206608_g4801773437349_cont_8to1_c_1039_14_alg».proof.Proof.KBLaunchA
import proofs.«206608_g4801773437349_cont_8to1_c_1039_14_alg».proof.Proof.Regroup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F]

/-! ## The arrays the call works on, split and joined -/

section Split

variable (X : (d : Dev nD) → Buf (Elt F) (xLoc d)) (Wt : (d : Dev nD) → Buf (Elt F) (wLoc d)) (O0 : (d : Dev nD) → Buf (Elt F) (oLoc d))

/-- What the 32 workers are handed is the index array whole, the table's 32 read shares and the result array whole; -/
theorem go_split (d : Dev nD) :
    (bigSep Finset.univ fun w : Fin 32 => goPts X Wt O0 d w)
      = iprop((xLoc d ↦{fullShare} X d) ∗ (bigSep Finset.univ fun w : Fin 32 => wLoc d ↦{wq w} Wt d) ∗ oLoc d ↦{fullShare} O0 d) := by
  rw [bigSep_sep', bigSep_sep', ← xPts_rows, ← oPts_rows]
/-- what they hand back is the same, the result array whole at the looked-up rows. -/
theorem td_split (d : Dev nD) :
    (bigSep Finset.univ fun w : Fin 32 => tdPts X Wt d w)
      = iprop((xLoc d ↦{fullShare} X d) ∗ (bigSep Finset.univ fun w : Fin 32 => wLoc d ↦{wq w} Wt d) ∗ oLoc d ↦{fullShare} res X Wt d) := by
  rw [bigSep_sep', bigSep_sep', ← xPts_rows, ← oPts_rows]

theorem st_eq (d : Dev nD) :
    (bigSep Finset.univ fun c : Fin ((K (F := F)).nCore 0) => (P X Wt O0).st 0 d c)
      = iprop((xLoc d ↦{fullShare} X d) ∗ (bigSep Finset.univ fun w : Fin 32 => wLoc d ↦{wq w} Wt d) ∗ oLoc d ↦{fullShare} O0 d) :=
  (st0_eq X Wt O0 d).trans (go_split X Wt O0 d)
theorem dn_eq (d : Dev nD) :
    (bigSep Finset.univ fun c : Fin ((K (F := F)).nCore 0) => (P X Wt O0).dn 0 d c)
      = iprop((xLoc d ↦{fullShare} X d) ∗ (bigSep Finset.univ fun w : Fin 32 => wLoc d ↦{wq w} Wt d) ∗ oLoc d ↦{fullShare} res X Wt d) :=
  (dn0_eq X Wt O0 d).trans (td_split X Wt d)

end Split

/-! ## The launch memory and the TensorCore's five arrays -/

variable (m : (ℓ : Loc nD τ sig) → Buf (Elt F) ℓ) (ρ : Dev nD → PrngReg)

/-- The index array flattened: the same words in row-major order, as the first reshape leaves them. -/
def Xm (d : Dev nD) : Buf (Elt F) (xLoc d) := shapeCast S6400x128 (m (aLoc d)) shapeCasts_S4096x200_S6400x128
abbrev Wm (d : Dev nD) : Buf (Elt F) (wLoc d) := m (wLoc d)
abbrev Om (d : Dev nD) : Buf (Elt F) (oLoc d) := m (oLoc d)
/-- The result: the looked-up rows regrouped, as the second reshape leaves them. -/
def Rm (d : Dev nD) : Buf (Elt F) (rLoc d) := shapeCast S4096x200x128 (res (Xm m) (Wm m) d) shapeCasts_S819200x128_S4096x200x128

abbrev a' : DevRef τ sig := Proc.devRef .tc (main_arg0 : Ref sig .tc)
abbrev w' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.reshape main_arg0 main_v0 rfl shapeCasts_S4096x200_S6400x128
abbrev op2 : HloOp τ sig (Elt F) := StableHlo.reshape main_v1 main_v2 rfl shapeCasts_S819200x128_S4096x200x128

/-- The TensorCore's arrays, all unscoped. -/
abbrev S5 : Finset (DevRef τ sig) := {a', w', x', o', r'}

omit [FloatOps F] in
theorem held_S5 (d : Dev nD) (W : Valuation τ sig (Elt F)) :
    (held (T d) S5 W : sProp 𝕄)
      = iprop((aLoc d ↦{fullShare} W a') ∗ (wLoc d ↦{fullShare} W w') ∗ (xLoc d ↦{fullShare} W x') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (wLoc d ↦{fullShare} W main_arg1) ∗ (xLoc d ↦{fullShare} W main_v0) ∗ (oLoc d ↦{fullShare} W main_v1)
          ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; -/
def V0 (d : Dev nD) : Valuation τ sig (Elt F) := fun b => m (d, b)
/-- after the call: the index array flattened, the result array at the looked-up rows. -/
def V2 (d : Dev nD) : Valuation τ sig (Elt F) := Function.update (Function.update (V0 m d) x' (Xm m d)) o' (res (Xm m) (Wm m) d)

theorem unscoped_held (d : Dev nD) : (unscopedBufs d (fun b => m ((SparseCore.T d).loc b)) : sProp 𝕄) = held (T d) S5 (V0 m d) := by
  rw [unscopedBufs_eq, held_S5]; rfl

theorem V1_a (d : Dev nD) : (op1 (F := F)).result (V0 m d) a' = m (aLoc d) :=
  ((op1 (F := F)).result_of_not_mem _ (show a' ∉ ({x'} : Finset (DevRef τ sig)) by decide)).trans rfl
theorem V1_w (d : Dev nD) : (op1 (F := F)).result (V0 m d) w' = m (wLoc d) :=
  ((op1 (F := F)).result_of_not_mem _ (show w' ∉ ({x'} : Finset (DevRef τ sig)) by decide)).trans rfl
theorem V1_x (d : Dev nD) : (op1 (F := F)).result (V0 m d) x' = Xm m d :=
  (StableHlo.reshape_result main_arg0 main_v0 rfl shapeCasts_S4096x200_S6400x128 ⟨by decide, rfl⟩ ⟨by decide, rfl⟩ (V0 m d)).trans rfl
theorem V1_o (d : Dev nD) : (op1 (F := F)).result (V0 m d) o' = m (oLoc d) :=
  ((op1 (F := F)).result_of_not_mem _ (show o' ∉ ({x'} : Finset (DevRef τ sig)) by decide)).trans rfl
theorem V1_r (d : Dev nD) : (op1 (F := F)).result (V0 m d) r' = m (rLoc d) :=
  ((op1 (F := F)).result_of_not_mem _ (show r' ∉ ({x'} : Finset (DevRef τ sig)) by decide)).trans rfl

theorem V2_a (d : Dev nD) : V2 m d a' = m (aLoc d) :=
  (Function.update_of_ne (show a' ≠ o' by decide) _ _).trans (Function.update_of_ne (show a' ≠ x' by decide) _ _)
theorem V2_w (d : Dev nD) : V2 m d w' = m (wLoc d) :=
  (Function.update_of_ne (show w' ≠ o' by decide) _ _).trans (Function.update_of_ne (show w' ≠ x' by decide) _ _)
theorem V2_x (d : Dev nD) : V2 m d x' = Xm m d :=
  (Function.update_of_ne (show x' ≠ o' by decide) _ _).trans (Function.update_self _ _ _)
theorem V2_o (d : Dev nD) : V2 m d o' = res (Xm m) (Wm m) d := Function.update_self _ _ _
theorem V2_r (d : Dev nD) : V2 m d r' = m (rLoc d) :=
  (Function.update_of_ne (show r' ≠ o' by decide) _ _).trans (Function.update_of_ne (show r' ≠ x' by decide) _ _)

theorem V3_a (d : Dev nD) : (op2 (F := F)).result (V2 m d) a' = m (aLoc d) :=
  ((op2 (F := F)).result_of_not_mem _ (show a' ∉ ({r'} : Finset (DevRef τ sig)) by decide)).trans (V2_a m d)
theorem V3_w (d : Dev nD) : (op2 (F := F)).result (V2 m d) w' = m (wLoc d) :=
  ((op2 (F := F)).result_of_not_mem _ (show w' ∉ ({r'} : Finset (DevRef τ sig)) by decide)).trans (V2_w m d)
theorem V3_r (d : Dev nD) : (op2 (F := F)).result (V2 m d) r' = Rm m d := by
  refine (StableHlo.reshape_result main_v1 main_v2 rfl shapeCasts_S819200x128_S4096x200x128 ⟨by decide, rfl⟩ ⟨by decide, rfl⟩ (V2 m d)).trans ?_
  rw [V2_o]; rfl

/-- The five arrays after the first reshape, -/
theorem held_V1 (d : Dev nD) :
    (held (T d) S5 ((op1 (F := F)).result (V0 m d)) : sProp 𝕄)
      = iprop((aLoc d ↦{fullShare} m (aLoc d)) ∗ (wLoc d ↦{fullShare} m (wLoc d)) ∗ (xLoc d ↦{fullShare} Xm m d) ∗ (oLoc d ↦{fullShare} m (oLoc d))
          ∗ rLoc d ↦{fullShare} m (rLoc d)) := by
  rw [held_S5, V1_a, V1_w, V1_x, V1_o, V1_r]
/-- and what the second leaves of the two arguments and the result. -/
theorem held_V3 (d : Dev nD) :
    (held (T d) S5 ((op2 (F := F)).result (V2 m d)) : sProp 𝕄)
      = iprop((aLoc d ↦{fullShare} m (aLoc d)) ∗ (wLoc d ↦{fullShare} m (wLoc d)) ∗ (xLoc d ↦{fullShare} (op2 (F := F)).result (V2 m d) x')
          ∗ (oLoc d ↦{fullShare} (op2 (F := F)).result (V2 m d) o') ∗ rLoc d ↦{fullShare} Rm m d) := by
  rw [held_S5, V3_a, V3_w, V3_r]

theorem hOp1 : (op1 (F := F)).bufs ⊆ S5 := show ({a', x'} : Finset (DevRef τ sig)) ⊆ S5 by decide
theorem hOp2 : (op2 (F := F)).bufs ⊆ S5 := show ({o', r'} : Finset (DevRef τ sig)) ⊆ S5 by decide

/-! ## @main on the TensorCore -/

/-- What @main leaves the claim: the two arguments at their launch contents, the result at the lookup regrouped. -/
abbrev FIN (d : Dev nD) : sProp 𝕄 := iprop((aLoc d ↦{fullShare} m (aLoc d)) ∗ (wLoc d ↦{fullShare} m (wLoc d)) ∗ rLoc d ↦{fullShare} Rm m d)

theorem hmain (κ : GSem nD τ sig → ℕ) (d : Dev nD) :
    iprop((K (F := F)).ctx EH (P (Xm m) (Wm m) (Om m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the index array flattened
  iapply (wp_hlo_within 𝒱 (SparseCore.T d) none Set.univ (op := op1) (S := S5) hOp1 (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hw, Hx, Ho, Hr⟩
  -- the table as 32 read shares and the rest of the share
  ihave Hw' := (Transfers.pointsTo_toks_split (ℓ := wLoc d) (S := Finset.univ) (f := m (wLoc d)) fullShare 32) $$ Hw
  icases Hw' with ⟨Hwrem, Hwtoks⟩
  -- the call: the flattened index array, the table's shares and the result array to the two SparseCores and back
  iapply ((K (F := F)).wp_run (D (F := F)) 𝒱 (EH := EH) (P := P (Xm m) (Wm m) (Om m)) κ d 0) $$ [Hst Hx Ho Hwtoks Hb Ha Hr Hwrem]
  isplitr; · iexact Hctx
  isplitl [Hst]; · iexact Hst
  isplitl [Hx Ho Hwtoks]
  · rw [st_eq]
    isplitl [Hx]; · iexact Hx
    isplitl [Hwtoks]; · iexact Hwtoks
    iexact Ho
  iintro ⟨Hst, Hdn⟩
  ihave Hdn' := (Entails.of_eq (dn_eq (Xm m) (Wm m) (Om m) d)) $$ Hdn
  icases Hdn' with ⟨Hx, Hwtoks, Ho⟩
  ihave Hw := (Transfers.pointsTo_toks_join (ℓ := wLoc d) (S := Finset.univ) (f := m (wLoc d)) fullShare 32) $$ [Hwrem Hwtoks]
  · isplitl [Hwrem] <;> iassumption
  -- the second reshape: the looked-up rows regrouped
  iapply (wp_hlo_within 𝒱 (SparseCore.T d) none Set.univ (op := op2) (S := S5) hOp2 (V := V2 m d)) $$ [Hb Ha Hw Hx Ho Hr]
  · isplitl [Hb]; · iexact Hb
    rw [held_S5, V2_a, V2_w, V2_x, V2_o, V2_r]
    isplitl [Ha]; · iexact Ha
    isplitl [Hw]; · iexact Hw
    isplitl [Hx]; · iexact Hx
    isplitl [Ho]; · iexact Ho
    iexact Hr
  iintro ⟨Hb, Hheld⟩
  ihave Hh := (Entails.of_eq (held_V3 (F := F) m d)) $$ Hheld
  icases Hh with ⟨Ha, Hw, -, -, Hr⟩
  rw [wp_ret]; imodintro; imodintro
  isplitl [Hst]; · iexact Hst
  isplitl [Ha]; · iexact Ha
  isplitl [Hw]; · iexact Hw
  iexact Hr

def fq (d : Dev nD) (s' : Phys nD τ sig (Elt F)) : Prop :=
  s'.mem.mem (aLoc d) = m (aLoc d) ∧ s'.mem.mem (wLoc d) = m (wLoc d) ∧ s'.mem.mem (rLoc d) = Rm m d

theorem hfin (d : Dev nD) (s' : Phys nD τ sig (Elt F)) : iprop(FIN m d ∗ SI s') ⊢ (⌜fq m d s'⌝ : sProp 𝕄) := by
  iintro ⟨⟨Ha, Hw, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

theorem inRange_of (hpre : ∀ (d : Dev nD) (j : S4096x200.Idx), (m (aLoc d) j).toNat < 100001) : InRange (Xm m) := by
  intro d j
  exact hpre d _

theorem Rm_eq (d : Dev nD) : Rm m d = Cert.Proof.Spec.lookup (m (aLoc d)) (m (wLoc d)) :=
  Cert.Proof.Regroup.lookup_eq_regroup (m (aLoc d)) (m (wLoc d)) shapeCasts_S4096x200_S6400x128 shapeCasts_S819200x128_S4096x200x128

theorem run_main [∀ e, Nonempty (Elt F e)] (m : (ℓ : Loc nD τ sig) → Buf (Elt F) ℓ) (ρ : Dev nD → PrngReg)
    (hpre : ∀ (d : Dev nD) (j : S4096x200.Idx), (m (aLoc d) j).toNat < 100001) :
    θ_run (Cert.Kernel.defs (F := F)) (Cert.Kernel.threads (F := F)) ⟨m, fun _ => 0, ρ⟩ (fun r => ∀ c : Dev nD,
      r.2.mem (rLoc c) = Cert.Proof.Spec.lookup (m (aLoc c)) (m (wLoc c)) ∧ r.2.mem (aLoc c) = m (aLoc c) ∧ r.2.mem (wLoc c) = m (wLoc c)) :=
  SparseCore.Cfg.θ_run_sc (K := K (F := F)) (D := D (F := F)) (𝒱 := 𝒱) (EH := EH) (P := P (Xm m) (Wm m) (Om m)) facts v₀
    (fun q hq => match q with | 0 => nomatch hq)
    (fun q _ => match q with | 0 => tileObl (Xm m) (Wm m) (Om m) facts (inRange_of m hpre))
    (fun q _ => match q with | 0 => SparseCore.Cfg.VecSplit.of_plain (vecSplit (Xm m) (Wm m) (Om m)))
    m ρ main (fun _ => iprop(emp)) (FIN m) (u₀ (F := F)) (sep_elim_left.trans (hu₀ (Xm m) (Wm m) (Om m))) (hmain m ρ) (fq m) (hfin m)
    _ (fun s' h c => ⟨((h c).2.2).trans (Rm_eq m c), (h c).1, (h c).2.1⟩)

end Cert.Proof.KB

end
-- ==== Proof.RefRun.lean ====
/-
  The reference program's run. @main is a straight line of twenty-eight host operations once the two outlined
  functions are unfolded at their calls: five of its own (two constants, their broadcasts, and the scatter that
  overwrites the table's row 0 with zeros) and the twenty-three of the row lookup (the wrap-around of negative
  indices, the gather of rows, the validity mask and the final select against a fill). Every weakly fair
  execution terminates with the result buffer at the operations' composed term of the two arguments,
  `refOut x w`, and the arguments unchanged.
-/
import proofs.«206608_g4801773437349_cont_8to1_c_1039_14_alg».proof.Proof.Gen.ReferenceIdeal
import Idealize.ShloMosaic.Lib.StableHlo.Run

noncomputable section

namespace Cert.Proof.Ref

open Cert.ReferenceIdeal Idealize.ShloMosaic Idealize.ShloMosaic.TcCoe Idealize.SL.Sem
  Idealize.ShloMosaic.StableHlo
open Cert.ReferenceIdeal.Facts₀

variable {F : FTy → Type} [FloatOps F]

/-- @main's twenty-eight operations in order, the two calls unfolded: the lookup's twenty-three run into the
    call's own buffers, the select of the wrap-around (the innermost call) into its own. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    nullary main_cst (constant S_ .f32 0x00000000#32),
    unary main_cst main_v1 (broadcastInDim S128 ![] bcast_S_S128 : (⟨S_, .f32⟩ : BufTy).Contents (Elt F) → (⟨S128, .f32⟩ : BufTy).Contents (Elt F)),
    ternary main_arg1 main_v0 main_v1 main_v2 ((fun x i u => Host.scatter scatter_S100001x128_S1_S128_0_0_0_0 (fun _ b => b) x i u) : (⟨S100001x128, .f32⟩ : BufTy).Contents (Elt F) → (⟨S1, .i32⟩ : BufTy).Contents (Elt F) → (⟨S128, .f32⟩ : BufTy).Contents (Elt F) → (⟨S100001x128, .f32⟩ : BufTy).Contents (Elt F)),
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100001#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 100000#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_v2) main_call0.v5 main_call0.v13 (fun x i => Host.gather gather_S100001x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

/-- @main is that straight line, by computation: the two functions' definitions unfold at their calls, and a
    sequence continued by a sequence is, step by step, the one sequence of both. -/
theorem main_eq (c : Dev nD) : main (F := F) c = seq ops := rfl

/-! ## The composed term -/

/-- The table with its row 0 overwritten by zeros (the scatter of a row of 128 zeros at the one start index 0). -/
def tbl (w : (⟨S100001x128, .f32⟩ : BufTy).Contents (Elt F)) : (⟨S100001x128, .f32⟩ : BufTy).Contents (Elt F) :=
  Host.scatter scatter_S100001x128_S1_S128_0_0_0_0 (fun _ b => b) w
    (broadcastInDim S1 ![] bcast_S_S1 (constantI S_ 32 0#32))
    (broadcastInDim S128 ![] bcast_S_S128 (constant S_ .f32 0x00000000#32))

/-- The row numbers after the wrap-around of negative ones: `x + 100001` where `x < 0`, else `x`. -/
def wrapped (x : (⟨S4096x200, .i32⟩ : BufTy).Contents (Elt F)) : (⟨S4096x200, .i32⟩ : BufTy).Contents (Elt F) :=
  select (cmpi .slt x (broadcastInDim S4096x200 ![] bcast_S_S4096x200 (constantI S_ 32 0#32)))
    (addi x (broadcastInDim S4096x200 ![] bcast_S_S4096x200 (constantI S_ 32 100001#32))) x

/-- The gather's start indices: the wrapped row numbers with a trailing axis of length 1. -/
def starts (x : (⟨S4096x200, .i32⟩ : BufTy).Contents (Elt F)) : (⟨S4096x200x1, .i32⟩ : BufTy).Contents (Elt F) :=
  broadcastInDim S4096x200x1 ![0, 1] bcast_S4096x200_S4096x200x1_0_1 (wrapped (F := F) x)

/-- The validity mask: `0 ≤ start ≤ 100000`, reduced by AND over the trailing axis. -/
def valid (x : (⟨S4096x200, .i32⟩ : BufTy).Contents (Elt F)) : (⟨S4096x200, .i1⟩ : BufTy).Contents (Elt F) :=
  Host.reduce IntOp.andi
    (andi (cmpi .sge (starts (F := F) x) (broadcastInDim S4096x200x1 ![] bcast_S_S4096x200x1 (constantI S_ 32 0#32)))
      (cmpi .sle (starts (F := F) x)
        (broadcastInDim S4096x200x1 ![0, 1, 2] bcast_S1x1x1_S4096x200x1_0_1_2
          (broadcastInDim S1x1x1 ![2] bcast_S1_S1x1x1_2 (constantI S1 32 100000#32)))))
    (constantI S_ 1 1#1) reducesTo_S4096x200x1_S4096x200_d2 h_S_

/-- The reference's result as a function of its two arguments: the gathered rows of the zeroed table where the
    row number is valid, the fill elsewhere. -/
def refOut (x : (⟨S4096x200, .i32⟩ : BufTy).Contents (Elt F)) (w : (⟨S100001x128, .f32⟩ : BufTy).Contents (Elt F)) :
    (⟨S4096x200x128, .f32⟩ : BufTy).Contents (Elt F) :=
  select (broadcastInDim S4096x200x128 ![0, 1] bcast_S4096x200_S4096x200x128_0_1 (valid (F := F) x))
    (Host.gather gather_S100001x128_S4096x200x1_S4096x200x128_2_0_n_n_0_2_1128 (tbl w) (starts (F := F) x))
    (broadcastInDim S4096x200x128 ![] bcast_S_S4096x200x128 (constant S_ .f32 0x7FC00000#32))

set_option maxHeartbeats 1000000 in
/-- The fold at the result buffer is `refOut` of the two arguments' contents: each operation's result at its own
    buffer is its function's value, at any other buffer what was there; the transport of contents along a typed
    reference's type equation, there and back, is the identity. -/
theorem out_eq (V : Valuation τ sig (Elt F)) :
    after ops V (main_v3 : DevRef τ sig) = refOut (V (main_arg0 : DevRef τ sig)) (V (main_arg1 : DevRef τ sig)) := by
  unfold refOut valid starts wrapped tbl
  after_results_simp
  simp only [TRef.ofBuf, TRef.toBuf, cast_cast, cast_eq]

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of
    @main terminates with the result at `refOut` of the arguments and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.RefValue.lean ====
/-
  The reference's result is the lookup. Under the two hypotheses — every row number below 100001, and the table's
  row 0 all zeros — the composed term `refOut x w` of the reference's run reads, at `(b, h, k)`, entry `k` of the
  table's row `x[b, h]`:
    * no row number is negative as a signed word, so the wrap-around leaves every one of them as it is;
    * each lies in `[0, 100000]`, so the validity mask is all ones and the final select takes the gathered rows,
      and the gather's clamp of the start index changes nothing;
    * the scatter overwrites row 0 of the table with zeros, which is what row 0 holds already.
-/
import proofs.«206608_g4801773437349_cont_8to1_c_1039_14_alg».proof.Proof.RefRun
import proofs.«206608_g4801773437349_cont_8to1_c_1039_14_alg».proof.Proof.Spec
import Idealize.ShloMosaic.Lib.ValueIdx
import Idealize.ShloMosaic.Lib.Affine
import Idealize.ShloMosaic.Lib.Pipeline.Value
import Idealize.ShloMosaic.PureOps.Reduce
import Idealize.ShloMosaic.PureOps.Ideal.Laws

noncomputable section

namespace Cert.Proof.Ref

open Cert.ReferenceIdeal Idealize.ShloMosaic Idealize.ShloMosaic.TcCoe Idealize.SL.Sem
open Idealize.ShloMosaic.ValueIdx
open Cert.ReferenceIdeal.Facts₀

/-! ## Words and folds -/

/-- A row number below 100001 read as a signed word is itself. -/
theorem toInt_of_lt {v : BitVec 32} (h : v.toNat < 100001) : v.toInt = (v.toNat : Int) :=
  BitVec.toInt_eq_toNat_of_lt (by omega)

/-- A left fold by `and` from 1 over words that are all 1 is 1. -/
theorem foldl_andi_all_one {ι : Type} (p : ι → BitVec 1) (hp : ∀ i, p i = 1#1) :
    ∀ l : List ι, l.foldl (fun r i => IntOp.andi r (p i)) 1#1 = 1#1
  | [] => rfl
  | a :: l => by
    have h1 : IntOp.andi 1#1 1#1 = 1#1 := by decide
    rw [List.foldl_cons, hp a, h1]
    exact foldl_andi_all_one p hp l

/-- A left fold that overwrites position `g n` with the constant `c` at step `n`: afterwards a position some step
    named holds `c`, every other one what it held. -/
theorem foldl_set_const {ι κ α : Type} [DecidableEq κ] (g : ι → κ) (c : α) :
    ∀ (l : List ι) (x : κ → α) (i : κ),
      l.foldl (fun r n => fun i' => if i' = g n then c else r i') x i = if ∃ n ∈ l, g n = i then c else x i
  | [], x, i => by simp
  | a :: l, x, i => by
    rw [List.foldl_cons, foldl_set_const g c l]
    by_cases h1 : ∃ n ∈ l, g n = i
    · rw [if_pos h1, if_pos (by obtain ⟨n, hn, e⟩ := h1; exact ⟨n, List.mem_cons_of_mem _ hn, e⟩)]
    · rw [if_neg h1]
      by_cases h2 : i = g a
      · rw [if_pos h2, if_pos ⟨a, List.mem_cons_self, h2.symm⟩]
      · rw [if_neg h2, if_neg]
        rintro ⟨n, hn, e⟩
        rcases List.mem_cons.1 hn with rfl | hn
        · exact h2 e.symm
        · exact h1 ⟨n, hn, e⟩

/-! ## The row numbers: the wrap-around does nothing, the mask is all ones -/

section Index

variable {F : FTy → Type} [FloatOps F]
variable (x : (⟨S4096x200, .i32⟩ : BufTy).Contents (Elt F)) (hx : ∀ i : S4096x200.Idx, (x i).toNat < 100001)

include hx in
/-- No row number is negative, so none is wrapped. -/
theorem wrapped_apply (i : S4096x200.Idx) : wrapped (F := F) x i = x i := by
  unfold wrapped
  rw [select_apply]
  have hc : cmpi .slt x (broadcastInDim S4096x200 ![] bcast_S_S4096x200 (constantI S_ 32 0#32)) i = 0#1 := by
    refine eq_zero_of_ne_one fun h => ?_
    have h' : (x i).toInt < (0#32 : BitVec 32).toInt := IntOp.cmpi_slt.mp h
    rw [toInt_of_lt (hx i)] at h'
    have : (0#32 : BitVec 32).toInt = 0 := by decide
    omega
  rw [hc, select_zero]

/-- The start index at `(b, h, 0)` is the wrapped row number at `(b, h)`. -/
theorem starts_apply (j : S4096x200x1.Idx) : starts (F := F) x j = wrapped (F := F) x (ix2 (j 0) (j 1)) := by
  unfold starts
  exact broadcastInDim_apply _ _ _ j (ix2 (j 0) (j 1)) (fun a => by
    match a with
    | ⟨0, _⟩ => rfl
    | ⟨1, _⟩ => rfl)

include hx in
/-- Every row number lies in `[0, 100000]`: the mask is 1 everywhere. -/
theorem valid_apply (j : S4096x200.Idx) : valid (F := F) x j = 1#1 := by
  unfold valid
  rw [Host.reduce_eq_foldl]
  refine foldl_andi_all_one _ (fun i => ?_) _
  have hs : (starts (F := F) x i).toNat < 100001 := by rw [starts_apply, wrapped_apply x hx]; exact hx _
  refine IntOp.andi_eq_one.mpr ⟨IntOp.cmpi_sge.mpr ?_, IntOp.cmpi_sle.mpr ?_⟩
  · show (0#32 : BitVec 32).toInt ≤ (starts (F := F) x i).toInt
    rw [toInt_of_lt hs]
    have : (0#32 : BitVec 32).toInt = 0 := by decide
    omega
  · show (starts (F := F) x i).toInt ≤ (100000#32 : BitVec 32).toInt
    rw [toInt_of_lt hs]
    have : (100000#32 : BitVec 32).toInt = 100000 := by decide
    omega

end Index

/-! ## The gather of rows at an index -/

section Gather

variable {α : Type}

/-- THE GATHER READ AT `(b, h, k)`: entry `k` of the operand's row at the start index `idx[b, h, 0]`, read signed and
    clamped into `[0, 100000]`. -/
theorem gather_apply (t : S100001x128.Idx → α) (idx : IVec S4096x200x1 32) (j : S4096x200x128.Idx) :
    Host.gather gather_S100001x128_S4096x200x1_S4096x200x128_2_0_n_n_0_2_1128 t idx j
      = t (ix2 (⟨min (idx (ix3 (j 0) (j 1) (0 : Fin 1))).toInt.toNat 100000, by omega⟩ : Fin 100001) (j 2)) := by
  unfold Host.gather
  congr 1
  funext a
  refine Fin.ext ?_
  match a with
  | ⟨0, _⟩ =>
    show gather_S100001x128_S4096x200x1_S4096x200x128_2_0_n_n_0_2_1128.start j idx 0 + gather_S100001x128_S4096x200x1_S4096x200x128_2_0_n_n_0_2_1128.batchCoord j 0 + gather_S100001x128_S4096x200x1_S4096x200x128_2_0_n_n_0_2_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x128_S4096x200x1_S4096x200x128_2_0_n_n_0_2_1128.startIndexMap from List.mem_singleton.mpr rfl)]
    have hsi : gather_S100001x128_S4096x200x1_S4096x200x128_2_0_n_n_0_2_1128.siIdx j ⟨List.idxOf (0 : Fin 2) gather_S100001x128_S4096x200x1_S4096x200x128_2_0_n_n_0_2_1128.startIndexMap,
        List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100001x128_S4096x200x1_S4096x200x128_2_0_n_n_0_2_1128.start j idx 1 + gather_S100001x128_S4096x200x1_S4096x200x128_2_0_n_n_0_2_1128.batchCoord j 1 + gather_S100001x128_S4096x200x1_S4096x200x128_2_0_n_n_0_2_1128.offCoord j 1 = (j 2).val
    rw [GatherDims.batchCoord_eq_zero _ _ _ List.not_mem_nil]
    have hst : gather_S100001x128_S4096x200x1_S4096x200x128_2_0_n_n_0_2_1128.start j idx 1 = 0 := by
      unfold GatherDims.start
      exact dif_neg (by decide)
    have hoff : gather_S100001x128_S4096x200x1_S4096x200x128_2_0_n_n_0_2_1128.offCoord j 1 = (j 2).val := by
      unfold GatherDims.offCoord
      rw [dif_pos (by decide)]
      rfl
    rw [hst, hoff]
    omega

end Gather

/-! ## The scatter of zeros over row 0 -/

section Scatter

/-- Update `k` of the scatter lands at `(0, k)`: the one start index is 0 and the window runs along the row. -/
theorem resultIdx_zero (idx : IVec S1 32) (hidx : ∀ k, idx k = 0#32) (j : S128.Idx) :
    scatter_S100001x128_S1_S128_0_0_0_0.resultIdx? j idx = some (ix2 (0 : Fin 100001) (j 0 : Fin 128)) := by
  have hst0 : scatter_S100001x128_S1_S128_0_0_0_0.start j idx 0 = 0 := by
    unfold ScatterDims.start
    rw [dif_pos (show (0 : Fin 2) ∈ scatter_S100001x128_S1_S128_0_0_0_0.scatterDimsToOperandDims from List.mem_singleton.mpr rfl), hidx]
    decide
  have hst1 : scatter_S100001x128_S1_S128_0_0_0_0.start j idx 1 = 0 := by
    unfold ScatterDims.start
    exact dif_neg (by decide)
  have hw0 : scatter_S100001x128_S1_S128_0_0_0_0.window j 0 = 0 := by
    unfold ScatterDims.window
    exact dif_neg (by decide)
  have hw1 : scatter_S100001x128_S1_S128_0_0_0_0.window j 1 = (j 0).val := by
    unfold ScatterDims.window
    rw [dif_pos (by decide)]
    rfl
  have hj : (j 0).val < 128 := (j 0).isLt
  have h : ∀ a, 0 ≤ scatter_S100001x128_S1_S128_0_0_0_0.start j idx a + scatter_S100001x128_S1_S128_0_0_0_0.window j a ∧ scatter_S100001x128_S1_S128_0_0_0_0.start j idx a + scatter_S100001x128_S1_S128_0_0_0_0.window j a < S100001x128.size a := by
    intro a
    match a with
    | ⟨0, _⟩ =>
      show 0 ≤ scatter_S100001x128_S1_S128_0_0_0_0.start j idx 0 + scatter_S100001x128_S1_S128_0_0_0_0.window j 0 ∧ scatter_S100001x128_S1_S128_0_0_0_0.start j idx 0 + scatter_S100001x128_S1_S128_0_0_0_0.window j 0 < ((100001 : Nat) : Int)
      rw [hst0, hw0]; omega
    | ⟨1, _⟩ =>
      show 0 ≤ scatter_S100001x128_S1_S128_0_0_0_0.start j idx 1 + scatter_S100001x128_S1_S128_0_0_0_0.window j 1 ∧ scatter_S100001x128_S1_S128_0_0_0_0.start j idx 1 + scatter_S100001x128_S1_S128_0_0_0_0.window j 1 < ((128 : Nat) : Int)
      rw [hst1, hw1]; omega
  unfold ScatterDims.resultIdx?
  rw [dif_pos h]
  congr 1
  funext a
  refine Fin.ext ?_
  match a with
  | ⟨0, _⟩ =>
    show (scatter_S100001x128_S1_S128_0_0_0_0.start j idx 0 + scatter_S100001x128_S1_S128_0_0_0_0.window j 0).toNat = 0
    rw [hst0, hw0]; rfl
  | ⟨1, _⟩ =>
    show (scatter_S100001x128_S1_S128_0_0_0_0.start j idx 1 + scatter_S100001x128_S1_S128_0_0_0_0.window j 1).toNat = (j 0).val
    rw [hst1, hw1]; omega

end Scatter

/-! ## The table after the scatter -/

section Table

/-- The entry of row 0 that update `n` of the scatter (in row-major order) writes. -/
def updCol (n : Fin S128.numel) : Fin 128 := (S128.rowMajor.symm n) 0

open Classical in
/-- The scatter as a fold: step `n` overwrites position `(0, n)` with zero. -/
theorem tbl_foldl (w : (⟨S100001x128, .f32⟩ : BufTy).Contents (Elt Ideal)) (i : S100001x128.Idx) :
    tbl (F := Ideal) w i
      = List.foldl (fun (r : S100001x128.Idx → EReal) (n : Fin S128.numel) =>
          fun (i' : S100001x128.Idx) => if i' = ix2 (0 : Fin 100001) (updCol n) then (0 : EReal) else r i')
        w (List.finRange S128.numel) i := by
  unfold tbl Host.scatter
  refine congrArg (fun f => List.foldl f w (List.finRange S128.numel) i) ?_
  funext r n
  rw [resultIdx_zero (broadcastInDim S1 ![] bcast_S_S1 (constantI S_ 32 0#32)) (fun _ => rfl)]
  funext i'
  have h0 : broadcastInDim S128 ![] bcast_S_S128 (constant (F := Ideal) S_ .f32 0x00000000#32) (S128.rowMajor.symm n) = (0 : EReal) :=
    Ideal.ofBits_zero_f32
  by_cases h : i' = ix2 (0 : Fin 100001) (updCol n)
  · rw [if_pos h]
    exact (if_pos h).trans h0
  · rw [if_neg h]
    exact if_neg h

open Classical in
/-- Row 0 of the table is all zeros already: the scatter changes nothing. -/
theorem tbl_eq (w : (⟨S100001x128, .f32⟩ : BufTy).Contents (Elt Ideal))
    (hw : ∀ k : Fin 128, w (ix2 (0 : Fin 100001) k) = (0 : EReal)) : tbl (F := Ideal) w = w := by
  funext (i : S100001x128.Idx)
  refine (tbl_foldl w i).trans ((foldl_set_const
    (fun n : Fin S128.numel => (ix2 (0 : Fin 100001) (updCol n) : S100001x128.Idx))
    (0 : EReal) (List.finRange S128.numel) w i).trans ?_)
  by_cases h : ∃ n ∈ List.finRange S128.numel, (ix2 (0 : Fin 100001) (updCol n) : S100001x128.Idx) = i
  · rw [if_pos h]
    obtain ⟨n, -, e⟩ := h
    rw [← e]
    exact (hw (updCol n)).symm
  · exact if_neg h

end Table

/-! ## The result -/

/-- The reference's composed term at `(b, h, k)` is entry `k` of the table's row `x[b, h]`. -/
theorem refOut_apply (x : (⟨S4096x200, .i32⟩ : BufTy).Contents (Elt Ideal)) (hx : ∀ i : S4096x200.Idx, (x i).toNat < 100001)
    (w : (⟨S100001x128, .f32⟩ : BufTy).Contents (Elt Ideal)) (hw : ∀ k : Fin 128, w (ix2 (0 : Fin 100001) k) = (0 : EReal))
    (j : S4096x200x128.Idx) : refOut (F := Ideal) x w j = Cert.Proof.Spec.lookup x w j := by
  unfold refOut
  rw [select_apply]
  have hv : broadcastInDim S4096x200x128 ![0, 1] bcast_S4096x200_S4096x200x128_0_1 (valid (F := Ideal) x) j = 1#1 := by
    rw [broadcastInDim_apply (![0, 1] : Fin S4096x200.rank → Fin S4096x200x128.rank) bcast_S4096x200_S4096x200x128_0_1
      (valid (F := Ideal) x) j (ix2 (j 0) (j 1)) (fun a => by
      match a with
      | ⟨0, _⟩ => rfl
      | ⟨1, _⟩ => rfl)]
    exact valid_apply x hx _
  rw [hv, select_one, gather_apply, tbl_eq w hw]
  have hs : starts (F := Ideal) x (ix3 (j 0) (j 1) (0 : Fin 1)) = x (ix2 (j 0) (j 1)) := by
    rw [starts_apply]; exact wrapped_apply x hx _
  have hlt := hx (ix2 (j 0) (j 1))
  have e : (⟨min (starts (F := Ideal) x (ix3 (j 0) (j 1) (0 : Fin 1))).toInt.toNat 100000, by omega⟩ : Fin 100001)
      = Cert.Proof.Spec.rowOf (x (ix2 (j 0) (j 1))) := by
    refine Fin.ext ?_
    show min (starts (F := Ideal) x (ix3 (j 0) (j 1) (0 : Fin 1))).toInt.toNat 100000 = (x (ix2 (j 0) (j 1))).toNat % 100001
    rw [hs, toInt_of_lt hlt, Int.toNat_natCast]
    omega
  rw [e]
  rfl

/-- The reference's composed term is the lookup. -/
theorem refOut_eq (x : (⟨S4096x200, .i32⟩ : BufTy).Contents (Elt Ideal)) (hx : ∀ i : S4096x200.Idx, (x i).toNat < 100001)
    (w : (⟨S100001x128, .f32⟩ : BufTy).Contents (Elt Ideal)) (hw : ∀ k : Fin 128, w (ix2 (0 : Fin 100001) k) = (0 : EReal)) :
    refOut (F := Ideal) x w = Cert.Proof.Spec.lookup x w :=
  funext fun j => refOut_apply x hx w hw j

/-- THE REFERENCE'S RUN: from any memory whose row numbers are below 100001 and whose table has a zero row 0, every
    weakly fair execution of @main terminates with the result the lookup of the two arguments and the arguments
    unchanged. -/
theorem run (m : (ℓ : Loc nD τ sig) → Buf (Elt Ideal) ℓ) (g : Dev nD → PrngReg)
    (hx : ∀ (c : Dev nD) (i : S4096x200.Idx), (m ((c.tc : Thread nD τ).loc main_arg0) i).toNat < 100001)
    (hw : ∀ (c : Dev nD) (k : Fin 128), m ((c.tc : Thread nD τ).loc main_arg1) (Idealize.ShloMosaic.ValueIdx.ix2 (0 : Fin 100001) k) = (0 : EReal)) :
    θ_run (defs (F := Ideal)) (onTc (τ := τ) (main (F := Ideal))) ⟨m, fun _ => 0, g⟩ (fun r => ∀ c : Dev nD,
      r.2.mem ((c.tc : Thread nD τ).loc main_v3) = Cert.Proof.Spec.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hrun := run_out (F := Ideal) m g
  refine (θ_run (defs (F := Ideal)) _ _).mono (fun r h c => ?_) hrun
  obtain ⟨h1, h2, h3⟩ := h c
  exact ⟨h1.trans (refOut_eq _ (hx c) _ (hw c)), h2, h3⟩

end Cert.Proof.Ref

end
-- ==== Proof.lean ====
/-
  An embedding lookup on the SparseCore against `jnp.take` of the table with its row 0 zeroed.

  `x : i32[4096, 200]` holds row numbers of the table `wt : f32[100001, 128]`; the result `f32[4096, 200, 128]` is to hold,
  at `(b, h, k)`, entry `k` of row `x[b, h]` of the table (`Spec.lookup`).

  The kernel. The index array is flattened to `i32[6400, 128]` and the work is cut among 2 SparseCores x 16 vector
  subcores: tile `w` copies its 200 rows of indices into its own memory, then, 128 index words at a time and through
  four buffers in turn, gathers the 128 table rows those words name and writes them to its 25600 rows of the flat result
  `f32[819200, 128]`, whose row `r` is therefore the table's row named by the `r`-th index word. The result is the flat
  array with its rows regrouped by `(b, h)`: flat positions are kept, so this is the lookup. Every gather needs its index
  words to name rows of the table, which is what the precondition `0 ≤ x ≤ 100000` gives.

  The reference writes zeros over row 0 of the table and gathers row `x[b, h]` of that. The precondition says row 0 of the
  table is zero already, so zeroing it changes nothing, and with every index in range the gather's clamping and its
  out-of-range fill never act: the reference is the lookup of the table as given too.

  So both programs end with `Spec.lookup x wt` in their result, their arguments unchanged: the three frames drop the
  result, and the algebraic claim takes the lookup as the common value. The ideal pass rewrote nothing, so there is
  nothing to preserve.
-/
import proofs.«206608_g4801773437349_cont_8to1_c_1039_14_alg».proof.Defs
import proofs.«206608_g4801773437349_cont_8to1_c_1039_14_alg».proof.Proof.Gen.Kernel
import proofs.«206608_g4801773437349_cont_8to1_c_1039_14_alg».proof.Proof.Gen.Kernel.Skeleton
import proofs.«206608_g4801773437349_cont_8to1_c_1039_14_alg».proof.Proof.Gen.KernelIdeal
import proofs.«206608_g4801773437349_cont_8to1_c_1039_14_alg».proof.Proof.Gen.KernelIdeal.Skeleton
import proofs.«206608_g4801773437349_cont_8to1_c_1039_14_alg».proof.Proof.Gen.ReferenceIdeal
import proofs.«206608_g4801773437349_cont_8to1_c_1039_14_alg».proof.Proof.Gen.Pre_input_domain
import proofs.«206608_g4801773437349_cont_8to1_c_1039_14_alg».proof.Proof.Spec
import proofs.«206608_g4801773437349_cont_8to1_c_1039_14_alg».proof.Proof.PreFacts
import proofs.«206608_g4801773437349_cont_8to1_c_1039_14_alg».proof.Proof.KILaunchB
import proofs.«206608_g4801773437349_cont_8to1_c_1039_14_alg».proof.Proof.KBLaunchB
import proofs.«206608_g4801773437349_cont_8to1_c_1039_14_alg».proof.Proof.RefValue
import Idealize.ShloMosaic.Adequacy
import Idealize.ShloMosaic.Init

noncomputable section

namespace Cert.Proof

open Idealize.ShloMosaic Idealize.SL.Sem

/-- The program as printed runs and leaves its arguments as they were: its run with the result dropped. The precondition
    puts every index word in range. -/
theorem frame_kernel : Cert.frame_Kernel := fun m g hpre =>
  (θ_run Cert.Kernel.defs _ _).mono (fun _ h c => (h c).2)
    (KB.run_main (F := Bits) m g (fun d j => PreFacts.x_in_range _ _ (hpre d) j))

/-- The same of the idealized program. -/
theorem frame_kernelIdeal : Cert.frame_KernelIdeal := fun m g hpre =>
  (θ_run Cert.KernelIdeal.defs _ _).mono (fun _ h c => (h c).2)
    (KI.run_main (F := Ideal) m g (fun d j => PreFacts.x_in_range _ _ (hpre d) j))

/-- The reference runs and leaves its arguments as they were: the precondition puts every index word in range and makes
    row 0 of the table zero. -/
theorem frame_reference : Cert.frame_ReferenceIdeal := fun m g hpre =>
  (θ_run Cert.ReferenceIdeal.defs _ _).mono (fun _ h c => (h c).2)
    (Ref.run m g (fun c i => PreFacts.x_in_range _ _ (hpre c) i) (fun c k => PreFacts.row0_zero _ _ (hpre c) k))

/-- From memories that agree on the arguments both programs end with the lookup of those arguments. -/
theorem algebraic : Cert.algebraic_KernelIdeal_ReferenceIdeal := by
  intro m g m' g' hpre hagree
  -- the reference's arguments are the kernel's, so the precondition holds of them as well
  have hpre' : Cert.Pre_ReferenceIdeal m' := fun c => by
    show Cert.Pre_input_domain.fn (F := Ideal) _ _ = _
    rw [(hagree c).1, (hagree c).2]
    exact hpre c
  refine ⟨fun c => Spec.lookup (m (KI.aLoc c)) (m (KI.wLoc c)),
    KI.run_main (F := Ideal) m g (fun d j => PreFacts.x_in_range _ _ (hpre d) j), ?_⟩
  refine (θ_run Cert.ReferenceIdeal.defs _ _).mono (fun _ h c => ⟨(h c).1.trans ?_, (h c).2⟩)
    (Ref.run m' g' (fun c i => PreFacts.x_in_range _ _ (hpre' c) i) (fun c k => PreFacts.row0_zero _ _ (hpre' c) k))
  rw [(hagree c).1, (hagree c).2]

theorem claim : Cert.Claim := ⟨Cert.Kernel.Gen.facts, Cert.KernelIdeal.Gen.facts, Cert.ReferenceIdeal.Gen.facts, Cert.Pre_input_domain.Gen.facts,
  frame_kernel, frame_kernelIdeal, frame_reference, trivial, algebraic⟩

end Cert.Proof

end
